-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)) →
    ∃ (v0 : (c : Dev Cert.KernelIdeal.nD) → Buf (Elt Ideal) ((c.tc : Thread Cert.KernelIdeal.nD Cert.KernelIdeal.τ).loc Cert.KernelIdeal.main_v139)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v139) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v80) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S8x16384x3 : Shape := ⟨3, ![8, 16384, 3]⟩
abbrev S4x4x2000x4 : Shape := ⟨4, ![4, 4, 2000, 4]⟩
abbrev S4 : Shape := ⟨1, ![4]⟩
abbrev S8x16384 : Shape := ⟨2, ![8, 16384]⟩
abbrev S8x8192x128 : Shape := ⟨3, ![8, 8192, 128]⟩
abbrev S_ : Shape := ⟨0, ![]⟩

class Facts : Prop where
  bcast_S_S8x16384x3 : S_.BroadcastsInDim S8x16384x3 (![] : Fin 0 → Fin S8x16384x3.rank)
  reducesTo_S8x16384x3_S_d0_1_2 : S8x16384x3.ReducesTo [0, 1, 2] S_
  h_S_ : 0 < S_.numel
  bcast_S_S4x4x2000x4 : S_.BroadcastsInDim S4x4x2000x4 (![] : Fin 0 → Fin S4x4x2000x4.rank)
  reducesTo_S4x4x2000x4_S_d0_1_2_3 : S4x4x2000x4.ReducesTo [0, 1, 2, 3] S_
  bcast_S_S4 : S_.BroadcastsInDim S4 (![] : Fin 0 → Fin S4.rank)
  reducesTo_S4_S_d0 : S4.ReducesTo [0] S_

variable [Facts]

def fn {F : FTy → Type} [FloatOps F] (main_arg0 : FVec F S8x16384x3 .f32) (main_arg1 : FVec F S4x4x2000x4 .f32) (main_arg2 : FVec F S4 .f32) (main_arg3 : IVec S8x16384 32) (main_arg4 : IVec S8x8192x128 32) : IVec S_ 1 :=
  let main_v0 : FVec F S8x16384x3 .f32 := Host.absf main_arg0
  let main_cst : FVec F S_ .f32 := constant S_ .f32 0x7F800000#32
  let main_v1 : FVec F S8x16384x3 .f32 := broadcastInDim S8x16384x3 ![] bcast_S_S8x16384x3 main_cst
  let main_v2 : IVec S8x16384x3 1 := cmpf .olt main_v0 main_v1
  let main_c : IVec S_ 1 := constantI S_ 1 1#1
  let main_v3 : IVec S_ 1 := (fun x v => Host.reduce IntOp.andi x v reducesTo_S8x16384x3_S_d0_1_2 h_S_) main_v2 main_c
  let main_v4 : FVec F S4x4x2000x4 .f32 := Host.absf main_arg1
  let main_cst_0 : FVec F S_ .f32 := constant S_ .f32 0x7F800000#32
  let main_v5 : FVec F S4x4x2000x4 .f32 := broadcastInDim S4x4x2000x4 ![] bcast_S_S4x4x2000x4 main_cst_0
  let main_v6 : IVec S4x4x2000x4 1 := cmpf .olt main_v4 main_v5
  let main_c_1 : IVec S_ 1 := constantI S_ 1 1#1
  let main_v7 : IVec S_ 1 := (fun x v => Host.reduce IntOp.andi x v reducesTo_S4x4x2000x4_S_d0_1_2_3 h_S_) main_v6 main_c_1
  let main_v8 : IVec S_ 1 := andi main_v3 main_v7
  let main_v9 : FVec F S4 .f32 := Host.absf main_arg2
  let main_cst_2 : FVec F S_ .f32 := constant S_ .f32 0x7F800000#32
  let main_v10 : FVec F S4 .f32 := broadcastInDim S4 ![] bcast_S_S4 main_cst_2
  let main_v11 : IVec S4 1 := cmpf .olt main_v9 main_v10
  let main_c_3 : IVec S_ 1 := constantI S_ 1 1#1
  let main_v12 : IVec S_ 1 := (fun x v => Host.reduce IntOp.andi x v reducesTo_S4_S_d0 h_S_) main_v11 main_c_3
  let main_v13 : IVec S_ 1 := andi main_v8 main_v12
  main_v13
-- ==== Kernel.lean ====
abbrev S8x16384x3 : Shape := ⟨3, ![8, 16384, 3]⟩
abbrev S4x4x2000x4 : Shape := ⟨4, ![4, 4, 2000, 4]⟩
abbrev S4 : Shape := ⟨1, ![4]⟩
abbrev S8x16384 : Shape := ⟨2, ![8, 16384]⟩
abbrev S8x8192x128 : Shape := ⟨3, ![8, 8192, 128]⟩
abbrev S1 : Shape := ⟨1, ![1]⟩
abbrev S_ : Shape := ⟨0, ![]⟩
abbrev S8x8192 : Shape := ⟨2, ![8, 8192]⟩
abbrev S8x1048576 : Shape := ⟨2, ![8, 1048576]⟩
abbrev S8x1048576x1 : Shape := ⟨3, ![8, 1048576, 1]⟩
abbrev S1x1x1 : Shape := ⟨3, ![1, 1, 1]⟩
abbrev S8x8192x3 : Shape := ⟨3, ![8, 8192, 3]⟩
abbrev S8x8192x1x3 : Shape := ⟨4, ![8, 8192, 1, 3]⟩
abbrev S8x1048576x3 : Shape := ⟨3, ![8, 1048576, 3]⟩
abbrev S8x8192x128x3 : Shape := ⟨4, ![8, 8192, 128, 3]⟩
abbrev S8x8192x1 : Shape := ⟨3, ![8, 8192, 1]⟩
abbrev S4x4x4x2000 : Shape := ⟨4, ![4, 4, 4, 2000]⟩
abbrev S1x4x4x2000 : Shape := ⟨4, ![1, 4, 4, 2000]⟩
abbrev S4x4x2000 : Shape := ⟨3, ![4, 4, 2000]⟩
abbrev S8x8192x128x1 : Shape := ⟨4, ![8, 8192, 128, 1]⟩
abbrev S65536x128 : Shape := ⟨2, ![65536, 128]⟩
abbrev S65536x1 : Shape := ⟨2, ![65536, 1]⟩
abbrev S4096x128 : Shape := ⟨2, ![4096, 128]⟩
abbrev S4096x1 : Shape := ⟨2, ![4096, 1]⟩
abbrev S4096 : Shape := ⟨1, ![4096]⟩

abbrev nBuf : Space → Nat
  | .hbm => 229
  | .vmem => 14
  | .smem => 0
  | _ => 0

abbrev hbmTy0_0 (i : Nat) : BufTy := match i % 128 with
  | 0 => ⟨S8x16384x3, .f32⟩
  | 1 => ⟨S4x4x2000x4, .f32⟩
  | 2 => ⟨S4, .f32⟩
  | 3 => ⟨S8x16384, .i32⟩
  | 4 => ⟨S8x8192x128, .i32⟩
  | 5 => ⟨S1, .f32⟩
  | 6 => ⟨S_, .f32⟩
  | 7 => ⟨S1, .f32⟩
  | 8 => ⟨S_, .f32⟩
  | 9 => ⟨S_, .i32⟩
  | 10 => ⟨S8x8192x128, .i32⟩
  | 11 => ⟨S8x8192x128, .i1⟩
  | 12 => ⟨S_, .i32⟩
  | 13 => ⟨S8x8192x128, .i32⟩
  | 14 => ⟨S8x8192x128, .i32⟩
  | 15 => ⟨S8x8192, .i32⟩
  | 16 => ⟨S8x1048576, .i32⟩
  | 17 => ⟨S_, .i32⟩
  | 18 => ⟨S8x1048576, .i32⟩
  | 19 => ⟨S8x1048576, .i1⟩
  | 20 => ⟨S_, .i32⟩
  | 21 => ⟨S8x1048576, .i32⟩
  | 22 => ⟨S8x1048576, .i32⟩
  | 23 => ⟨S8x1048576, .i32⟩
  | 24 => ⟨S8x1048576x1, .i32⟩
  | 25 => ⟨S1, .i32⟩
  | 26 => ⟨S_, .i32⟩
  | 27 => ⟨S8x1048576x1, .i32⟩
  | 28 => ⟨S8x1048576x1, .i1⟩
  | 29 => ⟨S1x1x1, .i32⟩
  | 30 => ⟨S8x1048576x1, .i32⟩
  | 31 => ⟨S8x1048576x1, .i1⟩
  | 32 => ⟨S8x1048576x1, .i1⟩
  | 33 => ⟨S_, .i1⟩
  | 34 => ⟨S8x1048576, .i1⟩
  | 35 => ⟨S8x1048576, .i32⟩
  | 36 => ⟨S_, .i32⟩
  | 37 => ⟨S8x1048576, .i32⟩
  | 38 => ⟨S8x1048576, .i32⟩
  | 39 => ⟨S8x8192x128, .i32⟩
  | 40 => ⟨S8x8192x3, .f32⟩
  | 41 => ⟨S8x8192x1x3, .f32⟩
  | 42 => ⟨S8x1048576x1, .i32⟩
  | 43 => ⟨S_, .i32⟩
  | 44 => ⟨S8x1048576x1, .i32⟩
  | 45 => ⟨S8x1048576x1, .i1⟩
  | 46 => ⟨S_, .i32⟩
  | 47 => ⟨S8x1048576x1, .i32⟩
  | 48 => ⟨S8x1048576x1, .i32⟩
  | 49 => ⟨S8x1048576x1, .i32⟩
  | 50 => ⟨S1, .i32⟩
  | 51 => ⟨S_, .i32⟩
  | 52 => ⟨S8x1048576x1, .i32⟩
  | 53 => ⟨S8x1048576x1, .i1⟩
  | 54 => ⟨S1x1x1, .i32⟩
  | 55 => ⟨S8x1048576x1, .i32⟩
  | 56 => ⟨S8x1048576x1, .i1⟩
  | 57 => ⟨S8x1048576x1, .i1⟩
  | 58 => ⟨S_, .i1⟩
  | 59 => ⟨S8x1048576, .i1⟩
  | 60 => ⟨S8x1048576x3, .f32⟩
  | 61 => ⟨S8x1048576x3, .i1⟩
  | 62 => ⟨S_, .f32⟩
  | 63 => ⟨S8x1048576x3, .f32⟩
  | 64 => ⟨S8x1048576x3, .f32⟩
  | 65 => ⟨S8x8192x128x3, .f32⟩
  | 66 => ⟨S8x8192x128x3, .f32⟩
  | 67 => ⟨S8x8192x128x3, .f32⟩
  | 68 => ⟨S8x8192x128x3, .f32⟩
  | 69 => ⟨S_, .f32⟩
  | 70 => ⟨S8x8192x128, .f32⟩
  | 71 => ⟨S8x8192x128, .f32⟩
  | 72 => ⟨S8x8192x128, .f32⟩
  | 73 => ⟨S8x8192x128, .f32⟩
  | 74 => ⟨S8x8192x128, .f32⟩
  | 75 => ⟨S8x8192x128, .f32⟩
  | 76 => ⟨S_, .f32⟩
  | 77 => ⟨S8x8192x128, .f32⟩
  | 78 => ⟨S8x8192x128, .f32⟩
  | 79 => ⟨S8x8192x128, .i32⟩
  | 80 => ⟨S8x8192x128, .f32⟩
  | 81 => ⟨S8x8192x128, .f32⟩
  | 82 => ⟨S_, .i32⟩
  | 83 => ⟨S_, .i32⟩
  | 84 => ⟨S_, .i32⟩
  | 85 => ⟨S8x8192x128, .i32⟩
  | 86 => ⟨S8x8192x128, .i32⟩
  | 87 => ⟨S_, .i32⟩
  | 88 => ⟨S8x8192x128, .i32⟩
  | 89 => ⟨S8x8192x128, .i32⟩
  | 90 => ⟨S8x8192x1, .i32⟩
  | 91 => ⟨S8x8192x128, .i32⟩
  | 92 => ⟨S4x4x4x2000, .f32⟩
  | 93 => ⟨S1x4x4x2000, .f32⟩
  | 94 => ⟨S4x4x2000, .f32⟩
  | 95 => ⟨S_, .i32⟩
  | 96 => ⟨S8x8192x128, .i32⟩
  | 97 => ⟨S8x8192x128, .i1⟩
  | 98 => ⟨S_, .i32⟩
  | 99 => ⟨S8x8192x128, .i32⟩
  | 100 => ⟨S8x8192x128, .i32⟩
  | 101 => ⟨S8x8192x128, .i32⟩
  | 102 => ⟨S_, .i32⟩
  | 103 => ⟨S8x8192x128, .i32⟩
  | 104 => ⟨S8x8192x128, .i1⟩
  | 105 => ⟨S_, .i32⟩
  | 106 => ⟨S8x8192x128, .i32⟩
  | 107 => ⟨S8x8192x128, .i32⟩
  | 108 => ⟨S8x8192x128, .i32⟩
  | 109 => ⟨S_, .i32⟩
  | 110 => ⟨S8x8192x128, .i32⟩
  | 111 => ⟨S8x8192x128, .i1⟩
  | 112 => ⟨S_, .i32⟩
  | 113 => ⟨S8x8192x128, .i32⟩
  | 114 => ⟨S8x8192x128, .i32⟩
  | 115 => ⟨S8x8192x128, .i32⟩
  | 116 => ⟨S8x8192x128x1, .i32⟩
  | 117 => ⟨S8x8192x128x1, .i32⟩
  | 118 => ⟨S8x8192x128x1, .i32⟩
  | 119 => ⟨S8x8192x128x3, .i32⟩
  | 120 => ⟨S8x8192x128, .f32⟩
  | 121 => ⟨S1x4x4x2000, .f32⟩
  | 122 => ⟨S4x4x2000, .f32⟩
  | 123 => ⟨S_, .i32⟩
  | 124 => ⟨S8x8192x128, .i32⟩
  | 125 => ⟨S8x8192x128, .i1⟩
  | 126 => ⟨S_, .i32⟩
  | 127 => ⟨S8x8192x128, .i32⟩
  | _ => ⟨S8x16384x3, .f32⟩

abbrev hbmTy0_1 (i : Nat) : BufTy := match i % 128 with
  | 0 => ⟨S8x8192x128, .i32⟩
  | 1 => ⟨S8x8192x128, .i32⟩
  | 2 => ⟨S_, .i32⟩
  | 3 => ⟨S8x8192x128, .i32⟩
  | 4 => ⟨S8x8192x128, .i1⟩
  | 5 => ⟨S_, .i32⟩
  | 6 => ⟨S8x8192x128, .i32⟩
  | 7 => ⟨S8x8192x128, .i32⟩
  | 8 => ⟨S8x8192x128, .i32⟩
  | 9 => ⟨S_, .i32⟩
  | 10 => ⟨S8x8192x128, .i32⟩
  | 11 => ⟨S8x8192x128, .i1⟩
  | 12 => ⟨S_, .i32⟩
  | 13 => ⟨S8x8192x128, .i32⟩
  | 14 => ⟨S8x8192x128, .i32⟩
  | 15 => ⟨S8x8192x128, .i32⟩
  | 16 => ⟨S8x8192x128x1, .i32⟩
  | 17 => ⟨S8x8192x128x1, .i32⟩
  | 18 => ⟨S8x8192x128x1, .i32⟩
  | 19 => ⟨S8x8192x128x3, .i32⟩
  | 20 => ⟨S8x8192x128, .f32⟩
  | 21 => ⟨S1x4x4x2000, .f32⟩
  | 22 => ⟨S4x4x2000, .f32⟩
  | 23 => ⟨S_, .i32⟩
  | 24 => ⟨S8x8192x128, .i32⟩
  | 25 => ⟨S8x8192x128, .i1⟩
  | 26 => ⟨S_, .i32⟩
  | 27 => ⟨S8x8192x128, .i32⟩
  | 28 => ⟨S8x8192x128, .i32⟩
  | 29 => ⟨S8x8192x128, .i32⟩
  | 30 => ⟨S_, .i32⟩
  | 31 => ⟨S8x8192x128, .i32⟩
  | 32 => ⟨S8x8192x128, .i1⟩
  | 33 => ⟨S_, .i32⟩
  | 34 => ⟨S8x8192x128, .i32⟩
  | 35 => ⟨S8x8192x128, .i32⟩
  | 36 => ⟨S8x8192x128, .i32⟩
  | 37 => ⟨S_, .i32⟩
  | 38 => ⟨S8x8192x128, .i32⟩
  | 39 => ⟨S8x8192x128, .i1⟩
  | 40 => ⟨S_, .i32⟩
  | 41 => ⟨S8x8192x128, .i32⟩
  | 42 => ⟨S8x8192x128, .i32⟩
  | 43 => ⟨S8x8192x128, .i32⟩
  | 44 => ⟨S8x8192x128x1, .i32⟩
  | 45 => ⟨S8x8192x128x1, .i32⟩
  | 46 => ⟨S8x8192x128x1, .i32⟩
  | 47 => ⟨S8x8192x128x3, .i32⟩
  | 48 => ⟨S8x8192x128, .f32⟩
  | 49 => ⟨S1x4x4x2000, .f32⟩
  | 50 => ⟨S4x4x2000, .f32⟩
  | 51 => ⟨S_, .i32⟩
  | 52 => ⟨S8x8192x128, .i32⟩
  | 53 => ⟨S8x8192x128, .i1⟩
  | 54 => ⟨S_, .i32⟩
  | 55 => ⟨S8x8192x128, .i32⟩
  | 56 => ⟨S8x8192x128, .i32⟩
  | 57 => ⟨S8x8192x128, .i32⟩
  | 58 => ⟨S_, .i32⟩
  | 59 => ⟨S8x8192x128, .i32⟩
  | 60 => ⟨S8x8192x128, .i1⟩
  | 61 => ⟨S_, .i32⟩
  | 62 => ⟨S8x8192x128, .i32⟩
  | 63 => ⟨S8x8192x128, .i32⟩
  | 64 => ⟨S8x8192x128, .i32⟩
  | 65 => ⟨S_, .i32⟩
  | 66 => ⟨S8x8192x128, .i32⟩
  | 67 => ⟨S8x8192x128, .i1⟩
  | 68 => ⟨S_, .i32⟩
  | 69 => ⟨S8x8192x128, .i32⟩
  | 70 => ⟨S8x8192x128, .i32⟩
  | 71 => ⟨S8x8192x128, .i32⟩
  | 72 => ⟨S8x8192x128x1, .i32⟩
  | 73 => ⟨S8x8192x128x1, .i32⟩
  | 74 => ⟨S8x8192x128x1, .i32⟩
  | 75 => ⟨S8x8192x128x3, .i32⟩
  | 76 => ⟨S8x8192x128, .f32⟩
  | 77 => ⟨S_, .f32⟩
  | 78 => ⟨S8x8192x128, .f32⟩
  | 79 => ⟨S8x8192x128, .i1⟩
  | 80 => ⟨S_, .f32⟩
  | 81 => ⟨S_, .f32⟩
  | 82 => ⟨S_, .f32⟩
  | 83 => ⟨S8x8192x128, .f32⟩
  | 84 => ⟨S8x8192x128, .i1⟩
  | 85 => ⟨S8x8192x128, .i1⟩
  | 86 => ⟨S_, .i32⟩
  | 87 => ⟨S8x8192x128, .i32⟩
  | 88 => ⟨S8x8192x128, .i1⟩
  | 89 => ⟨S8x8192x128, .i1⟩
  | 90 => ⟨S8x8192x128, .i1⟩
  | 91 => ⟨S8x8192x128, .i1⟩
  | 92 => ⟨S8x8192x128, .f32⟩
  | 93 => ⟨S65536x128, .f32⟩
  | 94 => ⟨S65536x128, .f32⟩
  | 95 => ⟨S65536x128, .f32⟩
  | 96 => ⟨S65536x128, .f32⟩
  | 97 => ⟨S65536x128, .f32⟩
  | 98 => ⟨S65536x128, .f32⟩
  | 99 => ⟨S65536x1, .f32⟩
  | 100 => ⟨S8x8192x1, .f32⟩
  | _ => ⟨S8x16384x3, .f32⟩

abbrev hbmTy (i : Nat) : BufTy := match i / 128 with
  | 0 => hbmTy0_0 i
  | 1 => hbmTy0_1 i
  | _ => ⟨S8x16384x3, .f32⟩

abbrev bufTy : (tb : Table) → Fin (tcTables nBuf tb) → BufTy
  | .hbm, ⟨i, _⟩ => hbmTy i
  | .local _ .vmem, ⟨0, _⟩ => ⟨S4096x128, .f32⟩
  | .local _ .vmem, ⟨1, _⟩ => ⟨S4096x128, .f32⟩
  | .local _ .vmem, ⟨2, _⟩ => ⟨S4096x128, .f32⟩
  | .local _ .vmem, ⟨3, _⟩ => ⟨S4096x128, .f32⟩
  | .local _ .vmem, ⟨4, _⟩ => ⟨S4096x128, .f32⟩
  | .local _ .vmem, ⟨5, _⟩ => ⟨S4096x128, .f32⟩
  | .local _ .vmem, ⟨6, _⟩ => ⟨S4096x128, .f32⟩
  | .local _ .vmem, ⟨7, _⟩ => ⟨S4096x128, .f32⟩
  | .local _ .vmem, ⟨8, _⟩ => ⟨S4096x128, .f32⟩
  | .local _ .vmem, ⟨9, _⟩ => ⟨S4096x128, .f32⟩
  | .local _ .vmem, ⟨10, _⟩ => ⟨S4096x128, .f32⟩
  | .local _ .vmem, ⟨11, _⟩ => ⟨S4096x128, .f32⟩
  | .local _ .vmem, ⟨12, _⟩ => ⟨S4096x1, .f32⟩
  | .local _ .vmem, ⟨13, _⟩ => ⟨S4096x1, .f32⟩
  | _, _ => ⟨S8x16384x3, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | _, _ => false

abbrev semScoped : Fin 0 → Bool
  | ⟨_, h⟩ => absurd h (Nat.not_lt_zero _)

abbrev dmaSemScoped : Fin 14 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | _ => false

abbrev sig : RefSig :=
  ofTc nBuf bufTy 0 14 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev main_v3 : Ref sig .tc := ⟨.hbm, 8, rfl⟩
abbrev main_c : Ref sig .tc := ⟨.hbm, 9, rfl⟩
abbrev main_v4 : Ref sig .tc := ⟨.hbm, 10, rfl⟩
abbrev main_v5 : Ref sig .tc := ⟨.hbm, 11, rfl⟩
abbrev main_c_0 : Ref sig .tc := ⟨.hbm, 12, rfl⟩
abbrev main_call0_v0 : Ref sig .tc := ⟨.hbm, 13, rfl⟩
abbrev main_v6 : Ref sig .tc := ⟨.hbm, 14, rfl⟩
abbrev main_v7 : Ref sig .tc := ⟨.hbm, 15, rfl⟩
abbrev main_v8 : Ref sig .tc := ⟨.hbm, 16, rfl⟩
abbrev main_call1_c : Ref sig .tc := ⟨.hbm, 17, rfl⟩
abbrev main_call1_v0 : Ref sig .tc := ⟨.hbm, 18, rfl⟩
abbrev main_call1_v1 : Ref sig .tc := ⟨.hbm, 19, rfl⟩
abbrev main_call1_c_0 : Ref sig .tc := ⟨.hbm, 20, rfl⟩
abbrev main_call1_v2 : Ref sig .tc := ⟨.hbm, 21, rfl⟩
abbrev main_call1_v3 : Ref sig .tc := ⟨.hbm, 22, rfl⟩
abbrev main_call1_v4 : Ref sig .tc := ⟨.hbm, 23, rfl⟩
abbrev main_call1_v5 : Ref sig .tc := ⟨.hbm, 24, rfl⟩
abbrev main_call1_c_1 : Ref sig .tc := ⟨.hbm, 25, rfl⟩
abbrev main_call1_c_2 : Ref sig .tc := ⟨.hbm, 26, rfl⟩
abbrev main_call1_v6 : Ref sig .tc := ⟨.hbm, 27, rfl⟩
abbrev main_call1_v7 : Ref sig .tc := ⟨.hbm, 28, rfl⟩
abbrev main_call1_v8 : Ref sig .tc := ⟨.hbm, 29, rfl⟩
abbrev main_call1_v9 : Ref sig .tc := ⟨.hbm, 30, rfl⟩
abbrev main_call1_v10 : Ref sig .tc := ⟨.hbm, 31, rfl⟩
abbrev main_call1_v11 : Ref sig .tc := ⟨.hbm, 32, rfl⟩
abbrev main_call1_c_3 : Ref sig .tc := ⟨.hbm, 33, rfl⟩
abbrev main_call1_v12 : Ref sig .tc := ⟨.hbm, 34, rfl⟩
abbrev main_call1_v13 : Ref sig .tc := ⟨.hbm, 35, rfl⟩
abbrev main_call1_c_4 : Ref sig .tc := ⟨.hbm, 36, rfl⟩
abbrev main_call1_v14 : Ref sig .tc := ⟨.hbm, 37, rfl⟩
abbrev main_v9 : Ref sig .tc := ⟨.hbm, 38, rfl⟩
abbrev main_v10 : Ref sig .tc := ⟨.hbm, 39, rfl⟩
abbrev main_v11 : Ref sig .tc := ⟨.hbm, 40, rfl⟩
abbrev main_v12 : Ref sig .tc := ⟨.hbm, 41, rfl⟩
abbrev main_v13 : Ref sig .tc := ⟨.hbm, 42, rfl⟩
abbrev main_call2_c : Ref sig .tc := ⟨.hbm, 43, rfl⟩
abbrev main_call2_v0 : Ref sig .tc := ⟨.hbm, 44, rfl⟩
abbrev main_call2_v1 : Ref sig .tc := ⟨.hbm, 45, rfl⟩
abbrev main_call2_c_0 : Ref sig .tc := ⟨.hbm, 46, rfl⟩
abbrev main_call2_v2 : Ref sig .tc := ⟨.hbm, 47, rfl⟩
abbrev main_call2_v3 : Ref sig .tc := ⟨.hbm, 48, rfl⟩
abbrev main_call2_v4 : Ref sig .tc := ⟨.hbm, 49, rfl⟩
abbrev main_call2_c_1 : Ref sig .tc := ⟨.hbm, 50, rfl⟩
abbrev main_call2_c_2 : Ref sig .tc := ⟨.hbm, 51, rfl⟩
abbrev main_call2_v5 : Ref sig .tc := ⟨.hbm, 52, rfl⟩
abbrev main_call2_v6 : Ref sig .tc := ⟨.hbm, 53, rfl⟩
abbrev main_call2_v7 : Ref sig .tc := ⟨.hbm, 54, rfl⟩
abbrev main_call2_v8 : Ref sig .tc := ⟨.hbm, 55, rfl⟩
abbrev main_call2_v9 : Ref sig .tc := ⟨.hbm, 56, rfl⟩
abbrev main_call2_v10 : Ref sig .tc := ⟨.hbm, 57, rfl⟩
abbrev main_call2_c_3 : Ref sig .tc := ⟨.hbm, 58, rfl⟩
abbrev main_call2_v11 : Ref sig .tc := ⟨.hbm, 59, rfl⟩
abbrev main_call2_v12 : Ref sig .tc := ⟨.hbm, 60, rfl⟩
abbrev main_call2_v13 : Ref sig .tc := ⟨.hbm, 61, rfl⟩
abbrev main_call2_cst : Ref sig .tc := ⟨.hbm, 62, rfl⟩
abbrev main_call2_v14 : Ref sig .tc := ⟨.hbm, 63, rfl⟩
abbrev main_v14 : Ref sig .tc := ⟨.hbm, 64, rfl⟩
abbrev main_v15 : Ref sig .tc := ⟨.hbm, 65, rfl⟩
abbrev main_v16 : Ref sig .tc := ⟨.hbm, 66, rfl⟩
abbrev main_v17 : Ref sig .tc := ⟨.hbm, 67, rfl⟩
abbrev main_call3_v0 : Ref sig .tc := ⟨.hbm, 68, rfl⟩
abbrev main_call3_cst : Ref sig .tc := ⟨.hbm, 69, rfl⟩
abbrev main_call3_v1 : Ref sig .tc := ⟨.hbm, 70, rfl⟩
abbrev main_v18 : Ref sig .tc := ⟨.hbm, 71, rfl⟩
abbrev main_v19 : Ref sig .tc := ⟨.hbm, 72, rfl⟩
abbrev main_v20 : Ref sig .tc := ⟨.hbm, 73, rfl⟩
abbrev main_v21 : Ref sig .tc := ⟨.hbm, 74, rfl⟩
abbrev main_v22 : Ref sig .tc := ⟨.hbm, 75, rfl⟩
abbrev main_cst : Ref sig .tc := ⟨.hbm, 76, rfl⟩
abbrev main_call4_v0 : Ref sig .tc := ⟨.hbm, 77, rfl⟩
abbrev main_v23 : Ref sig .tc := ⟨.hbm, 78, rfl⟩
abbrev main_v24 : Ref sig .tc := ⟨.hbm, 79, rfl⟩
abbrev main_v25 : Ref sig .tc := ⟨.hbm, 80, rfl⟩
abbrev main_v26 : Ref sig .tc := ⟨.hbm, 81, rfl⟩
abbrev main_c_1 : Ref sig .tc := ⟨.hbm, 82, rfl⟩
abbrev main_c_2 : Ref sig .tc := ⟨.hbm, 83, rfl⟩
abbrev main_call5_v0 : Ref sig .tc := ⟨.hbm, 84, rfl⟩
abbrev main_call5_v1 : Ref sig .tc := ⟨.hbm, 85, rfl⟩
abbrev main_call5_v2 : Ref sig .tc := ⟨.hbm, 86, rfl⟩
abbrev main_call5_v3 : Ref sig .tc := ⟨.hbm, 87, rfl⟩
abbrev main_call5_v4 : Ref sig .tc := ⟨.hbm, 88, rfl⟩
abbrev main_v27 : Ref sig .tc := ⟨.hbm, 89, rfl⟩
abbrev main_v28 : Ref sig .tc := ⟨.hbm, 90, rfl⟩
abbrev main_v29 : Ref sig .tc := ⟨.hbm, 91, rfl⟩
abbrev main_v30 : Ref sig .tc := ⟨.hbm, 92, rfl⟩
abbrev main_v31 : Ref sig .tc := ⟨.hbm, 93, rfl⟩
abbrev main_v32 : Ref sig .tc := ⟨.hbm, 94, rfl⟩
abbrev main_c_3 : Ref sig .tc := ⟨.hbm, 95, rfl⟩
abbrev main_v33 : Ref sig .tc := ⟨.hbm, 96, rfl⟩
abbrev main_v34 : Ref sig .tc := ⟨.hbm, 97, rfl⟩
abbrev main_c_4 : Ref sig .tc := ⟨.hbm, 98, rfl⟩
abbrev main_v35 : Ref sig .tc := ⟨.hbm, 99, rfl⟩
abbrev main_v36 : Ref sig .tc := ⟨.hbm, 100, rfl⟩
abbrev main_v37 : Ref sig .tc := ⟨.hbm, 101, rfl⟩
abbrev main_c_5 : Ref sig .tc := ⟨.hbm, 102, rfl⟩
abbrev main_v38 : Ref sig .tc := ⟨.hbm, 103, rfl⟩
abbrev main_v39 : Ref sig .tc := ⟨.hbm, 104, rfl⟩
abbrev main_c_6 : Ref sig .tc := ⟨.hbm, 105, rfl⟩
abbrev main_v40 : Ref sig .tc := ⟨.hbm, 106, rfl⟩
abbrev main_v41 : Ref sig .tc := ⟨.hbm, 107, rfl⟩
abbrev main_v42 : Ref sig .tc := ⟨.hbm, 108, rfl⟩
abbrev main_c_7 : Ref sig .tc := ⟨.hbm, 109, rfl⟩
abbrev main_v43 : Ref sig .tc := ⟨.hbm, 110, rfl⟩
abbrev main_v44 : Ref sig .tc := ⟨.hbm, 111, rfl⟩
abbrev main_c_8 : Ref sig .tc := ⟨.hbm, 112, rfl⟩
abbrev main_v45 : Ref sig .tc := ⟨.hbm, 113, rfl⟩
abbrev main_v46 : Ref sig .tc := ⟨.hbm, 114, rfl⟩
abbrev main_v47 : Ref sig .tc := ⟨.hbm, 115, rfl⟩
abbrev main_v48 : Ref sig .tc := ⟨.hbm, 116, rfl⟩
abbrev main_v49 : Ref sig .tc := ⟨.hbm, 117, rfl⟩
abbrev main_v50 : Ref sig .tc := ⟨.hbm, 118, rfl⟩
abbrev main_v51 : Ref sig .tc := ⟨.hbm, 119, rfl⟩
abbrev main_v52 : Ref sig .tc := ⟨.hbm, 120, rfl⟩
abbrev main_v53 : Ref sig .tc := ⟨.hbm, 121, rfl⟩
abbrev main_v54 : Ref sig .tc := ⟨.hbm, 122, rfl⟩
abbrev main_c_9 : Ref sig .tc := ⟨.hbm, 123, rfl⟩
abbrev main_v55 : Ref sig .tc := ⟨.hbm, 124, rfl⟩
abbrev main_v56 : Ref sig .tc := ⟨.hbm, 125, rfl⟩
abbrev main_c_10 : Ref sig .tc := ⟨.hbm, 126, rfl⟩
abbrev main_v57 : Ref sig .tc := ⟨.hbm, 127, rfl⟩
abbrev main_v58 : Ref sig .tc := ⟨.hbm, 128, rfl⟩
abbrev main_v59 : Ref sig .tc := ⟨.hbm, 129, rfl⟩
abbrev main_c_11 : Ref sig .tc := ⟨.hbm, 130, rfl⟩
abbrev main_v60 : Ref sig .tc := ⟨.hbm, 131, rfl⟩
abbrev main_v61 : Ref sig .tc := ⟨.hbm, 132, rfl⟩
abbrev main_c_12 : Ref sig .tc := ⟨.hbm, 133, rfl⟩
abbrev main_v62 : Ref sig .tc := ⟨.hbm, 134, rfl⟩
abbrev main_v63 : Ref sig .tc := ⟨.hbm, 135, rfl⟩
abbrev main_v64 : Ref sig .tc := ⟨.hbm, 136, rfl⟩
abbrev main_c_13 : Ref sig .tc := ⟨.hbm, 137, rfl⟩
abbrev main_v65 : Ref sig .tc := ⟨.hbm, 138, rfl⟩
abbrev main_v66 : Ref sig .tc := ⟨.hbm, 139, rfl⟩
abbrev main_c_14 : Ref sig .tc := ⟨.hbm, 140, rfl⟩
abbrev main_v67 : Ref sig .tc := ⟨.hbm, 141, rfl⟩
abbrev main_v68 : Ref sig .tc := ⟨.hbm, 142, rfl⟩
abbrev main_v69 : Ref sig .tc := ⟨.hbm, 143, rfl⟩
abbrev main_v70 : Ref sig .tc := ⟨.hbm, 144, rfl⟩
abbrev main_v71 : Ref sig .tc := ⟨.hbm, 145, rfl⟩
abbrev main_v72 : Ref sig .tc := ⟨.hbm, 146, rfl⟩
abbrev main_v73 : Ref sig .tc := ⟨.hbm, 147, rfl⟩
abbrev main_v74 : Ref sig .tc := ⟨.hbm, 148, rfl⟩
abbrev main_v75 : Ref sig .tc := ⟨.hbm, 149, rfl⟩
abbrev main_v76 : Ref sig .tc := ⟨.hbm, 150, rfl⟩
abbrev main_c_15 : Ref sig .tc := ⟨.hbm, 151, rfl⟩
abbrev main_v77 : Ref sig .tc := ⟨.hbm, 152, rfl⟩
abbrev main_v78 : Ref sig .tc := ⟨.hbm, 153, rfl⟩
abbrev main_c_16 : Ref sig .tc := ⟨.hbm, 154, rfl⟩
abbrev main_v79 : Ref sig .tc := ⟨.hbm, 155, rfl⟩
abbrev main_v80 : Ref sig .tc := ⟨.hbm, 156, rfl⟩
abbrev main_v81 : Ref sig .tc := ⟨.hbm, 157, rfl⟩
abbrev main_c_17 : Ref sig .tc := ⟨.hbm, 158, rfl⟩
abbrev main_v82 : Ref sig .tc := ⟨.hbm, 159, rfl⟩
abbrev main_v83 : Ref sig .tc := ⟨.hbm, 160, rfl⟩
abbrev main_c_18 : Ref sig .tc := ⟨.hbm, 161, rfl⟩
abbrev main_v84 : Ref sig .tc := ⟨.hbm, 162, rfl⟩
abbrev main_v85 : Ref sig .tc := ⟨.hbm, 163, rfl⟩
abbrev main_v86 : Ref sig .tc := ⟨.hbm, 164, rfl⟩
abbrev main_c_19 : Ref sig .tc := ⟨.hbm, 165, rfl⟩
abbrev main_v87 : Ref sig .tc := ⟨.hbm, 166, rfl⟩
abbrev main_v88 : Ref sig .tc := ⟨.hbm, 167, rfl⟩
abbrev main_c_20 : Ref sig .tc := ⟨.hbm, 168, rfl⟩
abbrev main_v89 : Ref sig .tc := ⟨.hbm, 169, rfl⟩
abbrev main_v90 : Ref sig .tc := ⟨.hbm, 170, rfl⟩
abbrev main_v91 : Ref sig .tc := ⟨.hbm, 171, rfl⟩
abbrev main_v92 : Ref sig .tc := ⟨.hbm, 172, rfl⟩
abbrev main_v93 : Ref sig .tc := ⟨.hbm, 173, rfl⟩
abbrev main_v94 : Ref sig .tc := ⟨.hbm, 174, rfl⟩
abbrev main_v95 : Ref sig .tc := ⟨.hbm, 175, rfl⟩
abbrev main_v96 : Ref sig .tc := ⟨.hbm, 176, rfl⟩
abbrev main_v97 : Ref sig .tc := ⟨.hbm, 177, rfl⟩
abbrev main_v98 : Ref sig .tc := ⟨.hbm, 178, rfl⟩
abbrev main_c_21 : Ref sig .tc := ⟨.hbm, 179, rfl⟩
abbrev main_v99 : Ref sig .tc := ⟨.hbm, 180, rfl⟩
abbrev main_v100 : Ref sig .tc := ⟨.hbm, 181, rfl⟩
abbrev main_c_22 : Ref sig .tc := ⟨.hbm, 182, rfl⟩
abbrev main_v101 : Ref sig .tc := ⟨.hbm, 183, rfl⟩
abbrev main_v102 : Ref sig .tc := ⟨.hbm, 184, rfl⟩
abbrev main_v103 : Ref sig .tc := ⟨.hbm, 185, rfl⟩
abbrev main_c_23 : Ref sig .tc := ⟨.hbm, 186, rfl⟩
abbrev main_v104 : Ref sig .tc := ⟨.hbm, 187, rfl⟩
abbrev main_v105 : Ref sig .tc := ⟨.hbm, 188, rfl⟩
abbrev main_c_24 : Ref sig .tc := ⟨.hbm, 189, rfl⟩
abbrev main_v106 : Ref sig .tc := ⟨.hbm, 190, rfl⟩
abbrev main_v107 : Ref sig .tc := ⟨.hbm, 191, rfl⟩
abbrev main_v108 : Ref sig .tc := ⟨.hbm, 192, rfl⟩
abbrev main_c_25 : Ref sig .tc := ⟨.hbm, 193, rfl⟩
abbrev main_v109 : Ref sig .tc := ⟨.hbm, 194, rfl⟩
abbrev main_v110 : Ref sig .tc := ⟨.hbm, 195, rfl⟩
abbrev main_c_26 : Ref sig .tc := ⟨.hbm, 196, rfl⟩
abbrev main_v111 : Ref sig .tc := ⟨.hbm, 197, rfl⟩
abbrev main_v112 : Ref sig .tc := ⟨.hbm, 198, rfl⟩
abbrev main_v113 : Ref sig .tc := ⟨.hbm, 199, rfl⟩
abbrev main_v114 : Ref sig .tc := ⟨.hbm, 200, rfl⟩
abbrev main_v115 : Ref sig .tc := ⟨.hbm, 201, rfl⟩
abbrev main_v116 : Ref sig .tc := ⟨.hbm, 202, rfl⟩
abbrev main_v117 : Ref sig .tc := ⟨.hbm, 203, rfl⟩
abbrev main_v118 : Ref sig .tc := ⟨.hbm, 204, rfl⟩
abbrev main_cst_27 : Ref sig .tc := ⟨.hbm, 205, rfl⟩
abbrev main_v119 : Ref sig .tc := ⟨.hbm, 206, rfl⟩
abbrev main_v120 : Ref sig .tc := ⟨.hbm, 207, rfl⟩
abbrev main_cst_28 : Ref sig .tc := ⟨.hbm, 208, rfl⟩
abbrev main_v121 : Ref sig .tc := ⟨.hbm, 209, rfl⟩
abbrev main_v122 : Ref sig .tc := ⟨.hbm, 210, rfl⟩
abbrev main_v123 : Ref sig .tc := ⟨.hbm, 211, rfl⟩
abbrev main_v124 : Ref sig .tc := ⟨.hbm, 212, rfl⟩
abbrev main_v125 : Ref sig .tc := ⟨.hbm, 213, rfl⟩
abbrev main_c_29 : Ref sig .tc := ⟨.hbm, 214, rfl⟩
abbrev main_v126 : Ref sig .tc := ⟨.hbm, 215, rfl⟩
abbrev main_v127 : Ref sig .tc := ⟨.hbm, 216, rfl⟩
abbrev main_v128 : Ref sig .tc := ⟨.hbm, 217, rfl⟩
abbrev main_v129 : Ref sig .tc := ⟨.hbm, 218, rfl⟩
abbrev main_v130 : Ref sig .tc := ⟨.hbm, 219, rfl⟩
abbrev main_v131 : Ref sig .tc := ⟨.hbm, 220, rfl⟩
abbrev main_v132 : Ref sig .tc := ⟨.hbm, 221, rfl⟩
abbrev main_v133 : Ref sig .tc := ⟨.hbm, 222, rfl⟩
abbrev main_v134 : Ref sig .tc := ⟨.hbm, 223, rfl⟩
abbrev main_v135 : Ref sig .tc := ⟨.hbm, 224, rfl⟩
abbrev main_v136 : Ref sig .tc := ⟨.hbm, 225, rfl⟩
abbrev main_v137 : Ref sig .tc := ⟨.hbm, 226, rfl⟩
abbrev main_v138 : Ref sig .tc := ⟨.hbm, 227, rfl⟩
abbrev main_v139 : Ref sig .tc := ⟨.hbm, 228, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_stg6_0 : Ref sig .tc := ⟨.vmem, 12, rfl⟩
abbrev cc0_stg6_1 : Ref sig .tc := ⟨.vmem, 13, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc0_sem6_0 : DmaSem sig := 12
abbrev cc0_sem6_1 : DmaSem sig := 13

abbrev nD : Nat := 1
abbrev τ : Topo := Topo.v7x

variable {F : FTy → Type} [FloatOps F]

abbrev grid0 : Pipeline.Grid := ⟨1, ![16], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_6 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S4096x128 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S4096x128 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S4096x128 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S4096x128 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S4096x128 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 2 → Memref sig .tc .vmem S4096x128 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 2 → Memref sig .tc .vmem S4096x1 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]

class Facts₀ : Prop where
  slices_S4_S1_0 : S4.Slices ![0] S1
  shapeCasts_S1_S_ : S1.ShapeCasts S_
  slices_S4_S1_1 : S4.Slices ![1] S1
  bcast_S_S8x8192x128 : S_.BroadcastsInDim S8x8192x128 (![] : Fin 0 → Fin S8x8192x128.rank)
  slices_S8x16384_S8x8192_0_0 : S8x16384.Slices ![0, 0] S8x8192
  shapeCasts_S8x8192x128_S8x1048576 : S8x8192x128.ShapeCasts S8x1048576
  bcast_S_S8x1048576 : S_.BroadcastsInDim S8x1048576 (![] : Fin 0 → Fin S8x1048576.rank)
  shapeCasts_S8x1048576_S8x1048576x1 : S8x1048576.ShapeCasts S8x1048576x1
  bcast_S_S8x1048576x1 : S_.BroadcastsInDim S8x1048576x1 (![] : Fin 0 → Fin S8x1048576x1.rank)
  bcast_S1_S1x1x1_2 : S1.BroadcastsInDim S1x1x1 (![2] : Fin 1 → Fin S1x1x1.rank)
  bcast_S1x1x1_S8x1048576x1_0_1_2 : S1x1x1.BroadcastsInDim S8x1048576x1 (![0, 1, 2] : Fin 3 → Fin S8x1048576x1.rank)
  reducesTo_S8x1048576x1_S8x1048576_d2 : S8x1048576x1.ReducesTo [2] S8x1048576
  h_S_ : 0 < S_.numel
  shapeCasts_S8x1048576_S8x8192x128 : S8x1048576.ShapeCasts S8x8192x128
  slices_S8x16384x3_S8x8192x3_0_0_0 : S8x16384x3.Slices ![0, 0, 0] S8x8192x3
  bcast_S8x8192x3_S8x8192x1x3_0_1_3 : S8x8192x3.BroadcastsInDim S8x8192x1x3 (![0, 1, 3] : Fin 3 → Fin S8x8192x1x3.rank)
  bcast_S8x1048576_S8x1048576x1_0_1 : S8x1048576.BroadcastsInDim S8x1048576x1 (![0, 1] : Fin 2 → Fin S8x1048576x1.rank)
  bcast_S8x1048576_S8x1048576x3_0_1 : S8x1048576.BroadcastsInDim S8x1048576x3 (![0, 1] : Fin 2 → Fin S8x1048576x3.rank)
  bcast_S_S8x1048576x3 : S_.BroadcastsInDim S8x1048576x3 (![] : Fin 0 → Fin S8x1048576x3.rank)
  shapeCasts_S8x1048576x3_S8x8192x128x3 : S8x1048576x3.ShapeCasts S8x8192x128x3
  bcast_S8x8192x1x3_S8x8192x128x3_0_1_2_3 : S8x8192x1x3.BroadcastsInDim S8x8192x128x3 (![0, 1, 2, 3] : Fin 4 → Fin S8x8192x128x3.rank)
  reducesTo_S8x8192x128x3_S8x8192x128_d3 : S8x8192x128x3.ReducesTo [3] S8x8192x128
  bcast_S8x8192_S8x8192x1_0_1 : S8x8192.BroadcastsInDim S8x8192x1 (![0, 1] : Fin 2 → Fin S8x8192x1.rank)
  bcast_S8x8192x1_S8x8192x128_0_1_2 : S8x8192x1.BroadcastsInDim S8x8192x128 (![0, 1, 2] : Fin 3 → Fin S8x8192x128.rank)
  transposes_S4x4x2000x4_S4x4x4x2000_3_0_1_2 : S4x4x2000x4.Transposes [3, 0, 1, 2] S4x4x4x2000
  slices_S4x4x4x2000_S1x4x4x2000_0_0_0_0 : S4x4x4x2000.Slices ![0, 0, 0, 0] S1x4x4x2000
  shapeCasts_S1x4x4x2000_S4x4x2000 : S1x4x4x2000.ShapeCasts S4x4x2000
  bcast_S8x8192x128_S8x8192x128x1_0_1_2 : S8x8192x128.BroadcastsInDim S8x8192x128x1 (![0, 1, 2] : Fin 3 → Fin S8x8192x128x1.rank)
  concatenates_S8x8192x128x1_S8x8192x128x1_S8x8192x128x1_S8x8192x128x3_d3 : Shape.Concatenates [S8x8192x128x1, S8x8192x128x1, S8x8192x128x1] S8x8192x128x3 3
  slices_S4x4x4x2000_S1x4x4x2000_1_0_0_0 : S4x4x4x2000.Slices ![1, 0, 0, 0] S1x4x4x2000
  slices_S4x4x4x2000_S1x4x4x2000_2_0_0_0 : S4x4x4x2000.Slices ![2, 0, 0, 0] S1x4x4x2000
  slices_S4x4x4x2000_S1x4x4x2000_3_0_0_0 : S4x4x4x2000.Slices ![3, 0, 0, 0] S1x4x4x2000
  shapeCasts_S8x8192x128_S65536x128 : S8x8192x128.ShapeCasts S65536x128
  inb_S4096x128_S4096x128_0_0 : ∀ a, (![0, 0] : Fin 2 → Nat) a + S4096x128.size a ≤ S4096x128.size a
  h_S4096x128 : 0 < S4096x128.numel
  shapeCasts_S4096x128_S4096x128 : S4096x128.ShapeCasts S4096x128
  reduces_S4096x128_S4096 : S4096x128.Reduces [1] S4096
  shapeCasts_S4096_S4096x1 : S4096.ShapeCasts S4096x1
  inb_S4096x1_S4096x1_0_0 : ∀ a, (![0, 0] : Fin 2 → Nat) a + S4096x1.size a ≤ S4096x1.size a
  h_S4096x1 : 0 < S4096x1.numel
  shapeCasts_S65536x1_S8x8192x1 : S65536x1.ShapeCasts S8x8192x1
  gather_S8x16384_S8x1048576x1_S8x1048576_n_1_0_0_1_2_11_wf : GatherDims.WF S8x16384 S8x1048576x1 S8x1048576 [] [1] [0] [1] [0] 2 ![1, 1]
  gather_S8x16384x3_S8x1048576x1_S8x1048576x3_2_1_0_0_1_2_113_wf : GatherDims.WF S8x16384x3 S8x1048576x1 S8x1048576x3 [2] [1] [0] [1] [0] 2 ![1, 1, 3]
  gather_S4x4x2000_S8x8192x128x3_S8x8192x128_n_012_n_n_012_3_111_wf : GatherDims.WF S4x4x2000 S8x8192x128x3 S8x8192x128 [] [0, 1, 2] [] [0, 1, 2] [] 3 ![1, 1, 1]
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S4096x128.size a ≤ S65536x128.size a
  hwx0_0 : ∀ i : grid0.Coords, EltTy.bits .f32 = 32 ∨ (Rect.block (s := S65536x128) S4096x128.size (cc0_transform_0 i) (hinb0_0 i)).WholeWords (EltTy.packing .f32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S4096x128.size a ≤ S65536x128.size a
  hwx0_1 : ∀ i : grid0.Coords, EltTy.bits .f32 = 32 ∨ (Rect.block (s := S65536x128) S4096x128.size (cc0_transform_1 i) (hinb0_1 i)).WholeWords (EltTy.packing .f32)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S4096x128.size a ≤ S65536x128.size a
  hwx0_2 : ∀ i : grid0.Coords, EltTy.bits .f32 = 32 ∨ (Rect.block (s := S65536x128) S4096x128.size (cc0_transform_2 i) (hinb0_2 i)).WholeWords (EltTy.packing .f32)
  hstage0_3 : ∀ j, (stage0_3 j).IsWhole
  nbuf0_3 : grid0.bufCount reads0_3 false = 2
  hreads0_3 : ∀ i i' : grid0.Coords, (∀ a, reads0_3 a = true → i a = i' a) → cc0_transform_3 i = cc0_transform_3 i'
  hinb0_3 : ∀ (i : grid0.Coords) a, (cc0_transform_3 i a + 1) * S4096x128.size a ≤ S65536x128.size a
  hwx0_3 : ∀ i : grid0.Coords, EltTy.bits .f32 = 32 ∨ (Rect.block (s := S65536x128) S4096x128.size (cc0_transform_3 i) (hinb0_3 i)).WholeWords (EltTy.packing .f32)
  hstage0_4 : ∀ j, (stage0_4 j).IsWhole
  nbuf0_4 : grid0.bufCount reads0_4 false = 2
  hreads0_4 : ∀ i i' : grid0.Coords, (∀ a, reads0_4 a = true → i a = i' a) → cc0_transform_4 i = cc0_transform_4 i'
  hinb0_4 : ∀ (i : grid0.Coords) a, (cc0_transform_4 i a + 1) * S4096x128.size a ≤ S65536x128.size a
  hwx0_4 : ∀ i : grid0.Coords, EltTy.bits .f32 = 32 ∨ (Rect.block (s := S65536x128) S4096x128.size (cc0_transform_4 i) (hinb0_4 i)).WholeWords (EltTy.packing .f32)
  hstage0_5 : ∀ j, (stage0_5 j).IsWhole
  nbuf0_5 : grid0.bufCount reads0_5 false = 2
  hreads0_5 : ∀ i i' : grid0.Coords, (∀ a, reads0_5 a = true → i a = i' a) → cc0_transform_5 i = cc0_transform_5 i'
  hinb0_5 : ∀ (i : grid0.Coords) a, (cc0_transform_5 i a + 1) * S4096x128.size a ≤ S65536x128.size a
  hwx0_5 : ∀ i : grid0.Coords, EltTy.bits .f32 = 32 ∨ (Rect.block (s := S65536x128) S4096x128.size (cc0_transform_5 i) (hinb0_5 i)).WholeWords (EltTy.packing .f32)
  hstage0_6 : ∀ j, (stage0_6 j).IsWhole
  nbuf0_6 : grid0.bufCount reads0_6 false = 2
  hreads0_6 : ∀ i i' : grid0.Coords, (∀ a, reads0_6 a = true → i a = i' a) → cc0_transform_6 i = cc0_transform_6 i'
  hinb0_6 : ∀ (i : grid0.Coords) a, (cc0_transform_6 i a + 1) * S4096x1.size a ≤ S65536x1.size a
  hwx0_6 : ∀ i : grid0.Coords, EltTy.bits .f32 = 32 ∨ (Rect.block (s := S65536x1) S4096x1.size (cc0_transform_6 i) (hinb0_6 i)).WholeWords (EltTy.packing .f32)

variable [Facts₀]

def gather_S8x16384_S8x1048576x1_S8x1048576_n_1_0_0_1_2_11 : GatherDims S8x16384 S8x1048576x1 S8x1048576 where
  offsetDims := []
  collapsedSliceDims := [1]
  operandBatchingDims := [0]
  startIndicesBatchingDims := [0]
  startIndexMap := [1]
  indexVectorDim := 2
  sliceSizes := ![1, 1]
  wf := gather_S8x16384_S8x1048576x1_S8x1048576_n_1_0_0_1_2_11_wf
def gather_S8x16384x3_S8x1048576x1_S8x1048576x3_2_1_0_0_1_2_113 : GatherDims S8x16384x3 S8x1048576x1 S8x1048576x3 where
  offsetDims := [2]
  collapsedSliceDims := [1]
  operandBatchingDims := [0]
  startIndicesBatchingDims := [0]
  startIndexMap := [1]
  indexVectorDim := 2
  sliceSizes := ![1, 1, 3]
  wf := gather_S8x16384x3_S8x1048576x1_S8x1048576x3_2_1_0_0_1_2_113_wf
def gather_S4x4x2000_S8x8192x128x3_S8x8192x128_n_012_n_n_012_3_111 : GatherDims S4x4x2000 S8x8192x128x3 S8x8192x128 where
  offsetDims := []
  collapsedSliceDims := [0, 1, 2]
  operandBatchingDims := []
  startIndicesBatchingDims := []
  startIndexMap := [0, 1, 2]
  indexVectorDim := 3
  sliceSizes := ![1, 1, 1]
  wf := gather_S4x4x2000_S8x8192x128x3_S8x8192x128_n_012_n_n_012_3_111_wf

abbrev win0_0 : Pipeline.Window sig grid0 :=
  Pipeline.Window.ofSpec (Memref.whole main_v132) S4096x128.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_v133) S4096x128.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_v134) S4096x128.size cc0_transform_2 reads0_2 false false 2 stage0_2 sem0_2
    hrank0 hreads0_2 hinb0_2 nbuf0_2 (Memref.isWhole_whole _) hwx0_2 hstage0_2

abbrev win0_3 : Pipeline.Window sig grid0 :=
  Pipeline.Window.ofSpec (Memref.whole main_v135) S4096x128.size cc0_transform_3 reads0_3 false false 2 stage0_3 sem0_3
    hrank0 hreads0_3 hinb0_3 nbuf0_3 (Memref.isWhole_whole _) hwx0_3 hstage0_3

abbrev win0_4 : Pipeline.Window sig grid0 :=
  Pipeline.Window.ofSpec (Memref.whole main_v136) S4096x128.size cc0_transform_4 reads0_4 false false 2 stage0_4 sem0_4
    hrank0 hreads0_4 hinb0_4 nbuf0_4 (Memref.isWhole_whole _) hwx0_4 hstage0_4

abbrev win0_5 : Pipeline.Window sig grid0 :=
  Pipeline.Window.ofSpec (Memref.whole main_v137) S4096x128.size cc0_transform_5 reads0_5 false false 2 stage0_5 sem0_5
    hrank0 hreads0_5 hinb0_5 nbuf0_5 (Memref.isWhole_whole _) hwx0_5 hstage0_5

abbrev win0_6 : Pipeline.Window sig grid0 :=
  Pipeline.Window.ofSpec (Memref.whole main_v138) S4096x1.size cc0_transform_6 reads0_6 true false 2 stage0_6 sem0_6
    hrank0 hreads0_6 hinb0_6 nbuf0_6 (Memref.isWhole_whole _) hwx0_6 hstage0_6

abbrev win0 : Fin 7 → Pipeline.Window sig grid0 := fun | 0 => win0_0 | 1 => win0_1 | 2 => win0_2 | 3 => win0_3 | 4 => win0_4 | 5 => win0_5 | 6 => win0_6 | ⟨_ + 7, h⟩ => absurd h (Nat.not_lt.2 (Nat.le_add_left _ _))
abbrev spec0 : Fin 7 → Pipeline.WinSpec sig grid0.rank := fun w => (win0 w).toWinSpec

class Facts : Prop extends Facts₀ where

variable [Facts]
-- ==== ReferenceIdeal.lean ====
abbrev S8x16384x3 : Shape := ⟨3, ![8, 16384, 3]⟩
abbrev S4x4x2000x4 : Shape := ⟨4, ![4, 4, 2000, 4]⟩
abbrev S4 : Shape := ⟨1, ![4]⟩
abbrev S8x16384 : Shape := ⟨2, ![8, 16384]⟩
abbrev S8x8192x128 : Shape := ⟨3, ![8, 8192, 128]⟩
abbrev S1 : Shape := ⟨1, ![1]⟩
abbrev S_ : Shape := ⟨0, ![]⟩
abbrev S8x8192 : Shape := ⟨2, ![8, 8192]⟩
abbrev S8x1048576 : Shape := ⟨2, ![8, 1048576]⟩
abbrev S8x1048576x1 : Shape := ⟨3, ![8, 1048576, 1]⟩
abbrev S1x1x1 : Shape := ⟨3, ![1, 1, 1]⟩
abbrev S8x8192x3 : Shape := ⟨3, ![8, 8192, 3]⟩
abbrev S8x8192x1x3 : Shape := ⟨4, ![8, 8192, 1, 3]⟩
abbrev S8x1048576x3 : Shape := ⟨3, ![8, 1048576, 3]⟩
abbrev S8x8192x128x3 : Shape := ⟨4, ![8, 8192, 128, 3]⟩
abbrev S8x8192x1 : Shape := ⟨3, ![8, 8192, 1]⟩
abbrev S8x8192x128x1 : Shape := ⟨4, ![8, 8192, 128, 1]⟩
abbrev S8x8192x128x4 : Shape := ⟨4, ![8, 8192, 128, 4]⟩

abbrev nBuf : Space → Nat
  | .hbm => 162
  | .vmem => 0
  | .smem => 0
  | _ => 0

abbrev hbmTy0_0 (i : Nat) : BufTy := match i % 128 with
  | 0 => ⟨S8x16384x3, .f32⟩
  | 1 => ⟨S4x4x2000x4, .f32⟩
  | 2 => ⟨S4, .f32⟩
  | 3 => ⟨S8x16384, .i32⟩
  | 4 => ⟨S8x8192x128, .i32⟩
  | 5 => ⟨S1, .f32⟩
  | 6 => ⟨S_, .f32⟩
  | 7 => ⟨S1, .f32⟩
  | 8 => ⟨S_, .f32⟩
  | 9 => ⟨S_, .i32⟩
  | 10 => ⟨S8x8192x128, .i32⟩
  | 11 => ⟨S8x8192x128, .i1⟩
  | 12 => ⟨S_, .i32⟩
  | 13 => ⟨S_, .i32⟩
  | 14 => ⟨S8x8192x128, .i32⟩
  | 15 => ⟨S8x8192x128, .i32⟩
  | 16 => ⟨S8x8192, .i32⟩
  | 17 => ⟨S8x1048576, .i32⟩
  | 18 => ⟨S_, .i32⟩
  | 19 => ⟨S8x1048576, .i32⟩
  | 20 => ⟨S8x1048576, .i1⟩
  | 21 => ⟨S_, .i32⟩
  | 22 => ⟨S8x1048576, .i32⟩
  | 23 => ⟨S8x1048576, .i32⟩
  | 24 => ⟨S8x1048576, .i32⟩
  | 25 => ⟨S8x1048576x1, .i32⟩
  | 26 => ⟨S1, .i32⟩
  | 27 => ⟨S_, .i32⟩
  | 28 => ⟨S8x1048576x1, .i32⟩
  | 29 => ⟨S8x1048576x1, .i1⟩
  | 30 => ⟨S1x1x1, .i32⟩
  | 31 => ⟨S8x1048576x1, .i32⟩
  | 32 => ⟨S8x1048576x1, .i1⟩
  | 33 => ⟨S8x1048576x1, .i1⟩
  | 34 => ⟨S_, .i1⟩
  | 35 => ⟨S8x1048576, .i1⟩
  | 36 => ⟨S8x1048576, .i32⟩
  | 37 => ⟨S_, .i32⟩
  | 38 => ⟨S8x1048576, .i32⟩
  | 39 => ⟨S8x1048576, .i32⟩
  | 40 => ⟨S8x8192x128, .i32⟩
  | 41 => ⟨S8x8192x3, .f32⟩
  | 42 => ⟨S8x8192x1x3, .f32⟩
  | 43 => ⟨S8x1048576x1, .i32⟩
  | 44 => ⟨S_, .i32⟩
  | 45 => ⟨S8x1048576x1, .i32⟩
  | 46 => ⟨S8x1048576x1, .i1⟩
  | 47 => ⟨S_, .i32⟩
  | 48 => ⟨S8x1048576x1, .i32⟩
  | 49 => ⟨S8x1048576x1, .i32⟩
  | 50 => ⟨S8x1048576x1, .i32⟩
  | 51 => ⟨S1, .i32⟩
  | 52 => ⟨S_, .i32⟩
  | 53 => ⟨S8x1048576x1, .i32⟩
  | 54 => ⟨S8x1048576x1, .i1⟩
  | 55 => ⟨S1x1x1, .i32⟩
  | 56 => ⟨S8x1048576x1, .i32⟩
  | 57 => ⟨S8x1048576x1, .i1⟩
  | 58 => ⟨S8x1048576x1, .i1⟩
  | 59 => ⟨S_, .i1⟩
  | 60 => ⟨S8x1048576, .i1⟩
  | 61 => ⟨S8x1048576x3, .f32⟩
  | 62 => ⟨S8x1048576x3, .i1⟩
  | 63 => ⟨S_, .f32⟩
  | 64 => ⟨S8x1048576x3, .f32⟩
  | 65 => ⟨S8x1048576x3, .f32⟩
  | 66 => ⟨S8x8192x128x3, .f32⟩
  | 67 => ⟨S8x8192x128x3, .f32⟩
  | 68 => ⟨S8x8192x128x3, .f32⟩
  | 69 => ⟨S8x8192x128x3, .f32⟩
  | 70 => ⟨S_, .f32⟩
  | 71 => ⟨S8x8192x128, .f32⟩
  | 72 => ⟨S8x8192x128, .f32⟩
  | 73 => ⟨S8x8192x128, .f32⟩
  | 74 => ⟨S8x8192x128, .f32⟩
  | 75 => ⟨S8x8192x128, .f32⟩
  | 76 => ⟨S8x8192x128, .f32⟩
  | 77 => ⟨S_, .f32⟩
  | 78 => ⟨S8x8192x128, .f32⟩
  | 79 => ⟨S8x8192x128, .f32⟩
  | 80 => ⟨S8x8192x128, .i32⟩
  | 81 => ⟨S8x8192x128, .f32⟩
  | 82 => ⟨S8x8192x128, .f32⟩
  | 83 => ⟨S_, .i32⟩
  | 84 => ⟨S_, .i32⟩
  | 85 => ⟨S_, .i32⟩
  | 86 => ⟨S8x8192x128, .i32⟩
  | 87 => ⟨S8x8192x128, .i32⟩
  | 88 => ⟨S_, .i32⟩
  | 89 => ⟨S8x8192x128, .i32⟩
  | 90 => ⟨S8x8192x128, .i32⟩
  | 91 => ⟨S8x8192x1, .i32⟩
  | 92 => ⟨S8x8192x128, .i32⟩
  | 93 => ⟨S_, .i32⟩
  | 94 => ⟨S8x8192x128, .i32⟩
  | 95 => ⟨S8x8192x128, .i1⟩
  | 96 => ⟨S_, .i32⟩
  | 97 => ⟨S8x8192x128, .i32⟩
  | 98 => ⟨S8x8192x128, .i32⟩
  | 99 => ⟨S8x8192x128, .i32⟩
  | 100 => ⟨S_, .i32⟩
  | 101 => ⟨S8x8192x128, .i32⟩
  | 102 => ⟨S8x8192x128, .i1⟩
  | 103 => ⟨S_, .i32⟩
  | 104 => ⟨S8x8192x128, .i32⟩
  | 105 => ⟨S8x8192x128, .i32⟩
  | 106 => ⟨S8x8192x128, .i32⟩
  | 107 => ⟨S_, .i32⟩
  | 108 => ⟨S8x8192x128, .i32⟩
  | 109 => ⟨S8x8192x128, .i1⟩
  | 110 => ⟨S_, .i32⟩
  | 111 => ⟨S8x8192x128, .i32⟩
  | 112 => ⟨S8x8192x128, .i32⟩
  | 113 => ⟨S8x8192x128, .i32⟩
  | 114 => ⟨S8x8192x128x1, .i32⟩
  | 115 => ⟨S8x8192x128x1, .i32⟩
  | 116 => ⟨S8x8192x128x1, .i32⟩
  | 117 => ⟨S8x8192x128x3, .i32⟩
  | 118 => ⟨S8x8192x128x4, .f32⟩
  | 119 => ⟨S_, .i32⟩
  | 120 => ⟨S8x8192x128, .i32⟩
  | 121 => ⟨S8x8192x128, .i1⟩
  | 122 => ⟨S8x8192x128x1, .i1⟩
  | 123 => ⟨S_, .f32⟩
  | 124 => ⟨S8x8192x128x4, .i1⟩
  | 125 => ⟨S8x8192x128x4, .f32⟩
  | 126 => ⟨S8x8192x128x4, .f32⟩
  | 127 => ⟨S8x8192x128x1, .f32⟩
  | _ => ⟨S8x16384x3, .f32⟩

abbrev hbmTy0_1 (i : Nat) : BufTy := match i % 128 with
  | 0 => ⟨S8x8192x128, .f32⟩
  | 1 => ⟨S8x8192x128x1, .f32⟩
  | 2 => ⟨S8x8192x128, .f32⟩
  | 3 => ⟨S8x8192x128x1, .f32⟩
  | 4 => ⟨S8x8192x128, .f32⟩
  | 5 => ⟨S8x8192x128x1, .f32⟩
  | 6 => ⟨S8x8192x128, .f32⟩
  | 7 => ⟨S8x8192x128, .f32⟩
  | 8 => ⟨S8x8192x128, .f32⟩
  | 9 => ⟨S8x8192x128, .f32⟩
  | 10 => ⟨S8x8192x128, .f32⟩
  | 11 => ⟨S8x8192x128, .f32⟩
  | 12 => ⟨S8x8192x128, .f32⟩
  | 13 => ⟨S_, .f32⟩
  | 14 => ⟨S8x8192x128, .f32⟩
  | 15 => ⟨S8x8192x128, .i1⟩
  | 16 => ⟨S_, .f32⟩
  | 17 => ⟨S_, .f32⟩
  | 18 => ⟨S_, .f32⟩
  | 19 => ⟨S8x8192x128, .f32⟩
  | 20 => ⟨S8x8192x128, .i1⟩
  | 21 => ⟨S8x8192x128, .i1⟩
  | 22 => ⟨S_, .f32⟩
  | 23 => ⟨S8x8192x128, .f32⟩
  | 24 => ⟨S8x8192x128, .f32⟩
  | 25 => ⟨S_, .f32⟩
  | 26 => ⟨S8x8192x128, .f32⟩
  | 27 => ⟨S8x8192x128, .f32⟩
  | 28 => ⟨S_, .f32⟩
  | 29 => ⟨S8x8192, .f32⟩
  | 30 => ⟨S8x8192x1, .f32⟩
  | 31 => ⟨S_, .f32⟩
  | 32 => ⟨S8x8192x1, .f32⟩
  | 33 => ⟨S8x8192x1, .f32⟩
  | _ => ⟨S8x16384x3, .f32⟩

abbrev hbmTy (i : Nat) : BufTy := match i / 128 with
  | 0 => hbmTy0_0 i
  | 1 => hbmTy0_1 i
  | _ => ⟨S8x16384x3, .f32⟩

abbrev bufTy : (tb : Table) → Fin (tcTables nBuf tb) → BufTy
  | .hbm, ⟨i, _⟩ => hbmTy i
  | _, _ => ⟨S8x16384x3, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev main_v3 : Ref sig .tc := ⟨.hbm, 8, rfl⟩
abbrev main_c : Ref sig .tc := ⟨.hbm, 9, rfl⟩
abbrev main_v4 : Ref sig .tc := ⟨.hbm, 10, rfl⟩
abbrev main_v5 : Ref sig .tc := ⟨.hbm, 11, rfl⟩
abbrev main_c_0 : Ref sig .tc := ⟨.hbm, 12, rfl⟩
abbrev main_call0_v0 : Ref sig .tc := ⟨.hbm, 13, rfl⟩
abbrev main_call0_v1 : Ref sig .tc := ⟨.hbm, 14, rfl⟩
abbrev main_v6 : Ref sig .tc := ⟨.hbm, 15, rfl⟩
abbrev main_v7 : Ref sig .tc := ⟨.hbm, 16, rfl⟩
abbrev main_v8 : Ref sig .tc := ⟨.hbm, 17, rfl⟩
abbrev main_call1_c : Ref sig .tc := ⟨.hbm, 18, rfl⟩
abbrev main_call1_v0 : Ref sig .tc := ⟨.hbm, 19, rfl⟩
abbrev main_call1_v1 : Ref sig .tc := ⟨.hbm, 20, rfl⟩
abbrev main_call1_c_0 : Ref sig .tc := ⟨.hbm, 21, rfl⟩
abbrev main_call1_v2 : Ref sig .tc := ⟨.hbm, 22, rfl⟩
abbrev main_call1_v3 : Ref sig .tc := ⟨.hbm, 23, rfl⟩
abbrev main_call1_v4 : Ref sig .tc := ⟨.hbm, 24, rfl⟩
abbrev main_call1_v5 : Ref sig .tc := ⟨.hbm, 25, rfl⟩
abbrev main_call1_c_1 : Ref sig .tc := ⟨.hbm, 26, rfl⟩
abbrev main_call1_c_2 : Ref sig .tc := ⟨.hbm, 27, rfl⟩
abbrev main_call1_v6 : Ref sig .tc := ⟨.hbm, 28, rfl⟩
abbrev main_call1_v7 : Ref sig .tc := ⟨.hbm, 29, rfl⟩
abbrev main_call1_v8 : Ref sig .tc := ⟨.hbm, 30, rfl⟩
abbrev main_call1_v9 : Ref sig .tc := ⟨.hbm, 31, rfl⟩
abbrev main_call1_v10 : Ref sig .tc := ⟨.hbm, 32, rfl⟩
abbrev main_call1_v11 : Ref sig .tc := ⟨.hbm, 33, rfl⟩
abbrev main_call1_c_3 : Ref sig .tc := ⟨.hbm, 34, rfl⟩
abbrev main_call1_v12 : Ref sig .tc := ⟨.hbm, 35, rfl⟩
abbrev main_call1_v13 : Ref sig .tc := ⟨.hbm, 36, rfl⟩
abbrev main_call1_c_4 : Ref sig .tc := ⟨.hbm, 37, rfl⟩
abbrev main_call1_v14 : Ref sig .tc := ⟨.hbm, 38, rfl⟩
abbrev main_v9 : Ref sig .tc := ⟨.hbm, 39, rfl⟩
abbrev main_v10 : Ref sig .tc := ⟨.hbm, 40, rfl⟩
abbrev main_v11 : Ref sig .tc := ⟨.hbm, 41, rfl⟩
abbrev main_v12 : Ref sig .tc := ⟨.hbm, 42, rfl⟩
abbrev main_v13 : Ref sig .tc := ⟨.hbm, 43, rfl⟩
abbrev main_call2_c : Ref sig .tc := ⟨.hbm, 44, rfl⟩
abbrev main_call2_v0 : Ref sig .tc := ⟨.hbm, 45, rfl⟩
abbrev main_call2_v1 : Ref sig .tc := ⟨.hbm, 46, rfl⟩
abbrev main_call2_c_0 : Ref sig .tc := ⟨.hbm, 47, rfl⟩
abbrev main_call2_v2 : Ref sig .tc := ⟨.hbm, 48, rfl⟩
abbrev main_call2_v3 : Ref sig .tc := ⟨.hbm, 49, rfl⟩
abbrev main_call2_v4 : Ref sig .tc := ⟨.hbm, 50, rfl⟩
abbrev main_call2_c_1 : Ref sig .tc := ⟨.hbm, 51, rfl⟩
abbrev main_call2_c_2 : Ref sig .tc := ⟨.hbm, 52, rfl⟩
abbrev main_call2_v5 : Ref sig .tc := ⟨.hbm, 53, rfl⟩
abbrev main_call2_v6 : Ref sig .tc := ⟨.hbm, 54, rfl⟩
abbrev main_call2_v7 : Ref sig .tc := ⟨.hbm, 55, rfl⟩
abbrev main_call2_v8 : Ref sig .tc := ⟨.hbm, 56, rfl⟩
abbrev main_call2_v9 : Ref sig .tc := ⟨.hbm, 57, rfl⟩
abbrev main_call2_v10 : Ref sig .tc := ⟨.hbm, 58, rfl⟩
abbrev main_call2_c_3 : Ref sig .tc := ⟨.hbm, 59, rfl⟩
abbrev main_call2_v11 : Ref sig .tc := ⟨.hbm, 60, rfl⟩
abbrev main_call2_v12 : Ref sig .tc := ⟨.hbm, 61, rfl⟩
abbrev main_call2_v13 : Ref sig .tc := ⟨.hbm, 62, rfl⟩
abbrev main_call2_cst : Ref sig .tc := ⟨.hbm, 63, rfl⟩
abbrev main_call2_v14 : Ref sig .tc := ⟨.hbm, 64, rfl⟩
abbrev main_v14 : Ref sig .tc := ⟨.hbm, 65, rfl⟩
abbrev main_v15 : Ref sig .tc := ⟨.hbm, 66, rfl⟩
abbrev main_v16 : Ref sig .tc := ⟨.hbm, 67, rfl⟩
abbrev main_v17 : Ref sig .tc := ⟨.hbm, 68, rfl⟩
abbrev main_call3_v0 : Ref sig .tc := ⟨.hbm, 69, rfl⟩
abbrev main_call3_cst : Ref sig .tc := ⟨.hbm, 70, rfl⟩
abbrev main_call3_v1 : Ref sig .tc := ⟨.hbm, 71, rfl⟩
abbrev main_v18 : Ref sig .tc := ⟨.hbm, 72, rfl⟩
abbrev main_v19 : Ref sig .tc := ⟨.hbm, 73, rfl⟩
abbrev main_v20 : Ref sig .tc := ⟨.hbm, 74, rfl⟩
abbrev main_v21 : Ref sig .tc := ⟨.hbm, 75, rfl⟩
abbrev main_v22 : Ref sig .tc := ⟨.hbm, 76, rfl⟩
abbrev main_cst : Ref sig .tc := ⟨.hbm, 77, rfl⟩
abbrev main_call4_v0 : Ref sig .tc := ⟨.hbm, 78, rfl⟩
abbrev main_v23 : Ref sig .tc := ⟨.hbm, 79, rfl⟩
abbrev main_v24 : Ref sig .tc := ⟨.hbm, 80, rfl⟩
abbrev main_v25 : Ref sig .tc := ⟨.hbm, 81, rfl⟩
abbrev main_v26 : Ref sig .tc := ⟨.hbm, 82, rfl⟩
abbrev main_c_1 : Ref sig .tc := ⟨.hbm, 83, rfl⟩
abbrev main_c_2 : Ref sig .tc := ⟨.hbm, 84, rfl⟩
abbrev main_call5_v0 : Ref sig .tc := ⟨.hbm, 85, rfl⟩
abbrev main_call5_v1 : Ref sig .tc := ⟨.hbm, 86, rfl⟩
abbrev main_call5_v2 : Ref sig .tc := ⟨.hbm, 87, rfl⟩
abbrev main_call5_v3 : Ref sig .tc := ⟨.hbm, 88, rfl⟩
abbrev main_call5_v4 : Ref sig .tc := ⟨.hbm, 89, rfl⟩
abbrev main_v27 : Ref sig .tc := ⟨.hbm, 90, rfl⟩
abbrev main_v28 : Ref sig .tc := ⟨.hbm, 91, rfl⟩
abbrev main_v29 : Ref sig .tc := ⟨.hbm, 92, rfl⟩
abbrev main_c_3 : Ref sig .tc := ⟨.hbm, 93, rfl⟩
abbrev main_v30 : Ref sig .tc := ⟨.hbm, 94, rfl⟩
abbrev main_v31 : Ref sig .tc := ⟨.hbm, 95, rfl⟩
abbrev main_c_4 : Ref sig .tc := ⟨.hbm, 96, rfl⟩
abbrev main_v32 : Ref sig .tc := ⟨.hbm, 97, rfl⟩
abbrev main_v33 : Ref sig .tc := ⟨.hbm, 98, rfl⟩
abbrev main_v34 : Ref sig .tc := ⟨.hbm, 99, rfl⟩
abbrev main_c_5 : Ref sig .tc := ⟨.hbm, 100, rfl⟩
abbrev main_v35 : Ref sig .tc := ⟨.hbm, 101, rfl⟩
abbrev main_v36 : Ref sig .tc := ⟨.hbm, 102, rfl⟩
abbrev main_c_6 : Ref sig .tc := ⟨.hbm, 103, rfl⟩
abbrev main_v37 : Ref sig .tc := ⟨.hbm, 104, rfl⟩
abbrev main_v38 : Ref sig .tc := ⟨.hbm, 105, rfl⟩
abbrev main_v39 : Ref sig .tc := ⟨.hbm, 106, rfl⟩
abbrev main_c_7 : Ref sig .tc := ⟨.hbm, 107, rfl⟩
abbrev main_v40 : Ref sig .tc := ⟨.hbm, 108, rfl⟩
abbrev main_v41 : Ref sig .tc := ⟨.hbm, 109, rfl⟩
abbrev main_c_8 : Ref sig .tc := ⟨.hbm, 110, rfl⟩
abbrev main_v42 : Ref sig .tc := ⟨.hbm, 111, rfl⟩
abbrev main_v43 : Ref sig .tc := ⟨.hbm, 112, rfl⟩
abbrev main_v44 : Ref sig .tc := ⟨.hbm, 113, rfl⟩
abbrev main_v45 : Ref sig .tc := ⟨.hbm, 114, rfl⟩
abbrev main_v46 : Ref sig .tc := ⟨.hbm, 115, rfl⟩
abbrev main_v47 : Ref sig .tc := ⟨.hbm, 116, rfl⟩
abbrev main_v48 : Ref sig .tc := ⟨.hbm, 117, rfl⟩
abbrev main_v49 : Ref sig .tc := ⟨.hbm, 118, rfl⟩
abbrev main_c_9 : Ref sig .tc := ⟨.hbm, 119, rfl⟩
abbrev main_v50 : Ref sig .tc := ⟨.hbm, 120, rfl⟩
abbrev main_v51 : Ref sig .tc := ⟨.hbm, 121, rfl⟩
abbrev main_v52 : Ref sig .tc := ⟨.hbm, 122, rfl⟩
abbrev main_cst_10 : Ref sig .tc := ⟨.hbm, 123, rfl⟩
abbrev main_call6_v0 : Ref sig .tc := ⟨.hbm, 124, rfl⟩
abbrev main_call6_v1 : Ref sig .tc := ⟨.hbm, 125, rfl⟩
abbrev main_v53 : Ref sig .tc := ⟨.hbm, 126, rfl⟩
abbrev main_v54 : Ref sig .tc := ⟨.hbm, 127, rfl⟩
abbrev main_v55 : Ref sig .tc := ⟨.hbm, 128, rfl⟩
abbrev main_v56 : Ref sig .tc := ⟨.hbm, 129, rfl⟩
abbrev main_v57 : Ref sig .tc := ⟨.hbm, 130, rfl⟩
abbrev main_v58 : Ref sig .tc := ⟨.hbm, 131, rfl⟩
abbrev main_v59 : Ref sig .tc := ⟨.hbm, 132, rfl⟩
abbrev main_v60 : Ref sig .tc := ⟨.hbm, 133, rfl⟩
abbrev main_v61 : Ref sig .tc := ⟨.hbm, 134, rfl⟩
abbrev main_v62 : Ref sig .tc := ⟨.hbm, 135, rfl⟩
abbrev main_v63 : Ref sig .tc := ⟨.hbm, 136, rfl⟩
abbrev main_v64 : Ref sig .tc := ⟨.hbm, 137, rfl⟩
abbrev main_v65 : Ref sig .tc := ⟨.hbm, 138, rfl⟩
abbrev main_v66 : Ref sig .tc := ⟨.hbm, 139, rfl⟩
abbrev main_v67 : Ref sig .tc := ⟨.hbm, 140, rfl⟩
abbrev main_cst_11 : Ref sig .tc := ⟨.hbm, 141, rfl⟩
abbrev main_v68 : Ref sig .tc := ⟨.hbm, 142, rfl⟩
abbrev main_v69 : Ref sig .tc := ⟨.hbm, 143, rfl⟩
abbrev main_cst_12 : Ref sig .tc := ⟨.hbm, 144, rfl⟩
abbrev main_v70 : Ref sig .tc := ⟨.hbm, 145, rfl⟩
abbrev main_v71 : Ref sig .tc := ⟨.hbm, 146, rfl⟩
abbrev main_v72 : Ref sig .tc := ⟨.hbm, 147, rfl⟩
abbrev main_v73 : Ref sig .tc := ⟨.hbm, 148, rfl⟩
abbrev main_v74 : Ref sig .tc := ⟨.hbm, 149, rfl⟩
abbrev main_cst_13 : Ref sig .tc := ⟨.hbm, 150, rfl⟩
abbrev main_call7_v0 : Ref sig .tc := ⟨.hbm, 151, rfl⟩
abbrev main_v75 : Ref sig .tc := ⟨.hbm, 152, rfl⟩
abbrev main_cst_14 : Ref sig .tc := ⟨.hbm, 153, rfl⟩
abbrev main_call8_v0 : Ref sig .tc := ⟨.hbm, 154, rfl⟩
abbrev main_v76 : Ref sig .tc := ⟨.hbm, 155, rfl⟩
abbrev main_cst_15 : Ref sig .tc := ⟨.hbm, 156, rfl⟩
abbrev main_v77 : Ref sig .tc := ⟨.hbm, 157, rfl⟩
abbrev main_v78 : Ref sig .tc := ⟨.hbm, 158, rfl⟩
abbrev main_cst_16 : Ref sig .tc := ⟨.hbm, 159, rfl⟩
abbrev main_v79 : Ref sig .tc := ⟨.hbm, 160, rfl⟩
abbrev main_v80 : Ref sig .tc := ⟨.hbm, 161, rfl⟩

abbrev nD : Nat := 1
abbrev τ : Topo := Topo.v7x

variable {F : FTy → Type} [FloatOps F]

class Facts₀ : Prop where
  slices_S4_S1_0 : S4.Slices ![0] S1
  shapeCasts_S1_S_ : S1.ShapeCasts S_
  slices_S4_S1_1 : S4.Slices ![1] S1
  bcast_S_S8x8192x128 : S_.BroadcastsInDim S8x8192x128 (![] : Fin 0 → Fin S8x8192x128.rank)
  slices_S8x16384_S8x8192_0_0 : S8x16384.Slices ![0, 0] S8x8192
  shapeCasts_S8x8192x128_S8x1048576 : S8x8192x128.ShapeCasts S8x1048576
  bcast_S_S8x1048576 : S_.BroadcastsInDim S8x1048576 (![] : Fin 0 → Fin S8x1048576.rank)
  shapeCasts_S8x1048576_S8x1048576x1 : S8x1048576.ShapeCasts S8x1048576x1
  bcast_S_S8x1048576x1 : S_.BroadcastsInDim S8x1048576x1 (![] : Fin 0 → Fin S8x1048576x1.rank)
  bcast_S1_S1x1x1_2 : S1.BroadcastsInDim S1x1x1 (![2] : Fin 1 → Fin S1x1x1.rank)
  bcast_S1x1x1_S8x1048576x1_0_1_2 : S1x1x1.BroadcastsInDim S8x1048576x1 (![0, 1, 2] : Fin 3 → Fin S8x1048576x1.rank)
  reducesTo_S8x1048576x1_S8x1048576_d2 : S8x1048576x1.ReducesTo [2] S8x1048576
  h_S_ : 0 < S_.numel
  shapeCasts_S8x1048576_S8x8192x128 : S8x1048576.ShapeCasts S8x8192x128
  slices_S8x16384x3_S8x8192x3_0_0_0 : S8x16384x3.Slices ![0, 0, 0] S8x8192x3
  bcast_S8x8192x3_S8x8192x1x3_0_1_3 : S8x8192x3.BroadcastsInDim S8x8192x1x3 (![0, 1, 3] : Fin 3 → Fin S8x8192x1x3.rank)
  bcast_S8x1048576_S8x1048576x1_0_1 : S8x1048576.BroadcastsInDim S8x1048576x1 (![0, 1] : Fin 2 → Fin S8x1048576x1.rank)
  bcast_S8x1048576_S8x1048576x3_0_1 : S8x1048576.BroadcastsInDim S8x1048576x3 (![0, 1] : Fin 2 → Fin S8x1048576x3.rank)
  bcast_S_S8x1048576x3 : S_.BroadcastsInDim S8x1048576x3 (![] : Fin 0 → Fin S8x1048576x3.rank)
  shapeCasts_S8x1048576x3_S8x8192x128x3 : S8x1048576x3.ShapeCasts S8x8192x128x3
  bcast_S8x8192x1x3_S8x8192x128x3_0_1_2_3 : S8x8192x1x3.BroadcastsInDim S8x8192x128x3 (![0, 1, 2, 3] : Fin 4 → Fin S8x8192x128x3.rank)
  reducesTo_S8x8192x128x3_S8x8192x128_d3 : S8x8192x128x3.ReducesTo [3] S8x8192x128
  bcast_S8x8192_S8x8192x1_0_1 : S8x8192.BroadcastsInDim S8x8192x1 (![0, 1] : Fin 2 → Fin S8x8192x1.rank)
  bcast_S8x8192x1_S8x8192x128_0_1_2 : S8x8192x1.BroadcastsInDim S8x8192x128 (![0, 1, 2] : Fin 3 → Fin S8x8192x128.rank)
  bcast_S8x8192x128_S8x8192x128x1_0_1_2 : S8x8192x128.BroadcastsInDim S8x8192x128x1 (![0, 1, 2] : Fin 3 → Fin S8x8192x128x1.rank)
  concatenates_S8x8192x128x1_S8x8192x128x1_S8x8192x128x1_S8x8192x128x3_d3 : Shape.Concatenates [S8x8192x128x1, S8x8192x128x1, S8x8192x128x1] S8x8192x128x3 3
  bcast_S8x8192x128x1_S8x8192x128x4_0_1_2_3 : S8x8192x128x1.BroadcastsInDim S8x8192x128x4 (![0, 1, 2, 3] : Fin 4 → Fin S8x8192x128x4.rank)
  bcast_S_S8x8192x128x4 : S_.BroadcastsInDim S8x8192x128x4 (![] : Fin 0 → Fin S8x8192x128x4.rank)
  slices_S8x8192x128x4_S8x8192x128x1_0_0_0_0 : S8x8192x128x4.Slices ![0, 0, 0, 0] S8x8192x128x1
  shapeCasts_S8x8192x128x1_S8x8192x128 : S8x8192x128x1.ShapeCasts S8x8192x128
  slices_S8x8192x128x4_S8x8192x128x1_0_0_0_1 : S8x8192x128x4.Slices ![0, 0, 0, 1] S8x8192x128x1
  slices_S8x8192x128x4_S8x8192x128x1_0_0_0_2 : S8x8192x128x4.Slices ![0, 0, 0, 2] S8x8192x128x1
  slices_S8x8192x128x4_S8x8192x128x1_0_0_0_3 : S8x8192x128x4.Slices ![0, 0, 0, 3] S8x8192x128x1
  reducesTo_S8x8192x128_S8x8192_d2 : S8x8192x128.ReducesTo [2] S8x8192
  bcast_S_S8x8192x1 : S_.BroadcastsInDim S8x8192x1 (![] : Fin 0 → Fin S8x8192x1.rank)
  gather_S8x16384_S8x1048576x1_S8x1048576_n_1_0_0_1_2_11_wf : GatherDims.WF S8x16384 S8x1048576x1 S8x1048576 [] [1] [0] [1] [0] 2 ![1, 1]
  gather_S8x16384x3_S8x1048576x1_S8x1048576x3_2_1_0_0_1_2_113_wf : GatherDims.WF S8x16384x3 S8x1048576x1 S8x1048576x3 [2] [1] [0] [1] [0] 2 ![1, 1, 3]
  gather_S4x4x2000x4_S8x8192x128x3_S8x8192x128x4_3_012_n_n_012_3_1114_wf : GatherDims.WF S4x4x2000x4 S8x8192x128x3 S8x8192x128x4 [3] [0, 1, 2] [] [0, 1, 2] [] 3 ![1, 1, 1, 4]

variable [Facts₀]

def gather_S8x16384_S8x1048576x1_S8x1048576_n_1_0_0_1_2_11 : GatherDims S8x16384 S8x1048576x1 S8x1048576 where
  offsetDims := []
  collapsedSliceDims := [1]
  operandBatchingDims := [0]
  startIndicesBatchingDims := [0]
  startIndexMap := [1]
  indexVectorDim := 2
  sliceSizes := ![1, 1]
  wf := gather_S8x16384_S8x1048576x1_S8x1048576_n_1_0_0_1_2_11_wf
def gather_S8x16384x3_S8x1048576x1_S8x1048576x3_2_1_0_0_1_2_113 : GatherDims S8x16384x3 S8x1048576x1 S8x1048576x3 where
  offsetDims := [2]
  collapsedSliceDims := [1]
  operandBatchingDims := [0]
  startIndicesBatchingDims := [0]
  startIndexMap := [1]
  indexVectorDim := 2
  sliceSizes := ![1, 1, 3]
  wf := gather_S8x16384x3_S8x1048576x1_S8x1048576x3_2_1_0_0_1_2_113_wf
def gather_S4x4x2000x4_S8x8192x128x3_S8x8192x128x4_3_012_n_n_012_3_1114 : GatherDims S4x4x2000x4 S8x8192x128x3 S8x8192x128x4 where
  offsetDims := [3]
  collapsedSliceDims := [0, 1, 2]
  operandBatchingDims := []
  startIndicesBatchingDims := []
  startIndexMap := [0, 1, 2]
  indexVectorDim := 3
  sliceSizes := ![1, 1, 1, 4]
  wf := gather_S4x4x2000x4_S8x8192x128x3_S8x8192x128x4_3_012_n_n_012_3_1114_wf

class Facts : Prop extends Facts₀ where

variable [Facts]
-- ==== Proof.FrameKernel.lean ====
/-
  The frame of `Kernel`: @main is thirteen stretches of host operations, one pallas_call on a grid of 16 points, and one
  reshape after it. Each of the six input windows hands the body one [4096,128] block of its array per point; the body
  stores one [4096,1] block of the output. What that block holds is `out6`: the one store's payload over the six loads.
  The proof data names it, the body's run proves it, and the launch theorem for a region with host lines on both sides
  gives the run of the whole program, from which the argument arrays are read back unchanged.
-/
import proofs.«112457_j25537875542623_2_alg».proof.Proof.Gen.Kernel.Launch
import proofs.«112457_j25537875542623_2_alg».proof.Proof.Gen.Kernel.Skeleton
import proofs.«112457_j25537875542623_2_alg».proof.Proof.Gen.Kernel.Points
import Idealize.ShloMosaic.Lib.Pipeline.FrameBody
import Idealize.ShloMosaic.Lib.Pipeline.FrameSuffix
import Idealize.ShloMosaic.Lib.Ring
import Idealize.ShloMosaic.Lib.Tactic

set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

/-! ## @main around the region -/

/-- The host operations before the region, stretch by stretch. -/
abbrev pre : List (List (HloOp τ sig (Elt F))) := [hostOps0, hostOps0_1, hostOps0_2, hostOps0_3, hostOps0_4, hostOps0_5, hostOps0_6, hostOps0_7, hostOps0_8, hostOps0_9, hostOps0_10, hostOps0_11, hostOps0_12]

/-- Core `c`'s buffer contents when the region is entered: the launch memory after the host operations before it. -/
abbrev V0 (c : Dev nD) : Valuation τ sig (Elt F) := StableHlo.after (List.flatten (pre (F := F))) (fun b => m (c, b))
/-- The same read at a TensorCore reference. -/
abbrev V (c : Dev nD) (b : Ref sig .tc) : Buf (Elt F) ((c : Thread nD τ).loc b) := V0 m c (Proc.devRef .tc b)

theorem hostOps0_fresh : (hostOps0 : List (HloOp τ sig (Elt F))).Forall fun op => op.fresh = ∅ := by
  simp only [List.Forall]; repeat' constructor
theorem hostOps0_1_fresh : (hostOps0_1 : List (HloOp τ sig (Elt F))).Forall fun op => op.fresh = ∅ := by
  simp only [List.Forall]; repeat' constructor
theorem hostOps0_2_fresh : (hostOps0_2 : List (HloOp τ sig (Elt F))).Forall fun op => op.fresh = ∅ := by
  simp only [List.Forall]; repeat' constructor
theorem hostOps0_3_fresh : (hostOps0_3 : List (HloOp τ sig (Elt F))).Forall fun op => op.fresh = ∅ := by
  simp only [List.Forall]; repeat' constructor
theorem hostOps0_4_fresh : (hostOps0_4 : List (HloOp τ sig (Elt F))).Forall fun op => op.fresh = ∅ := by
  simp only [List.Forall]; repeat' constructor
theorem hostOps0_5_fresh : (hostOps0_5 : List (HloOp τ sig (Elt F))).Forall fun op => op.fresh = ∅ := by
  simp only [List.Forall]; repeat' constructor
theorem hostOps0_6_fresh : (hostOps0_6 : List (HloOp τ sig (Elt F))).Forall fun op => op.fresh = ∅ := by
  simp only [List.Forall]; repeat' constructor
theorem hostOps0_7_fresh : (hostOps0_7 : List (HloOp τ sig (Elt F))).Forall fun op => op.fresh = ∅ := by
  simp only [List.Forall]; repeat' constructor
theorem hostOps0_8_fresh : (hostOps0_8 : List (HloOp τ sig (Elt F))).Forall fun op => op.fresh = ∅ := by
  simp only [List.Forall]; repeat' constructor
theorem hostOps0_9_fresh : (hostOps0_9 : List (HloOp τ sig (Elt F))).Forall fun op => op.fresh = ∅ := by
  simp only [List.Forall]; repeat' constructor
theorem hostOps0_10_fresh : (hostOps0_10 : List (HloOp τ sig (Elt F))).Forall fun op => op.fresh = ∅ := by
  simp only [List.Forall]; repeat' constructor
theorem hostOps0_11_fresh : (hostOps0_11 : List (HloOp τ sig (Elt F))).Forall fun op => op.fresh = ∅ := by
  simp only [List.Forall]; repeat' constructor
theorem hostOps0_12_fresh : (hostOps0_12 : List (HloOp τ sig (Elt F))).Forall fun op => op.fresh = ∅ := by
  simp only [List.Forall]; repeat' constructor
theorem hostOps1_fresh : (hostOps1 : List (HloOp τ sig (Elt F))).Forall fun op => op.fresh = ∅ := by
  simp only [List.Forall]; repeat' constructor

/-- @main is the host lines before the region, the region, and the host line after it. -/
theorem hmain (𝒱₀ : Variants) : Pipeline.HMainK (Ix := Unit) (Name := ℕ) (U := UR sig nD τ) (Lvl := ℕ) cfgs 0 defs₀ 𝒱₀ m (main (F := F)) (V m)
      (fun _ => Pipeline.chain [StableHlo.seq hostOps1]) :=
  Pipeline.hmain_around cfgs 0 defs₀ 𝒱₀ m main (pre (F := F)) [hostOps1]
    (by simp only [List.Forall]; exact ⟨hostOps0_sub, hostOps0_1_sub, hostOps0_2_sub, hostOps0_3_sub, hostOps0_4_sub, hostOps0_5_sub, hostOps0_6_sub, hostOps0_7_sub, hostOps0_8_sub, hostOps0_9_sub, hostOps0_10_sub, hostOps0_11_sub, hostOps0_12_sub⟩)
    (by simp only [List.Forall]; exact ⟨hostOps0_fresh, hostOps0_1_fresh, hostOps0_2_fresh, hostOps0_3_fresh, hostOps0_4_fresh, hostOps0_5_fresh, hostOps0_6_fresh, hostOps0_7_fresh, hostOps0_8_fresh, hostOps0_9_fresh, hostOps0_10_fresh, hostOps0_11_fresh, hostOps0_12_fresh⟩) main_chain

/-- The line after the region touches only arrays of the pipeline and buffers that bypass it. -/
theorem sfx_sub : ∀ ops ∈ ([hostOps1] : List (List (HloOp τ sig (Elt F)))), ∀ op ∈ ops,
    op.bufs ⊆ Pipeline.tailRefs sig Pipeline.Prefetch.none spec0 := by
  rw [Pipeline.tailRefs_none spec0 launch0.win.arr_unscoped]
  intro ops hops op hop
  simp only [List.mem_cons, List.mem_nil_iff, or_false] at hops
  rcases hops with rfl
  · exact Pipeline.sub_ucRefs op ((List.forall_iff_forall_mem.mp hostOps1_sub) op hop)
/-- It allocates nothing. -/
theorem sfx_fresh : ∀ ops ∈ ([hostOps1] : List (List (HloOp τ sig (Elt F)))), ∀ op ∈ ops, op.fresh = ∅ := by
  intro ops hops op hop
  simp only [List.mem_cons, List.mem_nil_iff, or_false] at hops
  rcases hops with rfl
  · exact (List.forall_iff_forall_mem.mp hostOps1_fresh) op hop
/-- And it writes no array of the pipeline: its one result buffer is none of the seven. -/
theorem sfx_keeps : ∀ ops ∈ ([hostOps1] : List (List (HloOp τ sig (Elt F)))), ∀ op ∈ ops,
    ∀ w, Proc.devRef .tc (Pipeline.arrRef spec0 w) ∉ op.writes := by
  intro ops hops op hop
  simp only [List.mem_cons, List.mem_nil_iff, or_false] at hops
  rcases hops with rfl
  · simp only [hostOps1, List.mem_cons, List.mem_nil_iff, or_false] at hop
    rcases hop with rfl
    all_goals intro w; fin_cases w <;> simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.mem_singleton] <;> exact StableHlo.devRef_ne_of_ne (by decide)

/-- No host operation before the region writes argument 0: the region finds it as launched. -/
theorem V_main_arg0 (c : Dev nD) : V m c main_arg0 = m ((c : Thread nD τ).loc main_arg0) :=
  StableHlo.after_of_forall_not_mem (b := Proc.devRef .tc main_arg0) _ _ (List.forall_iff_forall_mem.mp (by
    simp only [hostOps0, hostOps0_1, hostOps0_2, hostOps0_3, hostOps0_4, hostOps0_5, hostOps0_6, hostOps0_7, hostOps0_8, hostOps0_9, hostOps0_10, hostOps0_11, hostOps0_12, List.flatten_cons, List.flatten_nil, List.append_nil, List.cons_append,
      List.nil_append, List.Forall, StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.mem_singleton]
    repeat' apply And.intro
    all_goals exact StableHlo.devRef_ne_of_ne (by decide)))

/-- Nor does the line after it: argument 0 ends as launched. -/
theorem W_main_arg0 (dats : (p : Fin _) → (c : Dev nD) → Dat τ (Elt F) Unit ℕ (UR sig nD τ) ℕ (cfgs p) c) (c : Dev nD) :
    Pipeline.afterTail₀ cfgs dats 0 (V0 m) [hostOps1] c main_arg0 = m ((c : Thread nD τ).loc main_arg0) := by
  unfold Pipeline.afterTail₀
  rw [StableHlo.after_of_forall_not_mem (b := Proc.devRef .tc main_arg0) _ _ (List.forall_iff_forall_mem.mp (by
      simp only [hostOps1, List.flatten_cons, List.flatten_nil, List.append_nil, List.cons_append,
        List.nil_append, List.Forall, StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.mem_singleton]
      exact StableHlo.devRef_ne_of_ne (by decide))),
    Pipeline.withArrays_of_ne _ c (V0 m c) _ main_arg0 (by exact (by decide : ∀ w, Pipeline.arrRef spec0 w ≠ main_arg0))]
  exact V_main_arg0 m c

/-- No host operation before the region writes argument 1: the region finds it as launched. -/
theorem V_main_arg1 (c : Dev nD) : V m c main_arg1 = m ((c : Thread nD τ).loc main_arg1) :=
  StableHlo.after_of_forall_not_mem (b := Proc.devRef .tc main_arg1) _ _ (List.forall_iff_forall_mem.mp (by
    simp only [hostOps0, hostOps0_1, hostOps0_2, hostOps0_3, hostOps0_4, hostOps0_5, hostOps0_6, hostOps0_7, hostOps0_8, hostOps0_9, hostOps0_10, hostOps0_11, hostOps0_12, List.flatten_cons, List.flatten_nil, List.append_nil, List.cons_append,
      List.nil_append, List.Forall, StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.mem_singleton]
    repeat' apply And.intro
    all_goals exact StableHlo.devRef_ne_of_ne (by decide)))

/-- Nor does the line after it: argument 1 ends as launched. -/
theorem W_main_arg1 (dats : (p : Fin _) → (c : Dev nD) → Dat τ (Elt F) Unit ℕ (UR sig nD τ) ℕ (cfgs p) c) (c : Dev nD) :
    Pipeline.afterTail₀ cfgs dats 0 (V0 m) [hostOps1] c main_arg1 = m ((c : Thread nD τ).loc main_arg1) := by
  unfold Pipeline.afterTail₀
  rw [StableHlo.after_of_forall_not_mem (b := Proc.devRef .tc main_arg1) _ _ (List.forall_iff_forall_mem.mp (by
      simp only [hostOps1, List.flatten_cons, List.flatten_nil, List.append_nil, List.cons_append,
        List.nil_append, List.Forall, StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.mem_singleton]
      exact StableHlo.devRef_ne_of_ne (by decide))),
    Pipeline.withArrays_of_ne _ c (V0 m c) _ main_arg1 (by exact (by decide : ∀ w, Pipeline.arrRef spec0 w ≠ main_arg1))]
  exact V_main_arg1 m c

/-- No host operation before the region writes argument 2: the region finds it as launched. -/
theorem V_main_arg2 (c : Dev nD) : V m c main_arg2 = m ((c : Thread nD τ).loc main_arg2) :=
  StableHlo.after_of_forall_not_mem (b := Proc.devRef .tc main_arg2) _ _ (List.forall_iff_forall_mem.mp (by
    simp only [hostOps0, hostOps0_1, hostOps0_2, hostOps0_3, hostOps0_4, hostOps0_5, hostOps0_6, hostOps0_7, hostOps0_8, hostOps0_9, hostOps0_10, hostOps0_11, hostOps0_12, List.flatten_cons, List.flatten_nil, List.append_nil, List.cons_append,
      List.nil_append, List.Forall, StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.mem_singleton]
    repeat' apply And.intro
    all_goals exact StableHlo.devRef_ne_of_ne (by decide)))

/-- Nor does the line after it: argument 2 ends as launched. -/
theorem W_main_arg2 (dats : (p : Fin _) → (c : Dev nD) → Dat τ (Elt F) Unit ℕ (UR sig nD τ) ℕ (cfgs p) c) (c : Dev nD) :
    Pipeline.afterTail₀ cfgs dats 0 (V0 m) [hostOps1] c main_arg2 = m ((c : Thread nD τ).loc main_arg2) := by
  unfold Pipeline.afterTail₀
  rw [StableHlo.after_of_forall_not_mem (b := Proc.devRef .tc main_arg2) _ _ (List.forall_iff_forall_mem.mp (by
      simp only [hostOps1, List.flatten_cons, List.flatten_nil, List.append_nil, List.cons_append,
        List.nil_append, List.Forall, StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.mem_singleton]
      exact StableHlo.devRef_ne_of_ne (by decide))),
    Pipeline.withArrays_of_ne _ c (V0 m c) _ main_arg2 (by exact (by decide : ∀ w, Pipeline.arrRef spec0 w ≠ main_arg2))]
  exact V_main_arg2 m c

/-- No host operation before the region writes argument 3: the region finds it as launched. -/
theorem V_main_arg3 (c : Dev nD) : V m c main_arg3 = m ((c : Thread nD τ).loc main_arg3) :=
  StableHlo.after_of_forall_not_mem (b := Proc.devRef .tc main_arg3) _ _ (List.forall_iff_forall_mem.mp (by
    simp only [hostOps0, hostOps0_1, hostOps0_2, hostOps0_3, hostOps0_4, hostOps0_5, hostOps0_6, hostOps0_7, hostOps0_8, hostOps0_9, hostOps0_10, hostOps0_11, hostOps0_12, List.flatten_cons, List.flatten_nil, List.append_nil, List.cons_append,
      List.nil_append, List.Forall, StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.mem_singleton]
    repeat' apply And.intro
    all_goals exact StableHlo.devRef_ne_of_ne (by decide)))

/-- Nor does the line after it: argument 3 ends as launched. -/
theorem W_main_arg3 (dats : (p : Fin _) → (c : Dev nD) → Dat τ (Elt F) Unit ℕ (UR sig nD τ) ℕ (cfgs p) c) (c : Dev nD) :
    Pipeline.afterTail₀ cfgs dats 0 (V0 m) [hostOps1] c main_arg3 = m ((c : Thread nD τ).loc main_arg3) := by
  unfold Pipeline.afterTail₀
  rw [StableHlo.after_of_forall_not_mem (b := Proc.devRef .tc main_arg3) _ _ (List.forall_iff_forall_mem.mp (by
      simp only [hostOps1, List.flatten_cons, List.flatten_nil, List.append_nil, List.cons_append,
        List.nil_append, List.Forall, StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.mem_singleton]
      exact StableHlo.devRef_ne_of_ne (by decide))),
    Pipeline.withArrays_of_ne _ c (V0 m c) _ main_arg3 (by exact (by decide : ∀ w, Pipeline.arrRef spec0 w ≠ main_arg3))]
  exact V_main_arg3 m c

/-- No host operation before the region writes argument 4: the region finds it as launched. -/
theorem V_main_arg4 (c : Dev nD) : V m c main_arg4 = m ((c : Thread nD τ).loc main_arg4) :=
  StableHlo.after_of_forall_not_mem (b := Proc.devRef .tc main_arg4) _ _ (List.forall_iff_forall_mem.mp (by
    simp only [hostOps0, hostOps0_1, hostOps0_2, hostOps0_3, hostOps0_4, hostOps0_5, hostOps0_6, hostOps0_7, hostOps0_8, hostOps0_9, hostOps0_10, hostOps0_11, hostOps0_12, List.flatten_cons, List.flatten_nil, List.append_nil, List.cons_append,
      List.nil_append, List.Forall, StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.mem_singleton]
    repeat' apply And.intro
    all_goals exact StableHlo.devRef_ne_of_ne (by decide)))

/-- Nor does the line after it: argument 4 ends as launched. -/
theorem W_main_arg4 (dats : (p : Fin _) → (c : Dev nD) → Dat τ (Elt F) Unit ℕ (UR sig nD τ) ℕ (cfgs p) c) (c : Dev nD) :
    Pipeline.afterTail₀ cfgs dats 0 (V0 m) [hostOps1] c main_arg4 = m ((c : Thread nD τ).loc main_arg4) := by
  unfold Pipeline.afterTail₀
  rw [StableHlo.after_of_forall_not_mem (b := Proc.devRef .tc main_arg4) _ _ (List.forall_iff_forall_mem.mp (by
      simp only [hostOps1, List.flatten_cons, List.flatten_nil, List.append_nil, List.cons_append,
        List.nil_append, List.Forall, StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.mem_singleton]
      exact StableHlo.devRef_ne_of_ne (by decide))),
    Pipeline.withArrays_of_ne _ c (V0 m c) _ main_arg4 (by exact (by decide : ∀ w, Pipeline.arrRef spec0 w ≠ main_arg4))]
  exact V_main_arg4 m c

/-! ## The windows' blocks -/

/-- Window `w`'s block at point `t`, read off its array as the region finds it. -/
def iblk (c : Dev nD) (w : Fin cfg0.W) (t : Fin cfg0.N) : ((cfg0.win w).xblock (cfg0.grid.coords t)).Idx → Elt F (cfg0.win w).elt :=
  ((cfg0.win w).blk t).view.read (Elt F) (V m c (Pipeline.arrRef spec0 w))

/-- Input window 0's current staging buffer holds its block at every point. -/
theorem before0_of {c : Dev nD} (dat : Dat τ (Elt F) Unit ℕ (UR sig nD τ) ℕ cfg0 c) (hA : dat.A 0 = V m c (Pipeline.arrRef spec0 0))
    (hafter : ∀ t, dat.after 0 t = iblk m c 0 t) (t : Fin cfg0.N) (d) : dat.before 0 t d = iblk m c 0 t :=
  (dat.before_in_eq_fetched 0 rfl (fun _ => rfl) (fun _ _ _ => rfl) (fun t => by rw [hafter]; unfold Dat.blockOf iblk; rw [hA]; try rfl) t d).trans
    (by unfold Dat.fetched Dat.blockOf iblk; rw [hA]; try rfl)

/-- Input window 1's current staging buffer holds its block at every point. -/
theorem before1_of {c : Dev nD} (dat : Dat τ (Elt F) Unit ℕ (UR sig nD τ) ℕ cfg0 c) (hA : dat.A 1 = V m c (Pipeline.arrRef spec0 1))
    (hafter : ∀ t, dat.after 1 t = iblk m c 1 t) (t : Fin cfg0.N) (d) : dat.before 1 t d = iblk m c 1 t :=
  (dat.before_in_eq_fetched 1 rfl (fun _ => rfl) (fun _ _ _ => rfl) (fun t => by rw [hafter]; unfold Dat.blockOf iblk; rw [hA]; try rfl) t d).trans
    (by unfold Dat.fetched Dat.blockOf iblk; rw [hA]; try rfl)

/-- Input window 2's current staging buffer holds its block at every point. -/
theorem before2_of {c : Dev nD} (dat : Dat τ (Elt F) Unit ℕ (UR sig nD τ) ℕ cfg0 c) (hA : dat.A 2 = V m c (Pipeline.arrRef spec0 2))
    (hafter : ∀ t, dat.after 2 t = iblk m c 2 t) (t : Fin cfg0.N) (d) : dat.before 2 t d = iblk m c 2 t :=
  (dat.before_in_eq_fetched 2 rfl (fun _ => rfl) (fun _ _ _ => rfl) (fun t => by rw [hafter]; unfold Dat.blockOf iblk; rw [hA]; try rfl) t d).trans
    (by unfold Dat.fetched Dat.blockOf iblk; rw [hA]; try rfl)

/-- Input window 3's current staging buffer holds its block at every point. -/
theorem before3_of {c : Dev nD} (dat : Dat τ (Elt F) Unit ℕ (UR sig nD τ) ℕ cfg0 c) (hA : dat.A 3 = V m c (Pipeline.arrRef spec0 3))
    (hafter : ∀ t, dat.after 3 t = iblk m c 3 t) (t : Fin cfg0.N) (d) : dat.before 3 t d = iblk m c 3 t :=
  (dat.before_in_eq_fetched 3 rfl (fun _ => rfl) (fun _ _ _ => rfl) (fun t => by rw [hafter]; unfold Dat.blockOf iblk; rw [hA]; try rfl) t d).trans
    (by unfold Dat.fetched Dat.blockOf iblk; rw [hA]; try rfl)

/-- Input window 4's current staging buffer holds its block at every point. -/
theorem before4_of {c : Dev nD} (dat : Dat τ (Elt F) Unit ℕ (UR sig nD τ) ℕ cfg0 c) (hA : dat.A 4 = V m c (Pipeline.arrRef spec0 4))
    (hafter : ∀ t, dat.after 4 t = iblk m c 4 t) (t : Fin cfg0.N) (d) : dat.before 4 t d = iblk m c 4 t :=
  (dat.before_in_eq_fetched 4 rfl (fun _ => rfl) (fun _ _ _ => rfl) (fun t => by rw [hafter]; unfold Dat.blockOf iblk; rw [hA]; try rfl) t d).trans
    (by unfold Dat.fetched Dat.blockOf iblk; rw [hA]; try rfl)

/-- Input window 5's current staging buffer holds its block at every point. -/
theorem before5_of {c : Dev nD} (dat : Dat τ (Elt F) Unit ℕ (UR sig nD τ) ℕ cfg0 c) (hA : dat.A 5 = V m c (Pipeline.arrRef spec0 5))
    (hafter : ∀ t, dat.after 5 t = iblk m c 5 t) (t : Fin cfg0.N) (d) : dat.before 5 t d = iblk m c 5 t :=
  (dat.before_in_eq_fetched 5 rfl (fun _ => rfl) (fun _ _ _ => rfl) (fun t => by rw [hafter]; unfold Dat.blockOf iblk; rw [hA]; try rfl) t d).trans
    (by unfold Dat.fetched Dat.blockOf iblk; rw [hA]; try rfl)

/-! ## The frame claim's post from the run's -/

/-- For any proof data whose arrays are the region-entry contents, a run to the launch theorem's post, read at the five
    argument arrays, is the frame claim's post. -/
theorem frame_of (dats : (p : Fin 1) → (c : Dev nD) → Dat τ (Elt F) Unit ℕ (UR sig nD τ) ℕ (cfgs p) c)
    (hA : ∀ c w, (dats 0 c).A w = V m c (Pipeline.arrRef spec0 w))
    (h : θ_run defs (onTc (τ := τ) (main (F := F))) (s₀ m ρ) (Pipeline.FramePost cfgs dats 0 (Pipeline.afterTail₀ cfgs dats 0 (V0 m) [hostOps1]))) :
    θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)) :=
  (θ_run defs _ _).mono (fun _ h c => ⟨(((h c).2 main_arg0 (Pipeline.mem_restRefs_of main_arg0 (by decide) (by decide))).trans (W_main_arg0 m dats c)),
    (((h c).2 main_arg1 (Pipeline.mem_restRefs_of main_arg1 (by decide) (by decide))).trans (W_main_arg1 m dats c)),
    (((h c).2 main_arg2 (Pipeline.mem_restRefs_of main_arg2 (by decide) (by decide))).trans (W_main_arg2 m dats c)),
    (((h c).2 main_arg3 (Pipeline.mem_restRefs_of main_arg3 (by decide) (by decide))).trans (W_main_arg3 m dats c)),
    (((h c).2 main_arg4 (Pipeline.mem_restRefs_of main_arg4 (by decide) (by decide))).trans (W_main_arg4 m dats c))⟩) h

/-! ## The body's accesses -/

abbrev rIn : Rect S4096x128 := Rect.unit (s := S4096x128) ![0, 0] S4096x128.size inb_S4096x128_S4096x128_0_0
abbrev rOut : Rect S4096x1 := Rect.unit (s := S4096x1) ![0, 0] S4096x1.size inb_S4096x1_S4096x1_0_0

/-- The output window's staging buffer after the body, from the six input blocks (in window order: the cubic's four
    coefficient planes, the fraction, the validity flag): its one store, of the payload over the six loads. -/
def out6 (x0 x1 x2 x3 x4 x5 : Vec F S4096x128 .f32) : Vec F S4096x1 .f32 :=
  View.canon [⟨rOut, k0_pay1 (View.ld x4 rIn) (View.ld x0 rIn) (View.ld x1 rIn) (View.ld x2 rIn) (View.ld x3 rIn) (View.ld x5 rIn)⟩]

/-- The one store covers the buffer. -/
theorem cover6 (p0 : Vec F S4096x1 .f32) (y : S4096x1.Idx) :
    ∃ pc ∈ ([⟨rOut, p0⟩] : List (View.Piece (Elt F) S4096x1 .f32)), y ∈ pc.1.set :=
  View.cover_of_tiled [⟨rOut, p0⟩] S4096x1.size (by rfl) y

/-! ## The body's triple -/

set_option maxHeartbeats 4000000 in
/-- The body on whole staging memrefs, the inputs' at contents `x0 … x5` and the output's at anything, runs to the
    continuation with the inputs' as they were and the output's at `out6` of them. -/
theorem sound_kernel (c : Dev nD) (E : Set ℕ) (i : grid0.Coords)
    (arg1 : Memref sig .tc .vmem S4096x128 .f32) (harg1 : arg1.IsWhole) (arg2 : Memref sig .tc .vmem S4096x128 .f32) (harg2 : arg2.IsWhole) (arg3 : Memref sig .tc .vmem S4096x128 .f32) (harg3 : arg3.IsWhole) (arg4 : Memref sig .tc .vmem S4096x128 .f32) (harg4 : arg4.IsWhole) (arg5 : Memref sig .tc .vmem S4096x128 .f32) (harg5 : arg5.IsWhole) (arg6 : Memref sig .tc .vmem S4096x128 .f32) (harg6 : arg6.IsWhole)
    (arg7 : Memref sig .tc .vmem S4096x1 .f32) (harg7 : arg7.IsWhole)
    (x0 x1 x2 x3 x4 x5 : Vec F S4096x128 .f32) (K : PUnit → sProp 𝕄) :
    iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ owns (c : Thread nD τ) arg6 fullShare x5 ∗ (∃ d, owns (c : Thread nD τ) arg7 fullShare d)
        ∗ (iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ owns (c : Thread nD τ) arg6 fullShare x5 ∗ owns (c : Thread nD τ) arg7 fullShare (out6 x0 x1 x2 x3 x4 x5)) -∗ K ⟨⟩))
      ⊢ wp frame (wpE (defs₀ (F := F)) Variants.none c none) E (cc0__interp_reduce_kernel i arg1 harg1 arg2 harg2 arg3 harg3 arg4 harg4 arg5 harg5 arg6 harg6 arg7 harg7) K := by
  simp only [cc0__interp_reduce_kernel_eq_skeleton]; unfold cc0__interp_reduce_kernel_skel
  unfold owns
  iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%d6, %f6, -, H6⟩, Hk⟩
  subst hf0 hf1 hf2 hf3 hf4 hf5
  sl_exec
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  isplitl [H3]
  · iexists f3; isplitr; · ipureintro; rfl
    iexact H3
  isplitl [H4]
  · iexists f4; isplitr; · ipureintro; rfl
    iexact H4
  isplitl [H5]
  · iexists f5; isplitr; · ipureintro; rfl
    iexact H5
  iexists _; isplitr
  swap; · iexact H6
  ipureintro
  exact View.read_writes_eq_canon _ _ _ (cover6 _)

/-! ## The pipeline's proof data -/

/-- The proof data on core `c`: the arrays as the region finds them; after the body at point `t` each input's buffer at
    its block and the output's at `out6` of the input blocks; nothing owed, full shares. -/
def dats (_ : Fin 1) (c : Dev nD) : Dat τ (Elt F) Unit ℕ (UR sig nD τ) ℕ cfg0 c where
  A w := V m c (Pipeline.arrRef spec0 w)
  after w t := match w with
    | ⟨0, _⟩ => iblk m c 0 t
    | ⟨1, _⟩ => iblk m c 1 t
    | ⟨2, _⟩ => iblk m c 2 t
    | ⟨3, _⟩ => iblk m c 3 t
    | ⟨4, _⟩ => iblk m c 4 t
    | ⟨5, _⟩ => iblk m c 5 t
    | ⟨6, _⟩ => out6 (iblk m c 0 t) (iblk m c 1 t) (iblk m c 2 t) (iblk m c 3 t) (iblk m c 4 t) (iblk m c 5 t)
  Φ _ := Pipeline.ΦA spec0 c
  q _ := fullShare
  owed _ := 0

theorem A_eq (c : Dev nD) (w : Fin cfg0.W) : (dats m 0 c).A w = V m c (Pipeline.arrRef spec0 w) := by
  dsimp only [dats]

theorem after0 (c : Dev nD) (t : Fin cfg0.N) : (dats m 0 c).after 0 t = iblk m c 0 t := by dsimp only [dats]
theorem after1 (c : Dev nD) (t : Fin cfg0.N) : (dats m 0 c).after 1 t = iblk m c 1 t := by dsimp only [dats]
theorem after2 (c : Dev nD) (t : Fin cfg0.N) : (dats m 0 c).after 2 t = iblk m c 2 t := by dsimp only [dats]
theorem after3 (c : Dev nD) (t : Fin cfg0.N) : (dats m 0 c).after 3 t = iblk m c 3 t := by dsimp only [dats]
theorem after4 (c : Dev nD) (t : Fin cfg0.N) : (dats m 0 c).after 4 t = iblk m c 4 t := by dsimp only [dats]
theorem after5 (c : Dev nD) (t : Fin cfg0.N) : (dats m 0 c).after 5 t = iblk m c 5 t := by dsimp only [dats]
theorem after6 (c : Dev nD) (t : Fin cfg0.N) : (dats m 0 c).after 6 t = out6 (iblk m c 0 t) (iblk m c 1 t) (iblk m c 2 t) (iblk m c 3 t) (iblk m c 4 t) (iblk m c 5 t) := by dsimp only [dats]

theorem before0 (c : Dev nD) (t : Fin cfg0.N) (d) : (dats m 0 c).before 0 t d = iblk m c 0 t :=
  before0_of m (dats m 0 c) (A_eq m c 0) (after0 m c) t d
theorem before1 (c : Dev nD) (t : Fin cfg0.N) (d) : (dats m 0 c).before 1 t d = iblk m c 1 t :=
  before1_of m (dats m 0 c) (A_eq m c 1) (after1 m c) t d
theorem before2 (c : Dev nD) (t : Fin cfg0.N) (d) : (dats m 0 c).before 2 t d = iblk m c 2 t :=
  before2_of m (dats m 0 c) (A_eq m c 2) (after2 m c) t d
theorem before3 (c : Dev nD) (t : Fin cfg0.N) (d) : (dats m 0 c).before 3 t d = iblk m c 3 t :=
  before3_of m (dats m 0 c) (A_eq m c 3) (after3 m c) t d
theorem before4 (c : Dev nD) (t : Fin cfg0.N) (d) : (dats m 0 c).before 4 t d = iblk m c 4 t :=
  before4_of m (dats m 0 c) (A_eq m c 4) (after4 m c) t d
theorem before5 (c : Dev nD) (t : Fin cfg0.N) (d) : (dats m 0 c).before 5 t d = iblk m c 5 t :=
  before5_of m (dats m 0 c) (A_eq m c 5) (after5 m c) t d

/-! ## The body obligation, at a generic point -/

/-- What the body is called with at point `t`, the windows one by one, -/
def bodyPre (c : Dev nD) (t : Fin cfg0.N) : sProp 𝕄 :=
  iprop((dats m 0 c).Φ t.castSucc ∗ (dats m 0 c).owesAt () t.castSucc
    ∗ (∃ d, owns (c : Thread nD τ) (st0_0 t) fullShare ((dats m 0 c).before 0 t d))
    ∗ (∃ d, owns (c : Thread nD τ) (st0_1 t) fullShare ((dats m 0 c).before 1 t d))
    ∗ (∃ d, owns (c : Thread nD τ) (st0_2 t) fullShare ((dats m 0 c).before 2 t d))
    ∗ (∃ d, owns (c : Thread nD τ) (st0_3 t) fullShare ((dats m 0 c).before 3 t d))
    ∗ (∃ d, owns (c : Thread nD τ) (st0_4 t) fullShare ((dats m 0 c).before 4 t d))
    ∗ (∃ d, owns (c : Thread nD τ) (st0_5 t) fullShare ((dats m 0 c).before 5 t d))
    ∗ (∃ d, owns (c : Thread nD τ) (st0_6 t) fullShare ((dats m 0 c).before 6 t d)))

/-- and what it returns. -/
def bodyPost (c : Dev nD) (t : Fin cfg0.N) : sProp 𝕄 :=
  iprop((dats m 0 c).Φ t.succ ∗ (dats m 0 c).owesAt () t.succ
    ∗ owns (c : Thread nD τ) (st0_0 t) fullShare ((dats m 0 c).after 0 t)
    ∗ owns (c : Thread nD τ) (st0_1 t) fullShare ((dats m 0 c).after 1 t)
    ∗ owns (c : Thread nD τ) (st0_2 t) fullShare ((dats m 0 c).after 2 t)
    ∗ owns (c : Thread nD τ) (st0_3 t) fullShare ((dats m 0 c).after 3 t)
    ∗ owns (c : Thread nD τ) (st0_4 t) fullShare ((dats m 0 c).after 4 t)
    ∗ owns (c : Thread nD τ) (st0_5 t) fullShare ((dats m 0 c).after 5 t)
    ∗ owns (c : Thread nD τ) (st0_6 t) fullShare ((dats m 0 c).after 6 t))

/-- The body at any point: the inputs' memrefs hold their blocks, so the body's triple applies; the invariant and what
    the core owes pass through unread. -/
theorem sound_body (c : Dev nD) (t : Fin cfg0.N) :
    bodyPre m c t ⊢ wp frame (wpE (defs₀ (F := F)) Variants.none c none) Set.univ (bodyAt0 t) (fun _ => bodyPost m c t) := by
  unfold bodyPre bodyPost bodyAt0
  simp only [before0, before1, before2, before3, before4, before5]
  rw [show (dats m 0 c).Φ t.succ = (dats m 0 c).Φ t.castSucc from rfl,
    show (dats m 0 c).owesAt () t.succ = (dats m 0 c).owesAt () t.castSucc from rfl,
    after0, after1, after2, after3, after4, after5, after6]
  iintro ⟨HΦ, Ho, ⟨%d0, H0⟩, ⟨%d1, H1⟩, ⟨%d2, H2⟩, ⟨%d3, H3⟩, ⟨%d4, H4⟩, ⟨%d5, H5⟩, ⟨%d6, H6⟩⟩
  iapply (sound_kernel c Set.univ (grid0.coords t) _ _ _ _ _ _ _ _ _ _ _ _ _ _ (iblk m c 0 t) (iblk m c 1 t) (iblk m c 2 t) (iblk m c 3 t) (iblk m c 4 t) (iblk m c 5 t) _)
  isplitl [H0]; · iexact H0
  isplitl [H1]; · iexact H1
  isplitl [H2]; · iexact H2
  isplitl [H3]; · iexact H3
  isplitl [H4]; · iexact H4
  isplitl [H5]; · iexact H5
  isplitl [H6]; · iexists _; iexact H6
  iintro ⟨H0, H1, H2, H3, H4, H5, H6⟩
  isplitl [HΦ]; · iexact HΦ
  isplitl [Ho]; · iexact Ho
  isplitl [H0]; · iexact H0
  isplitl [H1]; · iexact H1
  isplitl [H2]; · iexact H2
  isplitl [H3]; · iexact H3
  isplitl [H4]; · iexact H4
  isplitl [H5]; · iexact H5
  iexact H6

/-- The library's body obligation, at every point. -/
theorem body_obligation (c : Dev nD) : BodyObligation (dats (F := F) m 0 c) (defs₀ (F := F)) Variants.none () Set.univ := fun t => by
  rw [bigSep_W0, bigSep_W0]
  exact sound_body m c t

/-! ## The run and the frame -/

set_option backward.isDefEq.respectTransparency.types false in
/-- Every weakly fair execution of @main terminates, every array of the pipeline ends at what the proof data gives and
    every other unscoped buffer as the line after the region leaves it. -/
theorem run_main : θ_run defs (onTc (τ := τ) (main (F := F))) (s₀ m ρ) (Pipeline.FramePost cfgs (dats m) 0 (Pipeline.afterTail₀ cfgs (dats m) 0 (V0 m) [hostOps1])) :=
  Pipeline.θ_run_frame_around cfgs (dats m) (0 : Fin 1) launch0 defs₀ Variants.none m ρ main
    (hbody := fun c => (body_obligation m c).loose) (hshare := fun c => (dats m 0 c).share_full fun _ => rfl)
    (howed := fun _ _ => rfl) (V₀ := V0 m) (opss := [hostOps1]) (hsub := sfx_sub) (hfresh := sfx_fresh) (hkeep := sfx_keeps)
    (hmain := hmain m Variants.none) (hA := A_eq m) (hΦ := fun _ _ => rfl)

/-- The frame: @main runs to the end, nothing faults, and the five argument arrays end unchanged, at any float instance. -/
theorem frame : θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)) :=
  frame_of m ρ (dats m) (A_eq m) (run_main m ρ)

end Cert.Kernel.Hand

end
-- ==== Proof.FrameKernelIdeal.lean ====
/-
  The frame of `KernelIdeal`: @main is thirteen stretches of host operations, one pallas_call on a grid of 16 points, and one
  reshape after it. Each of the six input windows hands the body one [4096,128] block of its array per point; the body
  stores one [4096,1] block of the output. What that block holds is `out6`: the one store's payload over the six loads.
  The proof data names it, the body's run proves it, and the launch theorem for a region with host lines on both sides
  gives the run of the whole program, from which the argument arrays are read back unchanged.
-/
import proofs.«112457_j25537875542623_2_alg».proof.Proof.Gen.KernelIdeal.Launch
import proofs.«112457_j25537875542623_2_alg».proof.Proof.Gen.KernelIdeal.Skeleton
import proofs.«112457_j25537875542623_2_alg».proof.Proof.Gen.KernelIdeal.Points
import Idealize.ShloMosaic.Lib.Pipeline.FrameBody
import Idealize.ShloMosaic.Lib.Pipeline.FrameSuffix
import Idealize.ShloMosaic.Lib.Ring
import Idealize.ShloMosaic.Lib.Tactic

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

/-! ## @main around the region -/

/-- The host operations before the region, stretch by stretch. -/
abbrev pre : List (List (HloOp τ sig (Elt F))) := [hostOps0, hostOps0_1, hostOps0_2, hostOps0_3, hostOps0_4, hostOps0_5, hostOps0_6, hostOps0_7, hostOps0_8, hostOps0_9, hostOps0_10, hostOps0_11, hostOps0_12]

/-- Core `c`'s buffer contents when the region is entered: the launch memory after the host operations before it. -/
abbrev V0 (c : Dev nD) : Valuation τ sig (Elt F) := StableHlo.after (List.flatten (pre (F := F))) (fun b => m (c, b))
/-- The same read at a TensorCore reference. -/
abbrev V (c : Dev nD) (b : Ref sig .tc) : Buf (Elt F) ((c : Thread nD τ).loc b) := V0 m c (Proc.devRef .tc b)

theorem hostOps0_fresh : (hostOps0 : List (HloOp τ sig (Elt F))).Forall fun op => op.fresh = ∅ := by
  simp only [List.Forall]; repeat' constructor
theorem hostOps0_1_fresh : (hostOps0_1 : List (HloOp τ sig (Elt F))).Forall fun op => op.fresh = ∅ := by
  simp only [List.Forall]; repeat' constructor
theorem hostOps0_2_fresh : (hostOps0_2 : List (HloOp τ sig (Elt F))).Forall fun op => op.fresh = ∅ := by
  simp only [List.Forall]; repeat' constructor
theorem hostOps0_3_fresh : (hostOps0_3 : List (HloOp τ sig (Elt F))).Forall fun op => op.fresh = ∅ := by
  simp only [List.Forall]; repeat' constructor
theorem hostOps0_4_fresh : (hostOps0_4 : List (HloOp τ sig (Elt F))).Forall fun op => op.fresh = ∅ := by
  simp only [List.Forall]; repeat' constructor
theorem hostOps0_5_fresh : (hostOps0_5 : List (HloOp τ sig (Elt F))).Forall fun op => op.fresh = ∅ := by
  simp only [List.Forall]; repeat' constructor
theorem hostOps0_6_fresh : (hostOps0_6 : List (HloOp τ sig (Elt F))).Forall fun op => op.fresh = ∅ := by
  simp only [List.Forall]; repeat' constructor
theorem hostOps0_7_fresh : (hostOps0_7 : List (HloOp τ sig (Elt F))).Forall fun op => op.fresh = ∅ := by
  simp only [List.Forall]; repeat' constructor
theorem hostOps0_8_fresh : (hostOps0_8 : List (HloOp τ sig (Elt F))).Forall fun op => op.fresh = ∅ := by
  simp only [List.Forall]; repeat' constructor
theorem hostOps0_9_fresh : (hostOps0_9 : List (HloOp τ sig (Elt F))).Forall fun op => op.fresh = ∅ := by
  simp only [List.Forall]; repeat' constructor
theorem hostOps0_10_fresh : (hostOps0_10 : List (HloOp τ sig (Elt F))).Forall fun op => op.fresh = ∅ := by
  simp only [List.Forall]; repeat' constructor
theorem hostOps0_11_fresh : (hostOps0_11 : List (HloOp τ sig (Elt F))).Forall fun op => op.fresh = ∅ := by
  simp only [List.Forall]; repeat' constructor
theorem hostOps0_12_fresh : (hostOps0_12 : List (HloOp τ sig (Elt F))).Forall fun op => op.fresh = ∅ := by
  simp only [List.Forall]; repeat' constructor
theorem hostOps1_fresh : (hostOps1 : List (HloOp τ sig (Elt F))).Forall fun op => op.fresh = ∅ := by
  simp only [List.Forall]; repeat' constructor

/-- @main is the host lines before the region, the region, and the host line after it. -/
theorem hmain (𝒱₀ : Variants) : Pipeline.HMainK (Ix := Unit) (Name := ℕ) (U := UR sig nD τ) (Lvl := ℕ) cfgs 0 defs₀ 𝒱₀ m (main (F := F)) (V m)
      (fun _ => Pipeline.chain [StableHlo.seq hostOps1]) :=
  Pipeline.hmain_around cfgs 0 defs₀ 𝒱₀ m main (pre (F := F)) [hostOps1]
    (by simp only [List.Forall]; exact ⟨hostOps0_sub, hostOps0_1_sub, hostOps0_2_sub, hostOps0_3_sub, hostOps0_4_sub, hostOps0_5_sub, hostOps0_6_sub, hostOps0_7_sub, hostOps0_8_sub, hostOps0_9_sub, hostOps0_10_sub, hostOps0_11_sub, hostOps0_12_sub⟩)
    (by simp only [List.Forall]; exact ⟨hostOps0_fresh, hostOps0_1_fresh, hostOps0_2_fresh, hostOps0_3_fresh, hostOps0_4_fresh, hostOps0_5_fresh, hostOps0_6_fresh, hostOps0_7_fresh, hostOps0_8_fresh, hostOps0_9_fresh, hostOps0_10_fresh, hostOps0_11_fresh, hostOps0_12_fresh⟩) main_chain

/-- The line after the region touches only arrays of the pipeline and buffers that bypass it. -/
theorem sfx_sub : ∀ ops ∈ ([hostOps1] : List (List (HloOp τ sig (Elt F)))), ∀ op ∈ ops,
    op.bufs ⊆ Pipeline.tailRefs sig Pipeline.Prefetch.none spec0 := by
  rw [Pipeline.tailRefs_none spec0 launch0.win.arr_unscoped]
  intro ops hops op hop
  simp only [List.mem_cons, List.mem_nil_iff, or_false] at hops
  rcases hops with rfl
  · exact Pipeline.sub_ucRefs op ((List.forall_iff_forall_mem.mp hostOps1_sub) op hop)
/-- It allocates nothing. -/
theorem sfx_fresh : ∀ ops ∈ ([hostOps1] : List (List (HloOp τ sig (Elt F)))), ∀ op ∈ ops, op.fresh = ∅ := by
  intro ops hops op hop
  simp only [List.mem_cons, List.mem_nil_iff, or_false] at hops
  rcases hops with rfl
  · exact (List.forall_iff_forall_mem.mp hostOps1_fresh) op hop
/-- And it writes no array of the pipeline: its one result buffer is none of the seven. -/
theorem sfx_keeps : ∀ ops ∈ ([hostOps1] : List (List (HloOp τ sig (Elt F)))), ∀ op ∈ ops,
    ∀ w, Proc.devRef .tc (Pipeline.arrRef spec0 w) ∉ op.writes := by
  intro ops hops op hop
  simp only [List.mem_cons, List.mem_nil_iff, or_false] at hops
  rcases hops with rfl
  · simp only [hostOps1, List.mem_cons, List.mem_nil_iff, or_false] at hop
    rcases hop with rfl
    all_goals intro w; fin_cases w <;> simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.mem_singleton] <;> exact StableHlo.devRef_ne_of_ne (by decide)

/-- No host operation before the region writes argument 0: the region finds it as launched. -/
theorem V_main_arg0 (c : Dev nD) : V m c main_arg0 = m ((c : Thread nD τ).loc main_arg0) :=
  StableHlo.after_of_forall_not_mem (b := Proc.devRef .tc main_arg0) _ _ (List.forall_iff_forall_mem.mp (by
    simp only [hostOps0, hostOps0_1, hostOps0_2, hostOps0_3, hostOps0_4, hostOps0_5, hostOps0_6, hostOps0_7, hostOps0_8, hostOps0_9, hostOps0_10, hostOps0_11, hostOps0_12, List.flatten_cons, List.flatten_nil, List.append_nil, List.cons_append,
      List.nil_append, List.Forall, StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.mem_singleton]
    repeat' apply And.intro
    all_goals exact StableHlo.devRef_ne_of_ne (by decide)))

/-- Nor does the line after it: argument 0 ends as launched. -/
theorem W_main_arg0 (dats : (p : Fin _) → (c : Dev nD) → Dat τ (Elt F) Unit ℕ (UR sig nD τ) ℕ (cfgs p) c) (c : Dev nD) :
    Pipeline.afterTail₀ cfgs dats 0 (V0 m) [hostOps1] c main_arg0 = m ((c : Thread nD τ).loc main_arg0) := by
  unfold Pipeline.afterTail₀
  rw [StableHlo.after_of_forall_not_mem (b := Proc.devRef .tc main_arg0) _ _ (List.forall_iff_forall_mem.mp (by
      simp only [hostOps1, List.flatten_cons, List.flatten_nil, List.append_nil, List.cons_append,
        List.nil_append, List.Forall, StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.mem_singleton]
      exact StableHlo.devRef_ne_of_ne (by decide))),
    Pipeline.withArrays_of_ne _ c (V0 m c) _ main_arg0 (by exact (by decide : ∀ w, Pipeline.arrRef spec0 w ≠ main_arg0))]
  exact V_main_arg0 m c

/-- No host operation before the region writes argument 1: the region finds it as launched. -/
theorem V_main_arg1 (c : Dev nD) : V m c main_arg1 = m ((c : Thread nD τ).loc main_arg1) :=
  StableHlo.after_of_forall_not_mem (b := Proc.devRef .tc main_arg1) _ _ (List.forall_iff_forall_mem.mp (by
    simp only [hostOps0, hostOps0_1, hostOps0_2, hostOps0_3, hostOps0_4, hostOps0_5, hostOps0_6, hostOps0_7, hostOps0_8, hostOps0_9, hostOps0_10, hostOps0_11, hostOps0_12, List.flatten_cons, List.flatten_nil, List.append_nil, List.cons_append,
      List.nil_append, List.Forall, StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.mem_singleton]
    repeat' apply And.intro
    all_goals exact StableHlo.devRef_ne_of_ne (by decide)))

/-- Nor does the line after it: argument 1 ends as launched. -/
theorem W_main_arg1 (dats : (p : Fin _) → (c : Dev nD) → Dat τ (Elt F) Unit ℕ (UR sig nD τ) ℕ (cfgs p) c) (c : Dev nD) :
    Pipeline.afterTail₀ cfgs dats 0 (V0 m) [hostOps1] c main_arg1 = m ((c : Thread nD τ).loc main_arg1) := by
  unfold Pipeline.afterTail₀
  rw [StableHlo.after_of_forall_not_mem (b := Proc.devRef .tc main_arg1) _ _ (List.forall_iff_forall_mem.mp (by
      simp only [hostOps1, List.flatten_cons, List.flatten_nil, List.append_nil, List.cons_append,
        List.nil_append, List.Forall, StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.mem_singleton]
      exact StableHlo.devRef_ne_of_ne (by decide))),
    Pipeline.withArrays_of_ne _ c (V0 m c) _ main_arg1 (by exact (by decide : ∀ w, Pipeline.arrRef spec0 w ≠ main_arg1))]
  exact V_main_arg1 m c

/-- No host operation before the region writes argument 2: the region finds it as launched. -/
theorem V_main_arg2 (c : Dev nD) : V m c main_arg2 = m ((c : Thread nD τ).loc main_arg2) :=
  StableHlo.after_of_forall_not_mem (b := Proc.devRef .tc main_arg2) _ _ (List.forall_iff_forall_mem.mp (by
    simp only [hostOps0, hostOps0_1, hostOps0_2, hostOps0_3, hostOps0_4, hostOps0_5, hostOps0_6, hostOps0_7, hostOps0_8, hostOps0_9, hostOps0_10, hostOps0_11, hostOps0_12, List.flatten_cons, List.flatten_nil, List.append_nil, List.cons_append,
      List.nil_append, List.Forall, StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.mem_singleton]
    repeat' apply And.intro
    all_goals exact StableHlo.devRef_ne_of_ne (by decide)))

/-- Nor does the line after it: argument 2 ends as launched. -/
theorem W_main_arg2 (dats : (p : Fin _) → (c : Dev nD) → Dat τ (Elt F) Unit ℕ (UR sig nD τ) ℕ (cfgs p) c) (c : Dev nD) :
    Pipeline.afterTail₀ cfgs dats 0 (V0 m) [hostOps1] c main_arg2 = m ((c : Thread nD τ).loc main_arg2) := by
  unfold Pipeline.afterTail₀
  rw [StableHlo.after_of_forall_not_mem (b := Proc.devRef .tc main_arg2) _ _ (List.forall_iff_forall_mem.mp (by
      simp only [hostOps1, List.flatten_cons, List.flatten_nil, List.append_nil, List.cons_append,
        List.nil_append, List.Forall, StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.mem_singleton]
      exact StableHlo.devRef_ne_of_ne (by decide))),
    Pipeline.withArrays_of_ne _ c (V0 m c) _ main_arg2 (by exact (by decide : ∀ w, Pipeline.arrRef spec0 w ≠ main_arg2))]
  exact V_main_arg2 m c

/-- No host operation before the region writes argument 3: the region finds it as launched. -/
theorem V_main_arg3 (c : Dev nD) : V m c main_arg3 = m ((c : Thread nD τ).loc main_arg3) :=
  StableHlo.after_of_forall_not_mem (b := Proc.devRef .tc main_arg3) _ _ (List.forall_iff_forall_mem.mp (by
    simp only [hostOps0, hostOps0_1, hostOps0_2, hostOps0_3, hostOps0_4, hostOps0_5, hostOps0_6, hostOps0_7, hostOps0_8, hostOps0_9, hostOps0_10, hostOps0_11, hostOps0_12, List.flatten_cons, List.flatten_nil, List.append_nil, List.cons_append,
      List.nil_append, List.Forall, StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.mem_singleton]
    repeat' apply And.intro
    all_goals exact StableHlo.devRef_ne_of_ne (by decide)))

/-- Nor does the line after it: argument 3 ends as launched. -/
theorem W_main_arg3 (dats : (p : Fin _) → (c : Dev nD) → Dat τ (Elt F) Unit ℕ (UR sig nD τ) ℕ (cfgs p) c) (c : Dev nD) :
    Pipeline.afterTail₀ cfgs dats 0 (V0 m) [hostOps1] c main_arg3 = m ((c : Thread nD τ).loc main_arg3) := by
  unfold Pipeline.afterTail₀
  rw [StableHlo.after_of_forall_not_mem (b := Proc.devRef .tc main_arg3) _ _ (List.forall_iff_forall_mem.mp (by
      simp only [hostOps1, List.flatten_cons, List.flatten_nil, List.append_nil, List.cons_append,
        List.nil_append, List.Forall, StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.mem_singleton]
      exact StableHlo.devRef_ne_of_ne (by decide))),
    Pipeline.withArrays_of_ne _ c (V0 m c) _ main_arg3 (by exact (by decide : ∀ w, Pipeline.arrRef spec0 w ≠ main_arg3))]
  exact V_main_arg3 m c

/-- No host operation before the region writes argument 4: the region finds it as launched. -/
theorem V_main_arg4 (c : Dev nD) : V m c main_arg4 = m ((c : Thread nD τ).loc main_arg4) :=
  StableHlo.after_of_forall_not_mem (b := Proc.devRef .tc main_arg4) _ _ (List.forall_iff_forall_mem.mp (by
    simp only [hostOps0, hostOps0_1, hostOps0_2, hostOps0_3, hostOps0_4, hostOps0_5, hostOps0_6, hostOps0_7, hostOps0_8, hostOps0_9, hostOps0_10, hostOps0_11, hostOps0_12, List.flatten_cons, List.flatten_nil, List.append_nil, List.cons_append,
      List.nil_append, List.Forall, StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.mem_singleton]
    repeat' apply And.intro
    all_goals exact StableHlo.devRef_ne_of_ne (by decide)))

/-- Nor does the line after it: argument 4 ends as launched. -/
theorem W_main_arg4 (dats : (p : Fin _) → (c : Dev nD) → Dat τ (Elt F) Unit ℕ (UR sig nD τ) ℕ (cfgs p) c) (c : Dev nD) :
    Pipeline.afterTail₀ cfgs dats 0 (V0 m) [hostOps1] c main_arg4 = m ((c : Thread nD τ).loc main_arg4) := by
  unfold Pipeline.afterTail₀
  rw [StableHlo.after_of_forall_not_mem (b := Proc.devRef .tc main_arg4) _ _ (List.forall_iff_forall_mem.mp (by
      simp only [hostOps1, List.flatten_cons, List.flatten_nil, List.append_nil, List.cons_append,
        List.nil_append, List.Forall, StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.mem_singleton]
      exact StableHlo.devRef_ne_of_ne (by decide))),
    Pipeline.withArrays_of_ne _ c (V0 m c) _ main_arg4 (by exact (by decide : ∀ w, Pipeline.arrRef spec0 w ≠ main_arg4))]
  exact V_main_arg4 m c

/-! ## The windows' blocks -/

/-- Window `w`'s block at point `t`, read off its array as the region finds it. -/
def iblk (c : Dev nD) (w : Fin cfg0.W) (t : Fin cfg0.N) : ((cfg0.win w).xblock (cfg0.grid.coords t)).Idx → Elt F (cfg0.win w).elt :=
  ((cfg0.win w).blk t).view.read (Elt F) (V m c (Pipeline.arrRef spec0 w))

/-- Input window 0's current staging buffer holds its block at every point. -/
theorem before0_of {c : Dev nD} (dat : Dat τ (Elt F) Unit ℕ (UR sig nD τ) ℕ cfg0 c) (hA : dat.A 0 = V m c (Pipeline.arrRef spec0 0))
    (hafter : ∀ t, dat.after 0 t = iblk m c 0 t) (t : Fin cfg0.N) (d) : dat.before 0 t d = iblk m c 0 t :=
  (dat.before_in_eq_fetched 0 rfl (fun _ => rfl) (fun _ _ _ => rfl) (fun t => by rw [hafter]; unfold Dat.blockOf iblk; rw [hA]; try rfl) t d).trans
    (by unfold Dat.fetched Dat.blockOf iblk; rw [hA]; try rfl)

/-- Input window 1's current staging buffer holds its block at every point. -/
theorem before1_of {c : Dev nD} (dat : Dat τ (Elt F) Unit ℕ (UR sig nD τ) ℕ cfg0 c) (hA : dat.A 1 = V m c (Pipeline.arrRef spec0 1))
    (hafter : ∀ t, dat.after 1 t = iblk m c 1 t) (t : Fin cfg0.N) (d) : dat.before 1 t d = iblk m c 1 t :=
  (dat.before_in_eq_fetched 1 rfl (fun _ => rfl) (fun _ _ _ => rfl) (fun t => by rw [hafter]; unfold Dat.blockOf iblk; rw [hA]; try rfl) t d).trans
    (by unfold Dat.fetched Dat.blockOf iblk; rw [hA]; try rfl)

/-- Input window 2's current staging buffer holds its block at every point. -/
theorem before2_of {c : Dev nD} (dat : Dat τ (Elt F) Unit ℕ (UR sig nD τ) ℕ cfg0 c) (hA : dat.A 2 = V m c (Pipeline.arrRef spec0 2))
    (hafter : ∀ t, dat.after 2 t = iblk m c 2 t) (t : Fin cfg0.N) (d) : dat.before 2 t d = iblk m c 2 t :=
  (dat.before_in_eq_fetched 2 rfl (fun _ => rfl) (fun _ _ _ => rfl) (fun t => by rw [hafter]; unfold Dat.blockOf iblk; rw [hA]; try rfl) t d).trans
    (by unfold Dat.fetched Dat.blockOf iblk; rw [hA]; try rfl)

/-- Input window 3's current staging buffer holds its block at every point. -/
theorem before3_of {c : Dev nD} (dat : Dat τ (Elt F) Unit ℕ (UR sig nD τ) ℕ cfg0 c) (hA : dat.A 3 = V m c (Pipeline.arrRef spec0 3))
    (hafter : ∀ t, dat.after 3 t = iblk m c 3 t) (t : Fin cfg0.N) (d) : dat.before 3 t d = iblk m c 3 t :=
  (dat.before_in_eq_fetched 3 rfl (fun _ => rfl) (fun _ _ _ => rfl) (fun t => by rw [hafter]; unfold Dat.blockOf iblk; rw [hA]; try rfl) t d).trans
    (by unfold Dat.fetched Dat.blockOf iblk; rw [hA]; try rfl)

/-- Input window 4's current staging buffer holds its block at every point. -/
theorem before4_of {c : Dev nD} (dat : Dat τ (Elt F) Unit ℕ (UR sig nD τ) ℕ cfg0 c) (hA : dat.A 4 = V m c (Pipeline.arrRef spec0 4))
    (hafter : ∀ t, dat.after 4 t = iblk m c 4 t) (t : Fin cfg0.N) (d) : dat.before 4 t d = iblk m c 4 t :=
  (dat.before_in_eq_fetched 4 rfl (fun _ => rfl) (fun _ _ _ => rfl) (fun t => by rw [hafter]; unfold Dat.blockOf iblk; rw [hA]; try rfl) t d).trans
    (by unfold Dat.fetched Dat.blockOf iblk; rw [hA]; try rfl)

/-- Input window 5's current staging buffer holds its block at every point. -/
theorem before5_of {c : Dev nD} (dat : Dat τ (Elt F) Unit ℕ (UR sig nD τ) ℕ cfg0 c) (hA : dat.A 5 = V m c (Pipeline.arrRef spec0 5))
    (hafter : ∀ t, dat.after 5 t = iblk m c 5 t) (t : Fin cfg0.N) (d) : dat.before 5 t d = iblk m c 5 t :=
  (dat.before_in_eq_fetched 5 rfl (fun _ => rfl) (fun _ _ _ => rfl) (fun t => by rw [hafter]; unfold Dat.blockOf iblk; rw [hA]; try rfl) t d).trans
    (by unfold Dat.fetched Dat.blockOf iblk; rw [hA]; try rfl)

/-! ## The frame claim's post from the run's -/

/-- For any proof data whose arrays are the region-entry contents, a run to the launch theorem's post, read at the five
    argument arrays, is the frame claim's post. -/
theorem frame_of (dats : (p : Fin 1) → (c : Dev nD) → Dat τ (Elt F) Unit ℕ (UR sig nD τ) ℕ (cfgs p) c)
    (hA : ∀ c w, (dats 0 c).A w = V m c (Pipeline.arrRef spec0 w))
    (h : θ_run defs (onTc (τ := τ) (main (F := F))) (s₀ m ρ) (Pipeline.FramePost cfgs dats 0 (Pipeline.afterTail₀ cfgs dats 0 (V0 m) [hostOps1]))) :
    θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)) :=
  (θ_run defs _ _).mono (fun _ h c => ⟨(((h c).2 main_arg0 (Pipeline.mem_restRefs_of main_arg0 (by decide) (by decide))).trans (W_main_arg0 m dats c)),
    (((h c).2 main_arg1 (Pipeline.mem_restRefs_of main_arg1 (by decide) (by decide))).trans (W_main_arg1 m dats c)),
    (((h c).2 main_arg2 (Pipeline.mem_restRefs_of main_arg2 (by decide) (by decide))).trans (W_main_arg2 m dats c)),
    (((h c).2 main_arg3 (Pipeline.mem_restRefs_of main_arg3 (by decide) (by decide))).trans (W_main_arg3 m dats c)),
    (((h c).2 main_arg4 (Pipeline.mem_restRefs_of main_arg4 (by decide) (by decide))).trans (W_main_arg4 m dats c))⟩) h

/-! ## The body's accesses -/

abbrev rIn : Rect S4096x128 := Rect.unit (s := S4096x128) ![0, 0] S4096x128.size inb_S4096x128_S4096x128_0_0
abbrev rOut : Rect S4096x1 := Rect.unit (s := S4096x1) ![0, 0] S4096x1.size inb_S4096x1_S4096x1_0_0

/-- The output window's staging buffer after the body, from the six input blocks (in window order: the cubic's four
    coefficient planes, the fraction, the validity flag): its one store, of the payload over the six loads. -/
def out6 (x0 x1 x2 x3 x4 x5 : Vec F S4096x128 .f32) : Vec F S4096x1 .f32 :=
  View.canon [⟨rOut, k0_pay1 (View.ld x4 rIn) (View.ld x0 rIn) (View.ld x1 rIn) (View.ld x2 rIn) (View.ld x3 rIn) (View.ld x5 rIn)⟩]

/-- The one store covers the buffer. -/
theorem cover6 (p0 : Vec F S4096x1 .f32) (y : S4096x1.Idx) :
    ∃ pc ∈ ([⟨rOut, p0⟩] : List (View.Piece (Elt F) S4096x1 .f32)), y ∈ pc.1.set :=
  View.cover_of_tiled [⟨rOut, p0⟩] S4096x1.size (by rfl) y

/-! ## The body's triple -/

set_option maxHeartbeats 4000000 in
/-- The body on whole staging memrefs, the inputs' at contents `x0 … x5` and the output's at anything, runs to the
    continuation with the inputs' as they were and the output's at `out6` of them. -/
theorem sound_kernel (c : Dev nD) (E : Set ℕ) (i : grid0.Coords)
    (arg1 : Memref sig .tc .vmem S4096x128 .f32) (harg1 : arg1.IsWhole) (arg2 : Memref sig .tc .vmem S4096x128 .f32) (harg2 : arg2.IsWhole) (arg3 : Memref sig .tc .vmem S4096x128 .f32) (harg3 : arg3.IsWhole) (arg4 : Memref sig .tc .vmem S4096x128 .f32) (harg4 : arg4.IsWhole) (arg5 : Memref sig .tc .vmem S4096x128 .f32) (harg5 : arg5.IsWhole) (arg6 : Memref sig .tc .vmem S4096x128 .f32) (harg6 : arg6.IsWhole)
    (arg7 : Memref sig .tc .vmem S4096x1 .f32) (harg7 : arg7.IsWhole)
    (x0 x1 x2 x3 x4 x5 : Vec F S4096x128 .f32) (K : PUnit → sProp 𝕄) :
    iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ owns (c : Thread nD τ) arg6 fullShare x5 ∗ (∃ d, owns (c : Thread nD τ) arg7 fullShare d)
        ∗ (iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ owns (c : Thread nD τ) arg6 fullShare x5 ∗ owns (c : Thread nD τ) arg7 fullShare (out6 x0 x1 x2 x3 x4 x5)) -∗ K ⟨⟩))
      ⊢ wp frame (wpE (defs₀ (F := F)) Variants.none c none) E (cc0__interp_reduce_kernel i arg1 harg1 arg2 harg2 arg3 harg3 arg4 harg4 arg5 harg5 arg6 harg6 arg7 harg7) K := by
  simp only [cc0__interp_reduce_kernel_eq_skeleton]; unfold cc0__interp_reduce_kernel_skel
  unfold owns
  iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%d6, %f6, -, H6⟩, Hk⟩
  subst hf0 hf1 hf2 hf3 hf4 hf5
  sl_exec
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  isplitl [H3]
  · iexists f3; isplitr; · ipureintro; rfl
    iexact H3
  isplitl [H4]
  · iexists f4; isplitr; · ipureintro; rfl
    iexact H4
  isplitl [H5]
  · iexists f5; isplitr; · ipureintro; rfl
    iexact H5
  iexists _; isplitr
  swap; · iexact H6
  ipureintro
  exact View.read_writes_eq_canon _ _ _ (cover6 _)

/-! ## The pipeline's proof data -/

/-- The proof data on core `c`: the arrays as the region finds them; after the body at point `t` each input's buffer at
    its block and the output's at `out6` of the input blocks; nothing owed, full shares. -/
def dats (_ : Fin 1) (c : Dev nD) : Dat τ (Elt F) Unit ℕ (UR sig nD τ) ℕ cfg0 c where
  A w := V m c (Pipeline.arrRef spec0 w)
  after w t := match w with
    | ⟨0, _⟩ => iblk m c 0 t
    | ⟨1, _⟩ => iblk m c 1 t
    | ⟨2, _⟩ => iblk m c 2 t
    | ⟨3, _⟩ => iblk m c 3 t
    | ⟨4, _⟩ => iblk m c 4 t
    | ⟨5, _⟩ => iblk m c 5 t
    | ⟨6, _⟩ => out6 (iblk m c 0 t) (iblk m c 1 t) (iblk m c 2 t) (iblk m c 3 t) (iblk m c 4 t) (iblk m c 5 t)
  Φ _ := Pipeline.ΦA spec0 c
  q _ := fullShare
  owed _ := 0

theorem A_eq (c : Dev nD) (w : Fin cfg0.W) : (dats m 0 c).A w = V m c (Pipeline.arrRef spec0 w) := by
  dsimp only [dats]

theorem after0 (c : Dev nD) (t : Fin cfg0.N) : (dats m 0 c).after 0 t = iblk m c 0 t := by dsimp only [dats]
theorem after1 (c : Dev nD) (t : Fin cfg0.N) : (dats m 0 c).after 1 t = iblk m c 1 t := by dsimp only [dats]
theorem after2 (c : Dev nD) (t : Fin cfg0.N) : (dats m 0 c).after 2 t = iblk m c 2 t := by dsimp only [dats]
theorem after3 (c : Dev nD) (t : Fin cfg0.N) : (dats m 0 c).after 3 t = iblk m c 3 t := by dsimp only [dats]
theorem after4 (c : Dev nD) (t : Fin cfg0.N) : (dats m 0 c).after 4 t = iblk m c 4 t := by dsimp only [dats]
theorem after5 (c : Dev nD) (t : Fin cfg0.N) : (dats m 0 c).after 5 t = iblk m c 5 t := by dsimp only [dats]
theorem after6 (c : Dev nD) (t : Fin cfg0.N) : (dats m 0 c).after 6 t = out6 (iblk m c 0 t) (iblk m c 1 t) (iblk m c 2 t) (iblk m c 3 t) (iblk m c 4 t) (iblk m c 5 t) := by dsimp only [dats]

theorem before0 (c : Dev nD) (t : Fin cfg0.N) (d) : (dats m 0 c).before 0 t d = iblk m c 0 t :=
  before0_of m (dats m 0 c) (A_eq m c 0) (after0 m c) t d
theorem before1 (c : Dev nD) (t : Fin cfg0.N) (d) : (dats m 0 c).before 1 t d = iblk m c 1 t :=
  before1_of m (dats m 0 c) (A_eq m c 1) (after1 m c) t d
theorem before2 (c : Dev nD) (t : Fin cfg0.N) (d) : (dats m 0 c).before 2 t d = iblk m c 2 t :=
  before2_of m (dats m 0 c) (A_eq m c 2) (after2 m c) t d
theorem before3 (c : Dev nD) (t : Fin cfg0.N) (d) : (dats m 0 c).before 3 t d = iblk m c 3 t :=
  before3_of m (dats m 0 c) (A_eq m c 3) (after3 m c) t d
theorem before4 (c : Dev nD) (t : Fin cfg0.N) (d) : (dats m 0 c).before 4 t d = iblk m c 4 t :=
  before4_of m (dats m 0 c) (A_eq m c 4) (after4 m c) t d
theorem before5 (c : Dev nD) (t : Fin cfg0.N) (d) : (dats m 0 c).before 5 t d = iblk m c 5 t :=
  before5_of m (dats m 0 c) (A_eq m c 5) (after5 m c) t d

/-! ## The body obligation, at a generic point -/

/-- What the body is called with at point `t`, the windows one by one, -/
def bodyPre (c : Dev nD) (t : Fin cfg0.N) : sProp 𝕄 :=
  iprop((dats m 0 c).Φ t.castSucc ∗ (dats m 0 c).owesAt () t.castSucc
    ∗ (∃ d, owns (c : Thread nD τ) (st0_0 t) fullShare ((dats m 0 c).before 0 t d))
    ∗ (∃ d, owns (c : Thread nD τ) (st0_1 t) fullShare ((dats m 0 c).before 1 t d))
    ∗ (∃ d, owns (c : Thread nD τ) (st0_2 t) fullShare ((dats m 0 c).before 2 t d))
    ∗ (∃ d, owns (c : Thread nD τ) (st0_3 t) fullShare ((dats m 0 c).before 3 t d))
    ∗ (∃ d, owns (c : Thread nD τ) (st0_4 t) fullShare ((dats m 0 c).before 4 t d))
    ∗ (∃ d, owns (c : Thread nD τ) (st0_5 t) fullShare ((dats m 0 c).before 5 t d))
    ∗ (∃ d, owns (c : Thread nD τ) (st0_6 t) fullShare ((dats m 0 c).before 6 t d)))

/-- and what it returns. -/
def bodyPost (c : Dev nD) (t : Fin cfg0.N) : sProp 𝕄 :=
  iprop((dats m 0 c).Φ t.succ ∗ (dats m 0 c).owesAt () t.succ
    ∗ owns (c : Thread nD τ) (st0_0 t) fullShare ((dats m 0 c).after 0 t)
    ∗ owns (c : Thread nD τ) (st0_1 t) fullShare ((dats m 0 c).after 1 t)
    ∗ owns (c : Thread nD τ) (st0_2 t) fullShare ((dats m 0 c).after 2 t)
    ∗ owns (c : Thread nD τ) (st0_3 t) fullShare ((dats m 0 c).after 3 t)
    ∗ owns (c : Thread nD τ) (st0_4 t) fullShare ((dats m 0 c).after 4 t)
    ∗ owns (c : Thread nD τ) (st0_5 t) fullShare ((dats m 0 c).after 5 t)
    ∗ owns (c : Thread nD τ) (st0_6 t) fullShare ((dats m 0 c).after 6 t))

/-- The body at any point: the inputs' memrefs hold their blocks, so the body's triple applies; the invariant and what
    the core owes pass through unread. -/
theorem sound_body (c : Dev nD) (t : Fin cfg0.N) :
    bodyPre m c t ⊢ wp frame (wpE (defs₀ (F := F)) Variants.none c none) Set.univ (bodyAt0 t) (fun _ => bodyPost m c t) := by
  unfold bodyPre bodyPost bodyAt0
  simp only [before0, before1, before2, before3, before4, before5]
  rw [show (dats m 0 c).Φ t.succ = (dats m 0 c).Φ t.castSucc from rfl,
    show (dats m 0 c).owesAt () t.succ = (dats m 0 c).owesAt () t.castSucc from rfl,
    after0, after1, after2, after3, after4, after5, after6]
  iintro ⟨HΦ, Ho, ⟨%d0, H0⟩, ⟨%d1, H1⟩, ⟨%d2, H2⟩, ⟨%d3, H3⟩, ⟨%d4, H4⟩, ⟨%d5, H5⟩, ⟨%d6, H6⟩⟩
  iapply (sound_kernel c Set.univ (grid0.coords t) _ _ _ _ _ _ _ _ _ _ _ _ _ _ (iblk m c 0 t) (iblk m c 1 t) (iblk m c 2 t) (iblk m c 3 t) (iblk m c 4 t) (iblk m c 5 t) _)
  isplitl [H0]; · iexact H0
  isplitl [H1]; · iexact H1
  isplitl [H2]; · iexact H2
  isplitl [H3]; · iexact H3
  isplitl [H4]; · iexact H4
  isplitl [H5]; · iexact H5
  isplitl [H6]; · iexists _; iexact H6
  iintro ⟨H0, H1, H2, H3, H4, H5, H6⟩
  isplitl [HΦ]; · iexact HΦ
  isplitl [Ho]; · iexact Ho
  isplitl [H0]; · iexact H0
  isplitl [H1]; · iexact H1
  isplitl [H2]; · iexact H2
  isplitl [H3]; · iexact H3
  isplitl [H4]; · iexact H4
  isplitl [H5]; · iexact H5
  iexact H6

/-- The library's body obligation, at every point. -/
theorem body_obligation (c : Dev nD) : BodyObligation (dats (F := F) m 0 c) (defs₀ (F := F)) Variants.none () Set.univ := fun t => by
  rw [bigSep_W0, bigSep_W0]
  exact sound_body m c t

/-! ## The run and the frame -/

set_option backward.isDefEq.respectTransparency.types false in
/-- Every weakly fair execution of @main terminates, every array of the pipeline ends at what the proof data gives and
    every other unscoped buffer as the line after the region leaves it. -/
theorem run_main : θ_run defs (onTc (τ := τ) (main (F := F))) (s₀ m ρ) (Pipeline.FramePost cfgs (dats m) 0 (Pipeline.afterTail₀ cfgs (dats m) 0 (V0 m) [hostOps1])) :=
  Pipeline.θ_run_frame_around cfgs (dats m) (0 : Fin 1) launch0 defs₀ Variants.none m ρ main
    (hbody := fun c => (body_obligation m c).loose) (hshare := fun c => (dats m 0 c).share_full fun _ => rfl)
    (howed := fun _ _ => rfl) (V₀ := V0 m) (opss := [hostOps1]) (hsub := sfx_sub) (hfresh := sfx_fresh) (hkeep := sfx_keeps)
    (hmain := hmain m Variants.none) (hA := A_eq m) (hΦ := fun _ _ => rfl)

/-- The frame: @main runs to the end, nothing faults, and the five argument arrays end unchanged, at any float instance. -/
theorem frame : θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)) :=
  frame_of m ρ (dats m) (A_eq m) (run_main m ρ)

end Cert.KernelIdeal.Hand

end
-- ==== Proof.LibRowSum.lean ====
/-
  Indices named by their coordinates, and a sum along the second axis of a matrix read at a row.

  An index of a rank-1 or rank-2 shape is determined by its coordinates' values, whatever term spells it (a composed
  index map of a broadcast, a lifted index of a reduction, a block's embedded index).  A lane reduction
  `multi_reduction <add>` of an [a, K] array along its second axis, from the zero word, read at row r over the
  extended reals, is the sum over k of the entries (r, k).
-/
import Idealize.ShloMosaic.PureOps.Ideal.Laws
import Idealize.ShloMosaic.Lib.ValueIdx

namespace Idealize.ShloMosaic.ValueIdx

open Idealize.ShloMosaic

/-- An index of a rank-2 shape is the one with the same two coordinates. -/
theorem idx2_ext {n0 n1 : Nat} (j : (⟨2, ![n0, n1]⟩ : Shape).Idx) (a : Fin n0) (b : Fin n1)
    (h0 : (j 0).val = a.val) (h1 : (j 1).val = b.val) : j = ix2 a b :=
  funext fun d => Fin.ext (by match d with | ⟨0, _⟩ => exact h0 | ⟨1, _⟩ => exact h1)

/-- An index of a rank-1 shape is the one with the same coordinate. -/
theorem idx1_ext {n : Nat} (j : (⟨1, ![n]⟩ : Shape).Idx) (a : Fin n) (h0 : (j 0).val = a.val) : j = ix1 a :=
  funext fun d => Fin.ext (by match d with | ⟨0, _⟩ => exact h0)

/-- A sum along the second axis of an [a, K] array, from the zero word, read at row `r`: `∑ k, src (r, k)`. The shape
    fact, the format fact and the accumulator's neutrality are whatever proofs the printed operation carries. -/
theorem multiReduction_add_rows_apply {a K : ℕ} (src : FVec Ideal ⟨2, ![a, K]⟩ .f32)
    (hr : (⟨2, ![a, K]⟩ : Shape).Reduces [1] ⟨1, ![a]⟩) (hφ : FKind.Formats .f32)
    (hacc : (0x00000000#32 : BitVec 32) = FKind.add.neutral .f32 hφ) (r : Fin a) :
    multiReduction .add [1] ⟨1, ![a]⟩ src 0x00000000#32 hr hφ hacc (ix1 r) = ∑ k : Fin K, src (ix2 r k) :=
  (Ideal.multiReduction_add_single src _ hr hφ hacc (ix1 r)).trans
    (Finset.sum_congr rfl fun k _ => congrArg src (idx2_ext _ r k rfl rfl))

end Idealize.ShloMosaic.ValueIdx
-- ==== Proof.LibColumn.lean ====
/-
  Layout operations of a keepdims row reduction, read at an index given by coordinates: a vector [a] viewed as the
  column [a, 1], and that column broadcast along the second axis to [a, b]. (The library's layout file has the row
  forms [a] → [1, a] and [1, b] → [a, b]; these are the column ones, in the same style.)
-/
import Idealize.ShloMosaic.Lib.Pipeline.Value
import Idealize.ShloMosaic.Lib.ValueIdx

namespace Idealize.ShloMosaic.ValueIdx

open Idealize.ShloMosaic

variable {α : Type}

/-- An `[a]` array cast to the column `[a, 1]` reads, at `(i, u)`, the operand at `i`, whatever the unit coordinate `u`. -/
theorem shapeCast_a_a1_apply {a : ℕ} (x : (⟨1, ![a]⟩ : Shape).Idx → α) (h : (⟨1, ![a]⟩ : Shape).ShapeCasts ⟨2, ![a, 1]⟩)
    (i : Fin a) (u : Fin 1) : shapeCast ⟨2, ![a, 1]⟩ x h (ix2 i u) = x (ix1 i) :=
  shapeCast_apply x h _ _ (by
    have hu : u.val = 0 := by omega
    rw [Shape.rowMajor_val_two, Shape.rowMajor_val_one]
    show i.val = i.val * 1 + u.val
    rw [hu, Nat.mul_one, Nat.add_zero])

/-- A column `[a, 1]` broadcast to `[a, b]` reads, at `(p, c)`, the column's entry at row `p`. -/
theorem broadcastTo_a1_ab_apply {a b : ℕ} (v : (⟨2, ![a, 1]⟩ : Shape).Idx → α) (h : (⟨2, ![a, 1]⟩ : Shape).Broadcasts ⟨2, ![a, b]⟩)
    (p : Fin a) (c : Fin b) : broadcastTo ⟨2, ![a, b]⟩ v h (ix2 p c) = v (ix2 p (0 : Fin 1)) := by
  refine broadcastTo_apply v h (ix2 p c) (ix2 p (0 : Fin 1)) fun ax => ?_
  match ax with
  | ⟨0, _⟩ =>
    show p.val = if a = 1 then 0 else p.val
    split
    · have := p.isLt; omega
    · rfl
  | ⟨1, _⟩ => rfl

end Idealize.ShloMosaic.ValueIdx
-- ==== Proof.Elem.lean ====
/-
  One neighbour's contribution, on the extended reals.

  The cubic in the interpolation fraction u with coefficients a3 … a0 is ((a3·u + a2)·u + a1)·u + a0. With all four
  coefficients zero it is 0 for every u, infinite u included, because 0·u = 0 on the extended reals.
  One program keeps a neighbour when a one-bit flag "in the list, bin at most the last, not beyond the cutoff", turned into a
  float and compared with one half, is set, and otherwise contributes 0. The other zeroes the coefficients when the bin is past
  the last, then zeroes the value beyond the cutoff, then zeroes it outside the list. "Bin past the last" is the negation of
  "bin at most the last" (signed comparison of the same two words), so the two contributions agree in all eight cases.
-/
import Mathlib
import Idealize.ShloMosaic.PureOps.Ideal.Laws

noncomputable section

namespace Cert.Spline

open Idealize.ShloMosaic

/-- The pattern 0x3F000000 denotes one half. -/
theorem ofBits_half : Ideal.ofBits .f32 0x3F000000#32 = ((1 / 2 : ℝ) : EReal) := by
  simp [Ideal.ofBits, Ideal.ieee, -EReal.coe_mul]; norm_num

/-- The cubic in Horner form. -/
def cubic (a3 a2 a1 a0 u : EReal) : EReal := ((a3 * u + a2) * u + a1) * u + a0

/-- With zero coefficients the cubic is zero at every extended real. -/
theorem cubic_zero (u : EReal) : cubic 0 0 0 0 u = 0 := by simp [cubic]

/-- A one-bit flag read as an unsigned number exceeds one half exactly when it is set. -/
theorem flag_gt_half (v : BitVec 1) :
    Ideal.cmp .ogt (((v.toNat : ℝ) : EReal)) (Ideal.ofBits .f32 0x3F000000#32) = v := by
  rw [ofBits_half]
  show BitVec.ofBool (decide (((1 / 2 : ℝ) : EReal) < ((v.toNat : ℝ) : EReal))) = v
  rcases BitVec.eq_zero_or_eq_one v with h | h <;> subst h
  · have h0 : ¬ (((1 / 2 : ℝ) : EReal) < ((((0#1 : BitVec 1).toNat : ℕ) : ℝ) : EReal)) := by
      rw [EReal.coe_lt_coe_iff]; norm_num
    rw [decide_eq_false h0]; rfl
  · have h1 : (((1 / 2 : ℝ) : EReal) < ((((1#1 : BitVec 1).toNat : ℕ) : ℝ) : EReal)) := by
      rw [EReal.coe_lt_coe_iff]; norm_num
    rw [decide_eq_true h1]; rfl

/-- Signed "greater than" is the complement of signed "at most". -/
theorem sgt_eq_not_sle (i c : BitVec 32) : IntOp.cmpi .sgt i c = ~~~ (IntOp.cmpi .sle i c) := by
  simp only [IntOp.cmpi]
  have h : c.slt i = !(i.sle c) := by
    simp only [BitVec.slt, BitVec.sle]
    by_cases hle : i.toInt ≤ c.toInt
    · simp [hle, not_lt.mpr hle]
    · simp [hle, not_le.mp hle]
  rw [h]
  cases i.sle c <;> rfl

/-- The two programs' contributions of one neighbour agree. -/
theorem elem_eq (m b : BitVec 1) (i c : BitVec 32) (a3 a2 a1 a0 u : EReal) :
    Scalar.select
        (Ideal.cmp .ogt ((((IntOp.andi (IntOp.andi m (IntOp.cmpi .sle i c)) (~~~ b)).toNat : ℝ) : EReal))
          (Ideal.ofBits .f32 0x3F000000#32))
        (cubic a3 a2 a1 a0 u) (Ideal.ofBits .f32 0x00000000#32)
      = Scalar.select m
          (Scalar.select b (Ideal.ofBits .f32 0x00000000#32)
            (cubic (Scalar.select (IntOp.cmpi .sgt i c) (Ideal.ofBits .f32 0x00000000#32) a3)
              (Scalar.select (IntOp.cmpi .sgt i c) (Ideal.ofBits .f32 0x00000000#32) a2)
              (Scalar.select (IntOp.cmpi .sgt i c) (Ideal.ofBits .f32 0x00000000#32) a1)
              (Scalar.select (IntOp.cmpi .sgt i c) (Ideal.ofBits .f32 0x00000000#32) a0) u))
          (Ideal.ofBits .f32 0x00000000#32) := by
  rw [flag_gt_half, sgt_eq_not_sle, Ideal.ofBits_zero_f32]
  generalize IntOp.cmpi .sle i c = l
  rcases BitVec.eq_zero_or_eq_one m with hm | hm <;> rcases BitVec.eq_zero_or_eq_one b with hb | hb <;>
    rcases BitVec.eq_zero_or_eq_one l with hl | hl <;> subst hm hb hl <;>
    simp [Scalar.select, IntOp.andi, cubic_zero]

end Cert.Spline

end
-- ==== Proof.KernelValue.lean ====
/-
  What the kernel program's result holds, over the extended reals.

  Row r of the region's [65536,1] output is one half times the sum over the 128 neighbours l of that neighbour's term: the
  cubic in the fraction with the four gathered coefficients where the validity flag exceeds one half, and 0 elsewhere.
  Grid point t stores rows 4096·t … 4096·t + 4095, read from the same rows of the six [65536,128] input arrays, so the
  sixteen blocks tile the output and the whole array is that one function of the six arrays as the region finds them.
  The line after the region only reshapes it to [8,8192,1].
-/
import proofs.«112457_j25537875542623_2_alg».proof.Proof.FrameKernelIdeal
import proofs.«112457_j25537875542623_2_alg».proof.Proof.LibRowSum
import proofs.«112457_j25537875542623_2_alg».proof.Proof.LibColumn
import proofs.«112457_j25537875542623_2_alg».proof.Proof.Elem
import Idealize.ShloMosaic.Lib.Pipeline.Value
import Idealize.ShloMosaic.Lib.ValueIdx
import Idealize.ShloMosaic.PureOps.Ideal.Laws

set_option maxRecDepth 16384

noncomputable section

namespace Cert.KernelIdeal.HandValue

open Cert.KernelIdeal Cert.KernelIdeal.Gen Cert.KernelIdeal.Hand
open Idealize.ShloMosaic Idealize.ShloMosaic.TcCoe Idealize.ShloMosaic.ValueIdx
open Idealize.SL Idealize.SL.Sem
open Idealize.ShloMosaic.Pipeline (Dat Cfg Window)
open Idealize.ShloMosaic.StableHlo

variable (m : (ℓ : Loc nD τ sig) → Buf (Elt Ideal) ℓ) (ρ : Dev nD → PrngReg)

theorem hz : (![0, 0] : Fin 2 → Nat) = fun _ => 0 := funext fun a => by fin_cases a <;> rfl

/-- One neighbour's term: the cubic where the flag exceeds one half, else zero. -/
def term (a3 a2 a1 a0 u v : EReal) : EReal :=
  Scalar.select (Ideal.cmp .ogt v (Ideal.ofBits .f32 0x3F000000#32)) (Cert.Spline.cubic a3 a2 a1 a0 u)
    (Ideal.ofBits .f32 0x00000000#32)

/-- Row `r` of the result from six [N,128] arrays: one half times the sum of the 128 neighbours' terms. -/
def rowVal {N : Nat} (A3 A2 A1 A0 U Vf : (⟨2, ![N, 128]⟩ : Shape).Idx → EReal) (r : Fin N) : EReal :=
  Ideal.ofBits .f32 0x3F000000#32
    * ∑ l : Fin 128, term (A3 (ix2 r l)) (A2 (ix2 r l)) (A1 (ix2 r l)) (A0 (ix2 r l)) (U (ix2 r l)) (Vf (ix2 r l))

/-- The body's payload read at row p of the block. -/
theorem pay_apply (xu x3 x2 x1 x0 xv : Vec Ideal S4096x128 .f32) (p : Fin 4096) (q : Fin 1) :
    k0_pay1 (F := Ideal) xu x3 x2 x1 x0 xv (ix2 p q) = rowVal x3 x2 x1 x0 xu xv p := by
  unfold k0_pay1 rowVal
  dsimp only
  simp only [shapeCast_self]
  refine (mulf_apply _ _ _).trans ?_
  congr 1
  refine (shapeCast_a_a1_apply _ _ p q).trans ?_
  refine (multiReduction_add_rows_apply _ _ _ _ p).trans ?_
  rfl

/-- The whole output array of the region: row by row, `rowVal` of the six input arrays as the region finds them. -/
def Gout (c : Dev nD) : S65536x1.Idx → Elt Ideal .f32 := fun i =>
  rowVal (V m c main_v132) (V m c main_v133) (V m c main_v134) (V m c main_v135) (V m c main_v136) (V m c main_v137)
    ⟨(i 0).val, idx2_lt0 i⟩

/-- The printed index maps over the grid: every input window's block is at the output window's row block, column block 0;
    the output's row block is below 16. -/
theorem idx_facts : ∀ t : Fin cfg0.N,
    win0_0.index t (0 : Fin 2) = win0_6.index t (0 : Fin 2) ∧ win0_0.index t (1 : Fin 2) = 0
    ∧ win0_1.index t (0 : Fin 2) = win0_6.index t (0 : Fin 2) ∧ win0_1.index t (1 : Fin 2) = 0
    ∧ win0_2.index t (0 : Fin 2) = win0_6.index t (0 : Fin 2) ∧ win0_2.index t (1 : Fin 2) = 0
    ∧ win0_3.index t (0 : Fin 2) = win0_6.index t (0 : Fin 2) ∧ win0_3.index t (1 : Fin 2) = 0
    ∧ win0_4.index t (0 : Fin 2) = win0_6.index t (0 : Fin 2) ∧ win0_4.index t (1 : Fin 2) = 0
    ∧ win0_5.index t (0 : Fin 2) = win0_6.index t (0 : Fin 2) ∧ win0_5.index t (1 : Fin 2) = 0
    ∧ win0_6.index t (0 : Fin 2) ≤ 15 ∧ win0_6.index t (1 : Fin 2) = 0 :=
  (by decide +kernel : ∀ t : Fin grid0.N, _)

/-- Every row block is some point's. -/
theorem idx_onto : ∀ q0 : Fin 16, ∃ t : Fin cfg0.N, win0_6.index t = ![q0.val, 0] :=
  (by decide +kernel : ∀ q0 : Fin 16, ∃ t : Fin grid0.N, win0_6.index t = ![q0.val, 0])

/-- Row p, neighbour l of point t's blocks of six [65536,128] arrays is the arrays' entry at row 4096·(t's row block) + p,
    neighbour l: every input window's block sits at the output window's row block. -/
theorem blk_term (t : Fin cfg0.N) (X3 X2 X1 X0 XU XV : S65536x128.Idx → EReal) (p : Fin 4096) (q : Fin 1) (l : Fin 128) :
    term (((cfg0.win 0).blk t).view.read (Elt Ideal) X3 (ix2 p l)) (((cfg0.win 1).blk t).view.read (Elt Ideal) X2 (ix2 p l))
        (((cfg0.win 2).blk t).view.read (Elt Ideal) X1 (ix2 p l)) (((cfg0.win 3).blk t).view.read (Elt Ideal) X0 (ix2 p l))
        (((cfg0.win 4).blk t).view.read (Elt Ideal) XU (ix2 p l)) (((cfg0.win 5).blk t).view.read (Elt Ideal) XV (ix2 p l))
      = term (X3 (ix2 ⟨((((cfg0.win 6).blk t).view.emb (ix2 p q)) 0).val, idx2_lt0 _⟩ l))
          (X2 (ix2 ⟨((((cfg0.win 6).blk t).view.emb (ix2 p q)) 0).val, idx2_lt0 _⟩ l))
          (X1 (ix2 ⟨((((cfg0.win 6).blk t).view.emb (ix2 p q)) 0).val, idx2_lt0 _⟩ l))
          (X0 (ix2 ⟨((((cfg0.win 6).blk t).view.emb (ix2 p q)) 0).val, idx2_lt0 _⟩ l))
          (XU (ix2 ⟨((((cfg0.win 6).blk t).view.emb (ix2 p q)) 0).val, idx2_lt0 _⟩ l))
          (XV (ix2 ⟨((((cfg0.win 6).blk t).view.emb (ix2 p q)) 0).val, idx2_lt0 _⟩ l)) := by
  obtain ⟨a0, b0, a1, b1, a2, b2, a3, b3, a4, b4, a5, b5, hle, b6⟩ := idx_facts t
  have e0 : ((cfg0.win 0).blk t).view.emb (ix2 p l)
      = ix2 ⟨((((cfg0.win 6).blk t).view.emb (ix2 p q)) 0).val, idx2_lt0 _⟩ l := by
    funext a; apply Fin.ext
    match a with
    | ⟨0, _⟩ => show win0_0.index t (0 : Fin 2) * 4096 + 1 * p.val = win0_6.index t (0 : Fin 2) * 4096 + 1 * p.val; omega
    | ⟨1, _⟩ => show win0_0.index t (1 : Fin 2) * 128 + 1 * l.val = l.val; omega
  have e1 : ((cfg0.win 1).blk t).view.emb (ix2 p l)
      = ix2 ⟨((((cfg0.win 6).blk t).view.emb (ix2 p q)) 0).val, idx2_lt0 _⟩ l := by
    funext a; apply Fin.ext
    match a with
    | ⟨0, _⟩ => show win0_1.index t (0 : Fin 2) * 4096 + 1 * p.val = win0_6.index t (0 : Fin 2) * 4096 + 1 * p.val; omega
    | ⟨1, _⟩ => show win0_1.index t (1 : Fin 2) * 128 + 1 * l.val = l.val; omega
  have e2 : ((cfg0.win 2).blk t).view.emb (ix2 p l)
      = ix2 ⟨((((cfg0.win 6).blk t).view.emb (ix2 p q)) 0).val, idx2_lt0 _⟩ l := by
    funext a; apply Fin.ext
    match a with
    | ⟨0, _⟩ => show win0_2.index t (0 : Fin 2) * 4096 + 1 * p.val = win0_6.index t (0 : Fin 2) * 4096 + 1 * p.val; omega
    | ⟨1, _⟩ => show win0_2.index t (1 : Fin 2) * 128 + 1 * l.val = l.val; omega
  have e3 : ((cfg0.win 3).blk t).view.emb (ix2 p l)
      = ix2 ⟨((((cfg0.win 6).blk t).view.emb (ix2 p q)) 0).val, idx2_lt0 _⟩ l := by
    funext a; apply Fin.ext
    match a with
    | ⟨0, _⟩ => show win0_3.index t (0 : Fin 2) * 4096 + 1 * p.val = win0_6.index t (0 : Fin 2) * 4096 + 1 * p.val; omega
    | ⟨1, _⟩ => show win0_3.index t (1 : Fin 2) * 128 + 1 * l.val = l.val; omega
  have e4 : ((cfg0.win 4).blk t).view.emb (ix2 p l)
      = ix2 ⟨((((cfg0.win 6).blk t).view.emb (ix2 p q)) 0).val, idx2_lt0 _⟩ l := by
    funext a; apply Fin.ext
    match a with
    | ⟨0, _⟩ => show win0_4.index t (0 : Fin 2) * 4096 + 1 * p.val = win0_6.index t (0 : Fin 2) * 4096 + 1 * p.val; omega
    | ⟨1, _⟩ => show win0_4.index t (1 : Fin 2) * 128 + 1 * l.val = l.val; omega
  have e5 : ((cfg0.win 5).blk t).view.emb (ix2 p l)
      = ix2 ⟨((((cfg0.win 6).blk t).view.emb (ix2 p q)) 0).val, idx2_lt0 _⟩ l := by
    funext a; apply Fin.ext
    match a with
    | ⟨0, _⟩ => show win0_5.index t (0 : Fin 2) * 4096 + 1 * p.val = win0_6.index t (0 : Fin 2) * 4096 + 1 * p.val; omega
    | ⟨1, _⟩ => show win0_5.index t (1 : Fin 2) * 128 + 1 * l.val = l.val; omega
  show term (X3 (((cfg0.win 0).blk t).view.emb (ix2 p l))) (X2 (((cfg0.win 1).blk t).view.emb (ix2 p l)))
      (X1 (((cfg0.win 2).blk t).view.emb (ix2 p l))) (X0 (((cfg0.win 3).blk t).view.emb (ix2 p l)))
      (XU (((cfg0.win 4).blk t).view.emb (ix2 p l))) (XV (((cfg0.win 5).blk t).view.emb (ix2 p l))) = _
  rw [e0, e1, e2, e3, e4, e5]

/-- What point `t` writes back is block `t` of `Gout`. -/
theorem flushed_eq (c : Dev nD) (t : Fin cfg0.N) :
    (dats m 0 c).flushed 6 t = ((cfg0.win 6).blk t).view.read (Elt Ideal) (Gout m c) := by
  show (cfg0.win 6).cut (grid0.coords t) ((dats m 0 c).after 6 t) = _
  rw [after6]
  unfold out6
  rw [View.canon_unit_zero hz]
  simp only [View.ld_unit_zero (S := S4096x128) hz]
  funext j
  obtain ⟨p, q, rfl⟩ : ∃ (p : Fin 4096) (q : Fin 1), j = ix2 p q := ⟨j 0, j 1, eq_ix2 (n0 := 4096) (n1 := 1) j⟩
  show k0_pay1 (F := Ideal) (iblk m c 4 t) (iblk m c 0 t) (iblk m c 1 t) (iblk m c 2 t) (iblk m c 3 t) (iblk m c 5 t) (ix2 p q)
    = Gout m c (((cfg0.win 6).blk t).view.emb (ix2 p q))
  refine (pay_apply (iblk m c 4 t) (iblk m c 0 t) (iblk m c 1 t) (iblk m c 2 t) (iblk m c 3 t) (iblk m c 5 t) p q).trans ?_
  unfold Gout rowVal
  refine congrArg (fun s : EReal => Ideal.ofBits .f32 0x3F000000#32 * s) (Finset.sum_congr rfl fun l _ => ?_)
  exact blk_term t (V m c main_v132) (V m c main_v133) (V m c main_v134) (V m c main_v135) (V m c main_v136) (V m c main_v137) p q l

/-- An index of the output array is in point `t`'s block iff each coordinate is in the block's range. -/
theorem mem_blk (t : Fin cfg0.N) (i : S65536x1.Idx) :
    i ∈ ((cfg0.win 6).blk t).view.set ↔ ∀ a : Fin 2, win0_6.index t a * S4096x1.size a ≤ (i a).val
      ∧ (i a).val < win0_6.index t a * S4096x1.size a + S4096x1.size a := by
  show i ∈ ((View.whole main_v138).slice (win0_6.rect t)).set ↔ _
  rw [View.set_slice_whole, Rect.mem_set_unit]
  exact Iff.rfl

/-- The sixteen blocks cover the output array: row r is in the block of point r / 4096. -/
theorem cover (i : S65536x1.Idx) : ∃ t : Fin cfg0.N, (cfg0.win 6).flush t = true ∧ i ∈ ((cfg0.win 6).blk t).view.set := by
  have hi0 : (i 0).val < 65536 := (i 0).isLt
  have hi1 : (i 1).val < 1 := (i 1).isLt
  obtain ⟨t, ht⟩ := idx_onto ⟨(i 0).val / 4096, by omega⟩
  have q0 : win0_6.index t (0 : Fin 2) = (i 0).val / 4096 := congrFun ht 0
  have q1 : win0_6.index t (1 : Fin 2) = 0 := congrFun ht 1
  refine ⟨t, flush0_6 t, ?_⟩
  rw [mem_blk]
  intro a
  match a with
  | ⟨0, _⟩ => show win0_6.index t (0 : Fin 2) * 4096 ≤ (i 0).val ∧ (i 0).val < win0_6.index t (0 : Fin 2) * 4096 + 4096; omega
  | ⟨1, _⟩ => show win0_6.index t (1 : Fin 2) * 1 ≤ (i 1).val ∧ (i 1).val < win0_6.index t (1 : Fin 2) * 1 + 1; omega

/-- The region's output array after the run. -/
theorem final (c : Dev nD) : (dats m 0 c).arrAt 6 cfg0.N = Gout m c :=
  (dats m 0 c).arrAt_eq_of_cover 6 (Gout m c) (fun t _ => flushed_eq m c t) (cover)

/-- The program's result: the reshape to [8,8192,1] of the region's output array. -/
def result (c : Dev nD) : S8x8192x1.Idx → Elt Ideal .f32 :=
  shapeCast S8x8192x1 (Gout m c) shapeCasts_S65536x1_S8x8192x1

/-- The line after the region, read back. -/
theorem tail_eq (c : Dev nD) :
    Pipeline.afterTail₀ cfgs (dats m) 0 (V0 m) [hostOps1] c main_v139 = result m c := by
  unfold Pipeline.afterTail₀
  show StableHlo.after hostOps1 _ (Proc.devRef .tc main_v139) = _
  after_results
  show shapeCast S8x8192x1 (Pipeline.withArrays spec0 c (V0 m c) (fun w => (dats m 0 c).arrAt w cfg0.N)
      (Proc.devRef .tc (Pipeline.arrRef spec0 6))) shapeCasts_S65536x1_S8x8192x1 = _
  rw [Pipeline.withArrays_arr spec0 launch0.win.arr_inj c _ _ 6, final]
  rfl

/-- The kernel program's run, read: the result at `result`, the five argument arrays unchanged. -/
theorem run : θ_run defs (onTc (τ := τ) (main (F := Ideal))) ⟨m, fun _ => 0, ρ⟩ fun r => ∀ c : Dev nD,
      r.2.mem ((c.tc : Thread nD τ).loc main_v139) = result m c
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4) :=
  (θ_run defs _ _).mono (fun _ h c =>
    ⟨((h c).2 main_v139 (Pipeline.mem_restRefs_of main_v139 (by decide) (by decide))).trans (tail_eq m c),
     ((h c).2 main_arg0 (Pipeline.mem_restRefs_of main_arg0 (by decide) (by decide))).trans (W_main_arg0 m (dats m) c),
     ((h c).2 main_arg1 (Pipeline.mem_restRefs_of main_arg1 (by decide) (by decide))).trans (W_main_arg1 m (dats m) c),
     ((h c).2 main_arg2 (Pipeline.mem_restRefs_of main_arg2 (by decide) (by decide))).trans (W_main_arg2 m (dats m) c),
     ((h c).2 main_arg3 (Pipeline.mem_restRefs_of main_arg3 (by decide) (by decide))).trans (W_main_arg3 m (dats m) c),
     ((h c).2 main_arg4 (Pipeline.mem_restRefs_of main_arg4 (by decide) (by decide))).trans (W_main_arg4 m (dats m) c)⟩)
    (run_main m ρ)

end Cert.KernelIdeal.HandValue

end
-- ==== Proof.RefRunHand.lean ====
/-
  The reference program's run, read over its stages: every weakly fair execution of @main terminates, the result buffer holds
  the last stage applied to the five arguments' launch contents, and the arguments end unchanged.
-/
import proofs.«112457_j25537875542623_2_alg».proof.Proof.RefRead

noncomputable section

namespace Cert.ReferenceIdeal.RefValue

open Cert.ReferenceIdeal Cert.ReferenceIdeal.Gen Cert.ReferenceIdeal.Value Cert.ReferenceIdeal.Read
open Idealize.ShloMosaic Idealize.ShloMosaic.TcCoe Idealize.SL.Sem Idealize.ShloMosaic.StableHlo

variable {F : FTy → Type} [FloatOps F]

/-- The concatenate writing main_v48, as a function of its three operands' contents. -/
def cat48 (u0 : (main_v45 : Ref sig .tc).ty.Contents (Elt F)) (u1 : (main_v46 : Ref sig .tc).ty.Contents (Elt F))
    (u2 : (main_v47 : Ref sig .tc).ty.Contents (Elt F)) : (main_v48 : Ref sig .tc).ty.Contents (Elt F) :=
  concatenate S8x8192x128x3 3 [⟨S8x8192x128x1, u0⟩, ⟨S8x8192x128x1, u1⟩, ⟨S8x8192x128x1, u2⟩] concatenates_S8x8192x128x1_S8x8192x128x1_S8x8192x128x1_S8x8192x128x3_d3

/-- That operation read at its own buffer: the function of the three operands' contents, each at its own buffer. -/
theorem cat48_result' (hxs hy) (V : Valuation τ sig (Elt F)) :
    (nary (τ := τ) ![main_v45, main_v46, main_v47] main_v48 (fun u => concatenate S8x8192x128x3 3 [⟨S8x8192x128x1, u 0⟩, ⟨S8x8192x128x1, u 1⟩, ⟨S8x8192x128x1, u 2⟩] concatenates_S8x8192x128x1_S8x8192x128x1_S8x8192x128x1_S8x8192x128x3_d3) hxs hy).result V (no_index (Proc.devRef .tc main_v48))
      = cat48 (V (Proc.devRef .tc main_v45)) (V (Proc.devRef .tc main_v46)) (V (Proc.devRef .tc main_v47)) :=
  nary_result _ _ _ hxs hy V

attribute [local irreducible] Host.reduce in
set_option maxRecDepth 65536 in
set_option maxHeartbeats 62800000 in
/-- The result buffer after the line of operations is the last stage of the arguments. -/
theorem after_v80 (m : (ℓ : Loc nD τ sig) → Buf (Elt F) ℓ) (c : Dev nD) :
    StableHlo.after (ops (F := F)) (fun b => m (c, b)) (Proc.devRef .tc main_v80)
      = val_main_v80 (F := F) (m ((c.tc : Thread nD τ).loc main_arg0)) (m ((c.tc : Thread nD τ).loc main_arg1))
          (m ((c.tc : Thread nD τ).loc main_arg2)) (m ((c.tc : Thread nD τ).loc main_arg3)) (m ((c.tc : Thread nD τ).loc main_arg4)) := by
  simp (disch := decide) only [after_cons, after_nil,
    nullary_result', unary_result', binary_result', ternary_result', reshape_result', cat48_result',
    nullary_result_ne', unary_result_ne', binary_result_ne', ternary_result_ne', reshape_result_ne', nary_result_ne', cast_eq, id_eq]
  rfl

set_option maxRecDepth 65536 in
set_option maxHeartbeats 62800000 in
/-- The run. -/
theorem run (m : (ℓ : Loc nD τ sig) → Buf (Elt F) ℓ) (ρ : Dev nD → PrngReg) :
    θ_run defs (onTc (τ := τ) (main (F := F))) ⟨m, fun _ => 0, ρ⟩ fun r => ∀ c : Dev nD,
      r.2.mem ((c.tc : Thread nD τ).loc main_v80)
        = val_main_v80 (F := F) (m ((c.tc : Thread nD τ).loc main_arg0)) (m ((c.tc : Thread nD τ).loc main_arg1))
            (m ((c.tc : Thread nD τ).loc main_arg2)) (m ((c.tc : Thread nD τ).loc main_arg3)) (m ((c.tc : Thread nD τ).loc main_arg4))
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4) :=
  (θ_run defs _ _).mono (fun _ h c => ⟨(h c main_v80).trans (after_v80 m c),
      (h c main_arg0).trans (by after_results_simp <;> rfl),
      (h c main_arg1).trans (by after_results_simp <;> rfl),
      (h c main_arg2).trans (by after_results_simp <;> rfl),
      (h c main_arg3).trans (by after_results_simp <;> rfl),
      (h c main_arg4).trans (by after_results_simp <;> rfl)⟩)
    (run_seq scopedRefs_eq scopedSems_eq defs main (fun _ => ops) main_eq (fun _ => ops_sub) m ρ)

end Cert.ReferenceIdeal.RefValue

end
-- ==== Proof.KernelInputsDefs.lean ====
/-
  The region-entry contents of the kernel program as a fold over its host lines, the four concatenates as functions of
  their operands, the index triple and the four planes of the transposed coefficient table: the vocabulary in which the six
  window arrays are stated (one module each).
-/
import proofs.«112457_j25537875542623_2_alg».proof.Proof.Gen.KernelIdeal.Launch
import proofs.«112457_j25537875542623_2_alg».proof.Proof.RefRead

set_option maxRecDepth 65536

noncomputable section

namespace Cert.KernelIdeal.Inputs

open Cert.KernelIdeal Cert.KernelIdeal.Gen
open Idealize.ShloMosaic Idealize.ShloMosaic.TcCoe Idealize.SL.Sem Idealize.ShloMosaic.StableHlo

variable (m : (ℓ : Loc nD τ sig) → Buf (Elt Ideal) ℓ)

/-- Core `c`'s buffer `b` when the region is entered: the launch memory after the host operations before the region. -/
abbrev entry (c : Dev nD) (b : Ref sig .tc) : Buf (Elt Ideal) ((c : Thread nD τ).loc b) :=
  StableHlo.after (List.flatten [hostOps0 (F := Ideal), hostOps0_1 (F := Ideal), hostOps0_2 (F := Ideal), hostOps0_3 (F := Ideal), hostOps0_4 (F := Ideal), hostOps0_5 (F := Ideal), hostOps0_6 (F := Ideal), hostOps0_7 (F := Ideal), hostOps0_8 (F := Ideal), hostOps0_9 (F := Ideal), hostOps0_10 (F := Ideal), hostOps0_11 (F := Ideal), hostOps0_12 (F := Ideal)]) (fun b' => m (c, b')) (Proc.devRef .tc b)

/-- The concatenate writing main_v51, as a function of its three operands' contents. -/
def cat51 (u0 : (main_v48 : Ref sig .tc).ty.Contents (Elt Ideal)) (u1 : (main_v49 : Ref sig .tc).ty.Contents (Elt Ideal))
    (u2 : (main_v50 : Ref sig .tc).ty.Contents (Elt Ideal)) : (main_v51 : Ref sig .tc).ty.Contents (Elt Ideal) :=
  concatenate S8x8192x128x3 3 [⟨S8x8192x128x1, u0⟩, ⟨S8x8192x128x1, u1⟩, ⟨S8x8192x128x1, u2⟩] concatenates_S8x8192x128x1_S8x8192x128x1_S8x8192x128x1_S8x8192x128x3_d3

/-- That operation read at its own buffer: the function of the three operands' contents, each at its own buffer. -/
theorem cat51_result' (hxs hy) (V : Valuation τ sig (Elt Ideal)) :
    (nary (τ := τ) ![main_v48, main_v49, main_v50] main_v51 (fun u => concatenate S8x8192x128x3 3 [⟨S8x8192x128x1, u 0⟩, ⟨S8x8192x128x1, u 1⟩, ⟨S8x8192x128x1, u 2⟩] concatenates_S8x8192x128x1_S8x8192x128x1_S8x8192x128x1_S8x8192x128x3_d3) hxs hy).result V (no_index (Proc.devRef .tc main_v51))
      = cat51 (V (Proc.devRef .tc main_v48)) (V (Proc.devRef .tc main_v49)) (V (Proc.devRef .tc main_v50)) :=
  nary_result _ _ _ hxs hy V

/-- The concatenate writing main_v73, as a function of its three operands' contents. -/
def cat73 (u0 : (main_v70 : Ref sig .tc).ty.Contents (Elt Ideal)) (u1 : (main_v71 : Ref sig .tc).ty.Contents (Elt Ideal))
    (u2 : (main_v72 : Ref sig .tc).ty.Contents (Elt Ideal)) : (main_v73 : Ref sig .tc).ty.Contents (Elt Ideal) :=
  concatenate S8x8192x128x3 3 [⟨S8x8192x128x1, u0⟩, ⟨S8x8192x128x1, u1⟩, ⟨S8x8192x128x1, u2⟩] concatenates_S8x8192x128x1_S8x8192x128x1_S8x8192x128x1_S8x8192x128x3_d3

/-- That operation read at its own buffer: the function of the three operands' contents, each at its own buffer. -/
theorem cat73_result' (hxs hy) (V : Valuation τ sig (Elt Ideal)) :
    (nary (τ := τ) ![main_v70, main_v71, main_v72] main_v73 (fun u => concatenate S8x8192x128x3 3 [⟨S8x8192x128x1, u 0⟩, ⟨S8x8192x128x1, u 1⟩, ⟨S8x8192x128x1, u 2⟩] concatenates_S8x8192x128x1_S8x8192x128x1_S8x8192x128x1_S8x8192x128x3_d3) hxs hy).result V (no_index (Proc.devRef .tc main_v73))
      = cat73 (V (Proc.devRef .tc main_v70)) (V (Proc.devRef .tc main_v71)) (V (Proc.devRef .tc main_v72)) :=
  nary_result _ _ _ hxs hy V

/-- The concatenate writing main_v95, as a function of its three operands' contents. -/
def cat95 (u0 : (main_v92 : Ref sig .tc).ty.Contents (Elt Ideal)) (u1 : (main_v93 : Ref sig .tc).ty.Contents (Elt Ideal))
    (u2 : (main_v94 : Ref sig .tc).ty.Contents (Elt Ideal)) : (main_v95 : Ref sig .tc).ty.Contents (Elt Ideal) :=
  concatenate S8x8192x128x3 3 [⟨S8x8192x128x1, u0⟩, ⟨S8x8192x128x1, u1⟩, ⟨S8x8192x128x1, u2⟩] concatenates_S8x8192x128x1_S8x8192x128x1_S8x8192x128x1_S8x8192x128x3_d3

/-- That operation read at its own buffer: the function of the three operands' contents, each at its own buffer. -/
theorem cat95_result' (hxs hy) (V : Valuation τ sig (Elt Ideal)) :
    (nary (τ := τ) ![main_v92, main_v93, main_v94] main_v95 (fun u => concatenate S8x8192x128x3 3 [⟨S8x8192x128x1, u 0⟩, ⟨S8x8192x128x1, u 1⟩, ⟨S8x8192x128x1, u 2⟩] concatenates_S8x8192x128x1_S8x8192x128x1_S8x8192x128x1_S8x8192x128x3_d3) hxs hy).result V (no_index (Proc.devRef .tc main_v95))
      = cat95 (V (Proc.devRef .tc main_v92)) (V (Proc.devRef .tc main_v93)) (V (Proc.devRef .tc main_v94)) :=
  nary_result _ _ _ hxs hy V

/-- The concatenate writing main_v117, as a function of its three operands' contents. -/
def cat117 (u0 : (main_v114 : Ref sig .tc).ty.Contents (Elt Ideal)) (u1 : (main_v115 : Ref sig .tc).ty.Contents (Elt Ideal))
    (u2 : (main_v116 : Ref sig .tc).ty.Contents (Elt Ideal)) : (main_v117 : Ref sig .tc).ty.Contents (Elt Ideal) :=
  concatenate S8x8192x128x3 3 [⟨S8x8192x128x1, u0⟩, ⟨S8x8192x128x1, u1⟩, ⟨S8x8192x128x1, u2⟩] concatenates_S8x8192x128x1_S8x8192x128x1_S8x8192x128x1_S8x8192x128x3_d3

/-- That operation read at its own buffer: the function of the three operands' contents, each at its own buffer. -/
theorem cat117_result' (hxs hy) (V : Valuation τ sig (Elt Ideal)) :
    (nary (τ := τ) ![main_v114, main_v115, main_v116] main_v117 (fun u => concatenate S8x8192x128x3 3 [⟨S8x8192x128x1, u 0⟩, ⟨S8x8192x128x1, u 1⟩, ⟨S8x8192x128x1, u 2⟩] concatenates_S8x8192x128x1_S8x8192x128x1_S8x8192x128x1_S8x8192x128x3_d3) hxs hy).result V (no_index (Proc.devRef .tc main_v117))
      = cat117 (V (Proc.devRef .tc main_v114)) (V (Proc.devRef .tc main_v115)) (V (Proc.devRef .tc main_v116)) :=
  nary_result _ _ _ hxs hy V

/-- The index triple, as the reference's stage of the arguments. -/
abbrev triple (c : Dev nD) := Cert.ReferenceIdeal.Read.val_main_v48 (F := Ideal) (m ((c.tc : Thread nD τ).loc main_arg0)) (m ((c.tc : Thread nD τ).loc main_arg2)) (m ((c.tc : Thread nD τ).loc main_arg3)) (m ((c.tc : Thread nD τ).loc main_arg4))

/-- Plane `k` of the coefficient table: the table transposed to put the coefficient axis first, sliced at k, that axis dropped. -/
abbrev plane0 (c : Dev nD) := (shapeCast S4x4x2000 (extractStridedSlice S1x4x4x2000 ![0, 0, 0, 0] (transpose S4x4x4x2000 [3, 0, 1, 2] (m ((c.tc : Thread nD τ).loc main_arg1)) transposes_S4x4x2000x4_S4x4x4x2000_3_0_1_2) slices_S4x4x4x2000_S1x4x4x2000_0_0_0_0) shapeCasts_S1x4x4x2000_S4x4x2000)
abbrev plane1 (c : Dev nD) := (shapeCast S4x4x2000 (extractStridedSlice S1x4x4x2000 ![1, 0, 0, 0] (transpose S4x4x4x2000 [3, 0, 1, 2] (m ((c.tc : Thread nD τ).loc main_arg1)) transposes_S4x4x2000x4_S4x4x4x2000_3_0_1_2) slices_S4x4x4x2000_S1x4x4x2000_1_0_0_0) shapeCasts_S1x4x4x2000_S4x4x2000)
abbrev plane2 (c : Dev nD) := (shapeCast S4x4x2000 (extractStridedSlice S1x4x4x2000 ![2, 0, 0, 0] (transpose S4x4x4x2000 [3, 0, 1, 2] (m ((c.tc : Thread nD τ).loc main_arg1)) transposes_S4x4x2000x4_S4x4x4x2000_3_0_1_2) slices_S4x4x4x2000_S1x4x4x2000_2_0_0_0) shapeCasts_S1x4x4x2000_S4x4x2000)
abbrev plane3 (c : Dev nD) := (shapeCast S4x4x2000 (extractStridedSlice S1x4x4x2000 ![3, 0, 0, 0] (transpose S4x4x4x2000 [3, 0, 1, 2] (m ((c.tc : Thread nD τ).loc main_arg1)) transposes_S4x4x2000x4_S4x4x4x2000_3_0_1_2) slices_S4x4x4x2000_S1x4x4x2000_3_0_0_0) shapeCasts_S1x4x4x2000_S4x4x2000)

end Cert.KernelIdeal.Inputs

end
-- ==== Proof.KernelIn132.lean ====
/-
  Window 0's array on entry to the region: plane 0 of the transposed coefficient table gathered at the index triple, flattened to [65536,128].
-/
import proofs.«112457_j25537875542623_2_alg».proof.Proof.KernelInputsDefs

set_option maxRecDepth 65536

noncomputable section

namespace Cert.KernelIdeal.Inputs

open Cert.KernelIdeal Cert.KernelIdeal.Gen
open Idealize.ShloMosaic Idealize.ShloMosaic.TcCoe Idealize.SL.Sem Idealize.ShloMosaic.StableHlo

variable (m : (ℓ : Loc nD τ sig) → Buf (Elt Ideal) ℓ)

attribute [local irreducible] Host.reduce in
set_option maxHeartbeats 8000000 in
/-- Window 0's array: the gather of plane 0 at the index triple, flattened. -/
theorem entry_v132 (c : Dev nD) :
    entry m c main_v132 = shapeCast S65536x128 (Host.gather gather_S4x4x2000_S8x8192x128x3_S8x8192x128_n_012_n_n_012_3_111 (plane0 m c) (triple m c)) shapeCasts_S8x8192x128_S65536x128 := by
  dsimp only [entry]
  simp only [hostOps0, hostOps0_1, hostOps0_2, hostOps0_3, hostOps0_4, hostOps0_5, hostOps0_6, hostOps0_7, hostOps0_8, hostOps0_9, hostOps0_10, hostOps0_11, hostOps0_12, List.flatten_cons, List.flatten_nil, List.append_nil, List.cons_append, List.nil_append]
  simp (disch := decide) only [after_cons, after_nil,
    nullary_result', unary_result', binary_result', ternary_result', reshape_result', cat51_result', cat73_result', cat95_result', cat117_result',
    nullary_result_ne', unary_result_ne', binary_result_ne', ternary_result_ne', reshape_result_ne', nary_result_ne', cast_eq, id_eq]
  rfl

end Cert.KernelIdeal.Inputs

end
-- ==== Proof.KernelIn133.lean ====
/-
  Window 1's array on entry to the region: plane 1 of the transposed coefficient table gathered at the index triple, flattened to [65536,128].
-/
import proofs.«112457_j25537875542623_2_alg».proof.Proof.KernelInputsDefs

set_option maxRecDepth 65536

noncomputable section

namespace Cert.KernelIdeal.Inputs

open Cert.KernelIdeal Cert.KernelIdeal.Gen
open Idealize.ShloMosaic Idealize.ShloMosaic.TcCoe Idealize.SL.Sem Idealize.ShloMosaic.StableHlo

variable (m : (ℓ : Loc nD τ sig) → Buf (Elt Ideal) ℓ)

attribute [local irreducible] Host.reduce in
set_option maxHeartbeats 8000000 in
/-- Window 1's array: the gather of plane 1 at the index triple, flattened. -/
theorem entry_v133 (c : Dev nD) :
    entry m c main_v133 = shapeCast S65536x128 (Host.gather gather_S4x4x2000_S8x8192x128x3_S8x8192x128_n_012_n_n_012_3_111 (plane1 m c) (triple m c)) shapeCasts_S8x8192x128_S65536x128 := by
  dsimp only [entry]
  simp only [hostOps0, hostOps0_1, hostOps0_2, hostOps0_3, hostOps0_4, hostOps0_5, hostOps0_6, hostOps0_7, hostOps0_8, hostOps0_9, hostOps0_10, hostOps0_11, hostOps0_12, List.flatten_cons, List.flatten_nil, List.append_nil, List.cons_append, List.nil_append]
  simp (disch := decide) only [after_cons, after_nil,
    nullary_result', unary_result', binary_result', ternary_result', reshape_result', cat51_result', cat73_result', cat95_result', cat117_result',
    nullary_result_ne', unary_result_ne', binary_result_ne', ternary_result_ne', reshape_result_ne', nary_result_ne', cast_eq, id_eq]
  rfl

end Cert.KernelIdeal.Inputs

end
-- ==== Proof.KernelIn134.lean ====
/-
  Window 2's array on entry to the region: plane 2 of the transposed coefficient table gathered at the index triple, flattened to [65536,128].
-/
import proofs.«112457_j25537875542623_2_alg».proof.Proof.KernelInputsDefs

set_option maxRecDepth 65536

noncomputable section

namespace Cert.KernelIdeal.Inputs

open Cert.KernelIdeal Cert.KernelIdeal.Gen
open Idealize.ShloMosaic Idealize.ShloMosaic.TcCoe Idealize.SL.Sem Idealize.ShloMosaic.StableHlo

variable (m : (ℓ : Loc nD τ sig) → Buf (Elt Ideal) ℓ)

attribute [local irreducible] Host.reduce in
set_option maxHeartbeats 8000000 in
/-- Window 2's array: the gather of plane 2 at the index triple, flattened. -/
theorem entry_v134 (c : Dev nD) :
    entry m c main_v134 = shapeCast S65536x128 (Host.gather gather_S4x4x2000_S8x8192x128x3_S8x8192x128_n_012_n_n_012_3_111 (plane2 m c) (triple m c)) shapeCasts_S8x8192x128_S65536x128 := by
  dsimp only [entry]
  simp only [hostOps0, hostOps0_1, hostOps0_2, hostOps0_3, hostOps0_4, hostOps0_5, hostOps0_6, hostOps0_7, hostOps0_8, hostOps0_9, hostOps0_10, hostOps0_11, hostOps0_12, List.flatten_cons, List.flatten_nil, List.append_nil, List.cons_append, List.nil_append]
  simp (disch := decide) only [after_cons, after_nil,
    nullary_result', unary_result', binary_result', ternary_result', reshape_result', cat51_result', cat73_result', cat95_result', cat117_result',
    nullary_result_ne', unary_result_ne', binary_result_ne', ternary_result_ne', reshape_result_ne', nary_result_ne', cast_eq, id_eq]
  rfl

end Cert.KernelIdeal.Inputs

end
-- ==== Proof.KernelIn135.lean ====
/-
  Window 3's array on entry to the region: plane 3 of the transposed coefficient table gathered at the index triple, flattened to [65536,128].
-/
import proofs.«112457_j25537875542623_2_alg».proof.Proof.KernelInputsDefs

set_option maxRecDepth 65536

noncomputable section

namespace Cert.KernelIdeal.Inputs

open Cert.KernelIdeal Cert.KernelIdeal.Gen
open Idealize.ShloMosaic Idealize.ShloMosaic.TcCoe Idealize.SL.Sem Idealize.ShloMosaic.StableHlo

variable (m : (ℓ : Loc nD τ sig) → Buf (Elt Ideal) ℓ)

attribute [local irreducible] Host.reduce in
set_option maxHeartbeats 8000000 in
/-- Window 3's array: the gather of plane 3 at the index triple, flattened. -/
theorem entry_v135 (c : Dev nD) :
    entry m c main_v135 = shapeCast S65536x128 (Host.gather gather_S4x4x2000_S8x8192x128x3_S8x8192x128_n_012_n_n_012_3_111 (plane3 m c) (triple m c)) shapeCasts_S8x8192x128_S65536x128 := by
  dsimp only [entry]
  simp only [hostOps0, hostOps0_1, hostOps0_2, hostOps0_3, hostOps0_4, hostOps0_5, hostOps0_6, hostOps0_7, hostOps0_8, hostOps0_9, hostOps0_10, hostOps0_11, hostOps0_12, List.flatten_cons, List.flatten_nil, List.append_nil, List.cons_append, List.nil_append]
  simp (disch := decide) only [after_cons, after_nil,
    nullary_result', unary_result', binary_result', ternary_result', reshape_result', cat51_result', cat73_result', cat95_result', cat117_result',
    nullary_result_ne', unary_result_ne', binary_result_ne', ternary_result_ne', reshape_result_ne', nary_result_ne', cast_eq, id_eq]
  rfl

end Cert.KernelIdeal.Inputs

end
-- ==== Proof.KernelIn136.lean ====
/-
  Window 4's array on entry to the region: the interpolation fraction, the reference's stage of the same arguments, flattened to [65536,128].
-/
import proofs.«112457_j25537875542623_2_alg».proof.Proof.KernelInputsDefs

set_option maxRecDepth 65536

noncomputable section

namespace Cert.KernelIdeal.Inputs

open Cert.KernelIdeal Cert.KernelIdeal.Gen
open Idealize.ShloMosaic Idealize.ShloMosaic.TcCoe Idealize.SL.Sem Idealize.ShloMosaic.StableHlo

variable (m : (ℓ : Loc nD τ sig) → Buf (Elt Ideal) ℓ)

attribute [local irreducible] Host.reduce in
set_option maxHeartbeats 8000000 in
/-- Window 4's array: the interpolation fraction, flattened. -/
theorem entry_v136 (c : Dev nD) :
    entry m c main_v136 = shapeCast S65536x128 (Cert.ReferenceIdeal.Read.val_main_v26 (F := Ideal) (m ((c.tc : Thread nD τ).loc main_arg0)) (m ((c.tc : Thread nD τ).loc main_arg2)) (m ((c.tc : Thread nD τ).loc main_arg4))) shapeCasts_S8x8192x128_S65536x128 := by
  dsimp only [entry]
  simp only [hostOps0, hostOps0_1, hostOps0_2, hostOps0_3, hostOps0_4, hostOps0_5, hostOps0_6, hostOps0_7, hostOps0_8, hostOps0_9, hostOps0_10, hostOps0_11, hostOps0_12, List.flatten_cons, List.flatten_nil, List.append_nil, List.cons_append, List.nil_append]
  simp (disch := decide) only [after_cons, after_nil,
    nullary_result', unary_result', binary_result', ternary_result', reshape_result', cat51_result', cat73_result', cat95_result', cat117_result',
    nullary_result_ne', unary_result_ne', binary_result_ne', ternary_result_ne', reshape_result_ne', nary_result_ne', cast_eq, id_eq]
  rfl

end Cert.KernelIdeal.Inputs

end
-- ==== Proof.KernelIn137.lean ====
/-
  Window 5's array on entry to the region: the validity flag (slot in use, bin at most 2000, not beyond the cutoff) as a float, flattened to [65536,128].
-/
import proofs.«112457_j25537875542623_2_alg».proof.Proof.KernelInputsDefs

set_option maxRecDepth 65536

noncomputable section

namespace Cert.KernelIdeal.Inputs

open Cert.KernelIdeal Cert.KernelIdeal.Gen
open Idealize.ShloMosaic Idealize.ShloMosaic.TcCoe Idealize.SL.Sem Idealize.ShloMosaic.StableHlo

variable (m : (ℓ : Loc nD τ sig) → Buf (Elt Ideal) ℓ)

attribute [local irreducible] Host.reduce in
set_option maxHeartbeats 8000000 in
/-- Window 5's array: the validity flag — slot in use, bin at most 2000, not beyond — as a float, flattened. -/
theorem entry_v137 (c : Dev nD) :
    entry m c main_v137 = shapeCast S65536x128
      (uitofp (F := Ideal) .f32 (andi (andi (Cert.ReferenceIdeal.Read.val_main_v5 (F := Ideal) (m ((c.tc : Thread nD τ).loc main_arg4)))
          (cmpi .sle (Cert.ReferenceIdeal.Read.val_main_v24 (F := Ideal) (m ((c.tc : Thread nD τ).loc main_arg0)) (m ((c.tc : Thread nD τ).loc main_arg2)) (m ((c.tc : Thread nD τ).loc main_arg4)))
            (broadcastInDim S8x8192x128 ![] bcast_S_S8x8192x128 (constantI S_ 32 2000#32))))
        (noti (Cert.ReferenceIdeal.Read.val_main_v74 (F := Ideal) (m ((c.tc : Thread nD τ).loc main_arg0)) (m ((c.tc : Thread nD τ).loc main_arg2)) (m ((c.tc : Thread nD τ).loc main_arg4))))))
      shapeCasts_S8x8192x128_S65536x128 := by
  dsimp only [entry]
  simp only [hostOps0, hostOps0_1, hostOps0_2, hostOps0_3, hostOps0_4, hostOps0_5, hostOps0_6, hostOps0_7, hostOps0_8, hostOps0_9, hostOps0_10, hostOps0_11, hostOps0_12, List.flatten_cons, List.flatten_nil, List.append_nil, List.cons_append, List.nil_append]
  simp (disch := decide) only [after_cons, after_nil,
    nullary_result', unary_result', binary_result', ternary_result', reshape_result', cat51_result', cat73_result', cat95_result', cat117_result',
    nullary_result_ne', unary_result_ne', binary_result_ne', ternary_result_ne', reshape_result_ne', nary_result_ne', cast_eq, id_eq]
  rfl

end Cert.KernelIdeal.Inputs

end
-- ==== Proof.KernelInputs.lean ====
/-
  The six arrays the region is entered with, as functions of the program's arguments: collected from the six modules that
  read them off the host lines.
-/
import proofs.«112457_j25537875542623_2_alg».proof.Proof.KernelIn132
import proofs.«112457_j25537875542623_2_alg».proof.Proof.KernelIn133
import proofs.«112457_j25537875542623_2_alg».proof.Proof.KernelIn134
import proofs.«112457_j25537875542623_2_alg».proof.Proof.KernelIn135
import proofs.«112457_j25537875542623_2_alg».proof.Proof.KernelIn136
import proofs.«112457_j25537875542623_2_alg».proof.Proof.KernelIn137
-- ==== Proof.RefSide.lean ====
/-
  The reference's result read at an index, over the extended reals.

  Entry (f, r, 0) of the result is one half times (zero plus) the sum over the 128 neighbours l of the neighbour's value:
  zero outside the list, zero beyond the cutoff, and otherwise the cubic in the fraction whose four coefficients are the
  gathered table row, each replaced by zero when the bin is past the last one.
-/
import proofs.«112457_j25537875542623_2_alg».proof.Proof.RefRead
import proofs.«112457_j25537875542623_2_alg».proof.Proof.Elem
import Idealize.ShloMosaic.Lib.ValueIdx

noncomputable section

namespace Cert.ReferenceIdeal.RefValue

open Cert.ReferenceIdeal Cert.ReferenceIdeal.Read Idealize.ShloMosaic Idealize.ShloMosaic.ValueIdx

variable (x0 : (⟨S8x16384x3, .f32⟩ : BufTy).Contents (Elt Ideal)) (x1 : (⟨S4x4x2000x4, .f32⟩ : BufTy).Contents (Elt Ideal))
  (x2 : (⟨S4, .f32⟩ : BufTy).Contents (Elt Ideal)) (x3 : (⟨S8x16384, .i32⟩ : BufTy).Contents (Elt Ideal))
  (x4 : (⟨S8x8192x128, .i32⟩ : BufTy).Contents (Elt Ideal))

/-- Coefficient `k` of neighbour (f, r, l): the gathered table entry, or zero when the bin is past 2000. -/
def coef (f : Fin 8) (r : Fin 8192) (l : Fin 128) (k : Fin 4) : EReal :=
  Scalar.select (IntOp.cmpi .sgt (val_main_v24 (F := Ideal) x0 x2 x4 (ix3 f r l)) 2000#32) (Ideal.ofBits .f32 0x00000000#32)
    (val_main_v49 (F := Ideal) x0 x1 x2 x3 x4 (ix4 f r l k))

/-- Coefficient 0: the slice at offset 0 of the zeroed rows, with the unit axis dropped. -/
theorem coef_v55 (f : Fin 8) (r : Fin 8192) (l : Fin 128) :
    val_main_v55 (F := Ideal) x0 x1 x2 x3 x4 (ix3 f r l) = coef x0 x1 x2 x3 x4 f r l 0 := by
  have hJ : idx_main_v54 (idx_main_v55 (ix3 f r l)) = ix4 f r l (0 : Fin 4) := by
    have hf := f.isLt; have hr := r.isLt; have hl := l.isLt
    funext a; apply Fin.ext
    match a with
    | ⟨0, _⟩ => show ((f.val * 8192 + r.val) * 128 + l.val) / 1048576 = f.val; omega
    | ⟨1, _⟩ => show ((f.val * 8192 + r.val) * 128 + l.val) / 128 % 8192 = r.val; omega
    | ⟨2, _⟩ => show ((f.val * 8192 + r.val) * 128 + l.val) / 1 % 128 = l.val; omega
    | ⟨3, _⟩ => rfl
  have hI : idx_main_v52 (idx_main_call6_v0 (ix4 f r l (0 : Fin 4))) = ix3 f r l := by
    funext a; apply Fin.ext
    match a with
    | ⟨0, _⟩ => rfl
    | ⟨1, _⟩ => rfl
    | ⟨2, _⟩ => rfl
  rw [val_main_v55_apply, val_main_v54_apply, hJ, val_main_v53_apply, val_main_call6_v0_apply, val_main_v52_apply, hI,
    val_main_v51_apply, val_main_v50_apply, val_main_c_9_apply, val_main_call6_v1_apply, val_main_cst_10_apply]
  rfl

/-- Coefficient 1: the slice at offset 1 of the zeroed rows, with the unit axis dropped. -/
theorem coef_v57 (f : Fin 8) (r : Fin 8192) (l : Fin 128) :
    val_main_v57 (F := Ideal) x0 x1 x2 x3 x4 (ix3 f r l) = coef x0 x1 x2 x3 x4 f r l 1 := by
  have hJ : idx_main_v56 (idx_main_v57 (ix3 f r l)) = ix4 f r l (1 : Fin 4) := by
    have hf := f.isLt; have hr := r.isLt; have hl := l.isLt
    funext a; apply Fin.ext
    match a with
    | ⟨0, _⟩ => show ((f.val * 8192 + r.val) * 128 + l.val) / 1048576 = f.val; omega
    | ⟨1, _⟩ => show ((f.val * 8192 + r.val) * 128 + l.val) / 128 % 8192 = r.val; omega
    | ⟨2, _⟩ => show ((f.val * 8192 + r.val) * 128 + l.val) / 1 % 128 = l.val; omega
    | ⟨3, _⟩ => rfl
  have hI : idx_main_v52 (idx_main_call6_v0 (ix4 f r l (1 : Fin 4))) = ix3 f r l := by
    funext a; apply Fin.ext
    match a with
    | ⟨0, _⟩ => rfl
    | ⟨1, _⟩ => rfl
    | ⟨2, _⟩ => rfl
  rw [val_main_v57_apply, val_main_v56_apply, hJ, val_main_v53_apply, val_main_call6_v0_apply, val_main_v52_apply, hI,
    val_main_v51_apply, val_main_v50_apply, val_main_c_9_apply, val_main_call6_v1_apply, val_main_cst_10_apply]
  rfl

/-- Coefficient 2: the slice at offset 2 of the zeroed rows, with the unit axis dropped. -/
theorem coef_v59 (f : Fin 8) (r : Fin 8192) (l : Fin 128) :
    val_main_v59 (F := Ideal) x0 x1 x2 x3 x4 (ix3 f r l) = coef x0 x1 x2 x3 x4 f r l 2 := by
  have hJ : idx_main_v58 (idx_main_v59 (ix3 f r l)) = ix4 f r l (2 : Fin 4) := by
    have hf := f.isLt; have hr := r.isLt; have hl := l.isLt
    funext a; apply Fin.ext
    match a with
    | ⟨0, _⟩ => show ((f.val * 8192 + r.val) * 128 + l.val) / 1048576 = f.val; omega
    | ⟨1, _⟩ => show ((f.val * 8192 + r.val) * 128 + l.val) / 128 % 8192 = r.val; omega
    | ⟨2, _⟩ => show ((f.val * 8192 + r.val) * 128 + l.val) / 1 % 128 = l.val; omega
    | ⟨3, _⟩ => rfl
  have hI : idx_main_v52 (idx_main_call6_v0 (ix4 f r l (2 : Fin 4))) = ix3 f r l := by
    funext a; apply Fin.ext
    match a with
    | ⟨0, _⟩ => rfl
    | ⟨1, _⟩ => rfl
    | ⟨2, _⟩ => rfl
  rw [val_main_v59_apply, val_main_v58_apply, hJ, val_main_v53_apply, val_main_call6_v0_apply, val_main_v52_apply, hI,
    val_main_v51_apply, val_main_v50_apply, val_main_c_9_apply, val_main_call6_v1_apply, val_main_cst_10_apply]
  rfl

/-- Coefficient 3: the slice at offset 3 of the zeroed rows, with the unit axis dropped. -/
theorem coef_v61 (f : Fin 8) (r : Fin 8192) (l : Fin 128) :
    val_main_v61 (F := Ideal) x0 x1 x2 x3 x4 (ix3 f r l) = coef x0 x1 x2 x3 x4 f r l 3 := by
  have hJ : idx_main_v60 (idx_main_v61 (ix3 f r l)) = ix4 f r l (3 : Fin 4) := by
    have hf := f.isLt; have hr := r.isLt; have hl := l.isLt
    funext a; apply Fin.ext
    match a with
    | ⟨0, _⟩ => show ((f.val * 8192 + r.val) * 128 + l.val) / 1048576 = f.val; omega
    | ⟨1, _⟩ => show ((f.val * 8192 + r.val) * 128 + l.val) / 128 % 8192 = r.val; omega
    | ⟨2, _⟩ => show ((f.val * 8192 + r.val) * 128 + l.val) / 1 % 128 = l.val; omega
    | ⟨3, _⟩ => rfl
  have hI : idx_main_v52 (idx_main_call6_v0 (ix4 f r l (3 : Fin 4))) = ix3 f r l := by
    funext a; apply Fin.ext
    match a with
    | ⟨0, _⟩ => rfl
    | ⟨1, _⟩ => rfl
    | ⟨2, _⟩ => rfl
  rw [val_main_v61_apply, val_main_v60_apply, hJ, val_main_v53_apply, val_main_call6_v0_apply, val_main_v52_apply, hI,
    val_main_v51_apply, val_main_v50_apply, val_main_c_9_apply, val_main_call6_v1_apply, val_main_cst_10_apply]
  rfl

/-- Neighbour (f, r, l)'s value in the reference. -/
def nbr (f : Fin 8) (r : Fin 8192) (l : Fin 128) : EReal :=
  Scalar.select (val_main_v5 (F := Ideal) x4 (ix3 f r l))
    (Scalar.select (val_main_v74 (F := Ideal) x0 x2 x4 (ix3 f r l)) (Ideal.ofBits .f32 0x00000000#32)
      (Cert.Spline.cubic (coef x0 x1 x2 x3 x4 f r l 0) (coef x0 x1 x2 x3 x4 f r l 1) (coef x0 x1 x2 x3 x4 f r l 2) (coef x0 x1 x2 x3 x4 f r l 3)
        (val_main_v26 (F := Ideal) x0 x2 x4 (ix3 f r l))))
    (Ideal.ofBits .f32 0x00000000#32)

/-- The reference's result at (f, r, u). -/
theorem ref_at (f : Fin 8) (r : Fin 8192) (u : Fin 1) :
    val_main_v80 (F := Ideal) x0 x1 x2 x3 x4 (ix3 f r u)
      = Ideal.ofBits .f32 0x3F000000#32 * (Ideal.ofBits .f32 0x00000000#32 + ∑ l : Fin 128, nbr x0 x1 x2 x3 x4 f r l) := by
  rw [val_main_v80_apply, val_main_v79_apply, val_main_cst_16_apply, val_main_v78_apply, val_main_v77_apply, val_main_cst_15_apply]
  show Ideal.ofBits .f32 0x3F000000#32 * (Ideal.ofBits .f32 0x00000000#32 + _) = _
  congr 2
  refine Finset.sum_congr rfl fun l _ => ?_
  have hK : idx_main_v77 (idx_main_v78 (ix3 f r u)) l = ix3 f r l := by
    funext a; apply Fin.ext
    match a with
    | ⟨0, _⟩ => rfl
    | ⟨1, _⟩ => rfl
    | ⟨2, _⟩ => rfl
  rw [hK, val_main_v76_apply, val_main_v75_apply, val_main_call8_v0_apply, val_main_cst_14_apply, val_main_call7_v0_apply,
    val_main_cst_13_apply, val_main_v67_apply, val_main_v66_apply, val_main_v65_apply, val_main_v64_apply, val_main_v63_apply,
    val_main_v62_apply, coef_v55, coef_v57, coef_v59, coef_v61]
  rfl

end Cert.ReferenceIdeal.RefValue

end
-- ==== Proof.LibGatherTriple.lean ====
/-
  A gather by index triples. The start indices have shape [P, Q, R, 3]: the triple stored at batch position (p, q, r) names
  one entry of a rank-3 table [A, B, C] (all three axes collapsed), or one row of length K of a rank-4 table [A, B, C, K]
  (the last axis an offset axis, slice size K). Each component of the triple is read signed and clamped into its axis.
  Hence the gather of the rank-4 table read at (p, q, r, k) and the gather of a rank-3 table read at (p, q, r) look up
  the same clamped triple: the rank-4 result at k is the rank-3 gather of the table's k-th plane.
-/
import Idealize.ShloMosaic.Lib.ValueIdx
import Idealize.ShloMosaic.Lib.Pipeline.Value

namespace Cert.LibGatherTriple

open Idealize.ShloMosaic Idealize.ShloMosaic.ValueIdx

variable {α : Type}

/-- The dimension numbers of a gather of single entries of a rank-3 table by index triples. -/
abbrev dims3 (A B C P Q R : Nat)
    (wf : GatherDims.WF (⟨3, ![A, B, C]⟩ : Shape) ⟨4, ![P, Q, R, 3]⟩ ⟨3, ![P, Q, R]⟩ [] [0, 1, 2] [] [0, 1, 2] [] 3 ![1, 1, 1]) :
    GatherDims ⟨3, ![A, B, C]⟩ ⟨4, ![P, Q, R, 3]⟩ ⟨3, ![P, Q, R]⟩ where
  offsetDims := []
  collapsedSliceDims := [0, 1, 2]
  operandBatchingDims := []
  startIndicesBatchingDims := []
  startIndexMap := [0, 1, 2]
  indexVectorDim := 3
  sliceSizes := ![1, 1, 1]
  wf := wf

/-- The dimension numbers of a gather of whole last-axis rows of a rank-4 table by index triples. -/
abbrev dims4 (A B C K P Q R : Nat)
    (wf : GatherDims.WF (⟨4, ![A, B, C, K]⟩ : Shape) ⟨4, ![P, Q, R, 3]⟩ ⟨4, ![P, Q, R, K]⟩ [3] [0, 1, 2] [] [0, 1, 2] [] 3 ![1, 1, 1, K]) :
    GatherDims ⟨4, ![A, B, C, K]⟩ ⟨4, ![P, Q, R, 3]⟩ ⟨4, ![P, Q, R, K]⟩ where
  offsetDims := [3]
  collapsedSliceDims := [0, 1, 2]
  operandBatchingDims := []
  startIndicesBatchingDims := []
  startIndexMap := [0, 1, 2]
  indexVectorDim := 3
  sliceSizes := ![1, 1, 1, K]
  wf := wf

/-- Component `a` of the triple at batch position (p, q, r), read signed and clamped into an axis of extent `n`. -/
def comp {P Q R w : Nat} (idx : IVec ⟨4, ![P, Q, R, 3]⟩ w) (p : Fin P) (q : Fin Q) (r : Fin R) (a : Fin 3) (n : Nat) : Nat :=
  min (idx (ix4 p q r a)).toInt.toNat (n - 1)

theorem comp_lt {P Q R w : Nat} (idx : IVec ⟨4, ![P, Q, R, 3]⟩ w) (p : Fin P) (q : Fin Q) (r : Fin R) (a : Fin 3) {n : Nat}
    (hn : 0 < n) : comp idx p q r a n < n := by
  unfold comp; omega

/-- The table entry the triple at (p, q, r) names. -/
def at3 {A B C P Q R w : Nat} (hA : 0 < A) (hB : 0 < B) (hC : 0 < C) (idx : IVec ⟨4, ![P, Q, R, 3]⟩ w)
    (p : Fin P) (q : Fin Q) (r : Fin R) : (⟨3, ![A, B, C]⟩ : Shape).Idx :=
  ix3 ⟨comp idx p q r 0 A, comp_lt idx p q r 0 hA⟩ ⟨comp idx p q r 1 B, comp_lt idx p q r 1 hB⟩ ⟨comp idx p q r 2 C, comp_lt idx p q r 2 hC⟩

/-- The rank-3 gather read at (p, q, r): the table at the clamped triple. -/
theorem gather3_apply {A B C P Q R w : Nat} (hA : 0 < A) (hB : 0 < B) (hC : 0 < C)
    (wf : GatherDims.WF (⟨3, ![A, B, C]⟩ : Shape) ⟨4, ![P, Q, R, 3]⟩ ⟨3, ![P, Q, R]⟩ [] [0, 1, 2] [] [0, 1, 2] [] 3 ![1, 1, 1])
    (x : (⟨3, ![A, B, C]⟩ : Shape).Idx → α) (idx : IVec ⟨4, ![P, Q, R, 3]⟩ w) (p : Fin P) (q : Fin Q) (r : Fin R) :
    Host.gather (dims3 A B C P Q R wf) x idx (ix3 p q r) = x (at3 hA hB hC idx p q r) := by
  unfold Host.gather
  refine congrArg x (funext fun a => Fin.ext ?_)
  show (dims3 A B C P Q R wf).start (ix3 p q r) idx a + (dims3 A B C P Q R wf).batchCoord (ix3 p q r) a
    + (dims3 A B C P Q R wf).offCoord (ix3 p q r) a = _
  rw [GatherDims.batchCoord_eq_zero _ _ _ List.not_mem_nil,
    GatherDims.offCoord_eq_zero _ _ _ (fun h => ((GatherDims.mem_sKept _ _).mp h).1 (by
      show _ ∈ ([0, 1, 2] : List (Fin 3)); match a with | ⟨0, _⟩ => simp [Fin.ext_iff] | ⟨1, _⟩ => simp [Fin.ext_iff] | ⟨2, _⟩ => simp [Fin.ext_iff]))]
  simp only [Nat.add_zero]
  unfold GatherDims.start
  match a with
  | ⟨0, _⟩ =>
    rw [dif_pos (by show _ ∈ ([0, 1, 2] : List (Fin 3)); simp [Fin.ext_iff])]
    exact congrArg (fun k => min (idx k).toInt.toNat (A - 1)) (funext fun b => Fin.ext (by
      match b with | ⟨0, _⟩ => rfl | ⟨1, _⟩ => rfl | ⟨2, _⟩ => rfl | ⟨3, _⟩ => rfl))
  | ⟨1, _⟩ =>
    rw [dif_pos (by show _ ∈ ([0, 1, 2] : List (Fin 3)); simp [Fin.ext_iff])]
    exact congrArg (fun k => min (idx k).toInt.toNat (B - 1)) (funext fun b => Fin.ext (by
      match b with | ⟨0, _⟩ => rfl | ⟨1, _⟩ => rfl | ⟨2, _⟩ => rfl | ⟨3, _⟩ => rfl))
  | ⟨2, _⟩ =>
    rw [dif_pos (by show _ ∈ ([0, 1, 2] : List (Fin 3)); simp [Fin.ext_iff])]
    exact congrArg (fun k => min (idx k).toInt.toNat (C - 1)) (funext fun b => Fin.ext (by
      match b with | ⟨0, _⟩ => rfl | ⟨1, _⟩ => rfl | ⟨2, _⟩ => rfl | ⟨3, _⟩ => rfl))

/-- The rank-4 gather read at (p, q, r, k): the table at the same clamped triple, last coordinate k. -/
theorem gather4_apply {A B C K P Q R w : Nat} (hA : 0 < A) (hB : 0 < B) (hC : 0 < C)
    (wf : GatherDims.WF (⟨4, ![A, B, C, K]⟩ : Shape) ⟨4, ![P, Q, R, 3]⟩ ⟨4, ![P, Q, R, K]⟩ [3] [0, 1, 2] [] [0, 1, 2] [] 3 ![1, 1, 1, K])
    (x : (⟨4, ![A, B, C, K]⟩ : Shape).Idx → α) (idx : IVec ⟨4, ![P, Q, R, 3]⟩ w) (p : Fin P) (q : Fin Q) (r : Fin R) (k : Fin K) :
    Host.gather (dims4 A B C K P Q R wf) x idx (ix4 p q r k)
      = x (ix4 ⟨comp idx p q r 0 A, comp_lt idx p q r 0 hA⟩ ⟨comp idx p q r 1 B, comp_lt idx p q r 1 hB⟩
          ⟨comp idx p q r 2 C, comp_lt idx p q r 2 hC⟩ k) := by
  unfold Host.gather
  refine congrArg x (funext fun a => Fin.ext ?_)
  show (dims4 A B C K P Q R wf).start (ix4 p q r k) idx a + (dims4 A B C K P Q R wf).batchCoord (ix4 p q r k) a
    + (dims4 A B C K P Q R wf).offCoord (ix4 p q r k) a = _
  rw [GatherDims.batchCoord_eq_zero _ _ _ List.not_mem_nil]
  simp only [Nat.add_zero]
  match a with
  | ⟨0, _⟩ =>
    rw [GatherDims.offCoord_eq_zero _ _ _ (fun h => ((GatherDims.mem_sKept _ _).mp h).1 (by show _ ∈ ([0, 1, 2] : List (Fin 4)); simp [Fin.ext_iff]))]
    simp only [Nat.add_zero]
    unfold GatherDims.start
    rw [dif_pos (by show _ ∈ ([0, 1, 2] : List (Fin 4)); simp [Fin.ext_iff])]
    exact congrArg (fun j => min (idx j).toInt.toNat (A - 1)) (funext fun b => Fin.ext (by
      match b with | ⟨0, _⟩ => rfl | ⟨1, _⟩ => rfl | ⟨2, _⟩ => rfl | ⟨3, _⟩ => rfl))
  | ⟨1, _⟩ =>
    rw [GatherDims.offCoord_eq_zero _ _ _ (fun h => ((GatherDims.mem_sKept _ _).mp h).1 (by show _ ∈ ([0, 1, 2] : List (Fin 4)); simp [Fin.ext_iff]))]
    simp only [Nat.add_zero]
    unfold GatherDims.start
    rw [dif_pos (by show _ ∈ ([0, 1, 2] : List (Fin 4)); simp [Fin.ext_iff])]
    exact congrArg (fun j => min (idx j).toInt.toNat (B - 1)) (funext fun b => Fin.ext (by
      match b with | ⟨0, _⟩ => rfl | ⟨1, _⟩ => rfl | ⟨2, _⟩ => rfl | ⟨3, _⟩ => rfl))
  | ⟨2, _⟩ =>
    rw [GatherDims.offCoord_eq_zero _ _ _ (fun h => ((GatherDims.mem_sKept _ _).mp h).1 (by show _ ∈ ([0, 1, 2] : List (Fin 4)); simp [Fin.ext_iff]))]
    simp only [Nat.add_zero]
    unfold GatherDims.start
    rw [dif_pos (by show _ ∈ ([0, 1, 2] : List (Fin 4)); simp [Fin.ext_iff])]
    exact congrArg (fun j => min (idx j).toInt.toNat (C - 1)) (funext fun b => Fin.ext (by
      match b with | ⟨0, _⟩ => rfl | ⟨1, _⟩ => rfl | ⟨2, _⟩ => rfl | ⟨3, _⟩ => rfl))
  | ⟨3, _⟩ =>
    unfold GatherDims.start
    rw [dif_neg (by show ¬ _ ∈ ([0, 1, 2] : List (Fin 4)); simp [Fin.ext_iff])]
    unfold GatherDims.offCoord
    rw [dif_pos ((GatherDims.mem_sKept _ _).mpr ⟨by show ¬ _ ∈ ([0, 1, 2] : List (Fin 4)); simp [Fin.ext_iff], List.not_mem_nil⟩)]
    simp only [Nat.zero_add]
    rfl

/-- The two gathers look up the same entry: the rank-4 gather read at (p, q, r, k) is the rank-3 gather, read at (p, q, r),
    of any rank-3 table that is the rank-4 table's k-th plane. -/
theorem gather4_eq_gather3_plane {A B C K P Q R w : Nat} (hA : 0 < A) (hB : 0 < B) (hC : 0 < C)
    (wf4 : GatherDims.WF (⟨4, ![A, B, C, K]⟩ : Shape) ⟨4, ![P, Q, R, 3]⟩ ⟨4, ![P, Q, R, K]⟩ [3] [0, 1, 2] [] [0, 1, 2] [] 3 ![1, 1, 1, K])
    (wf3 : GatherDims.WF (⟨3, ![A, B, C]⟩ : Shape) ⟨4, ![P, Q, R, 3]⟩ ⟨3, ![P, Q, R]⟩ [] [0, 1, 2] [] [0, 1, 2] [] 3 ![1, 1, 1])
    (x : (⟨4, ![A, B, C, K]⟩ : Shape).Idx → α) (y : (⟨3, ![A, B, C]⟩ : Shape).Idx → α) (k : Fin K)
    (hplane : ∀ (a : Fin A) (b : Fin B) (c : Fin C), y (ix3 a b c) = x (ix4 a b c k))
    (idx : IVec ⟨4, ![P, Q, R, 3]⟩ w) (p : Fin P) (q : Fin Q) (r : Fin R) :
    Host.gather (dims3 A B C P Q R wf3) y idx (ix3 p q r) = Host.gather (dims4 A B C K P Q R wf4) x idx (ix4 p q r k) := by
  rw [gather3_apply hA hB hC wf3, gather4_apply hA hB hC wf4]
  exact hplane _ _ _

/-- Plane `k` of a table [A, B, C, K]: the table transposed to [K, A, B, C], sliced to the one row k of the leading axis,
    that unit axis dropped. Read at (a, b, c) it is the table at (a, b, c, k). -/
theorem plane_apply {A B C K : Nat} (x : (⟨4, ![A, B, C, K]⟩ : Shape).Idx → α) (k : Fin K)
    (ht : (⟨4, ![A, B, C, K]⟩ : Shape).Transposes [3, 0, 1, 2] ⟨4, ![K, A, B, C]⟩)
    (hs : (⟨4, ![K, A, B, C]⟩ : Shape).Slices ![k.val, 0, 0, 0] ⟨4, ![1, A, B, C]⟩)
    (hc : (⟨4, ![1, A, B, C]⟩ : Shape).ShapeCasts ⟨3, ![A, B, C]⟩) (a : Fin A) (b : Fin B) (c : Fin C) :
    shapeCast ⟨3, ![A, B, C]⟩ (extractStridedSlice ⟨4, ![1, A, B, C]⟩ ![k.val, 0, 0, 0]
        (transpose ⟨4, ![K, A, B, C]⟩ [3, 0, 1, 2] x ht) hs) hc (ix3 a b c)
      = x (ix4 a b c k) := by
  refine (shapeCast_apply _ hc (ix3 a b c) (ix4 (0 : Fin 1) a b c) (by
    rw [Shape.rowMajor_val_four, Shape.rowMajor_val_three]
    show ((0 * A + a.val) * B + b.val) * C + c.val = (a.val * B + b.val) * C + c.val
    rw [Nat.zero_mul, Nat.zero_add])).trans ?_
  refine (extractStridedSlice_apply _ _ hs (ix4 (0 : Fin 1) a b c) (ix4 k a b c) (fun ax => by
    match ax with
    | ⟨0, _⟩ => show k.val = k.val + 0; rw [Nat.add_zero]
    | ⟨1, _⟩ => show a.val = 0 + a.val; rw [Nat.zero_add]
    | ⟨2, _⟩ => show b.val = 0 + b.val; rw [Nat.zero_add]
    | ⟨3, _⟩ => show c.val = 0 + c.val; rw [Nat.zero_add])).trans ?_
  exact transpose_apply [3, 0, 1, 2] x ht (ix4 k a b c) (ix4 a b c k) (fun ax => by
    match ax with
    | ⟨0, _⟩ => rfl
    | ⟨1, _⟩ => rfl
    | ⟨2, _⟩ => rfl
    | ⟨3, _⟩ => rfl)

end Cert.LibGatherTriple
-- ==== Proof.LibMergeSplit.lean ====
/-
  Two row-major reshapes read at an index given by coordinates: merging the two leading axes, [a, b, c] → [n, c] with
  n = a·b, read at (p·b + q, k), is the operand at (p, q, k); splitting the leading axis, [n, c] → [a, b, c], read at
  (p, q, k), is the operand at (p·b + q, k). The extent n is whatever literal the shape carries: only the row-major
  positions are compared.
-/
import Idealize.ShloMosaic.Lib.Pipeline.Value
import Idealize.ShloMosaic.Lib.ValueIdx

namespace Cert.LibMergeSplit

open Idealize.ShloMosaic Idealize.ShloMosaic.ValueIdx

variable {α : Type}

/-- [a, b, c] → [n, c] read at (p·b + q, k). -/
theorem merge_apply {a b c n : ℕ} (x : (⟨3, ![a, b, c]⟩ : Shape).Idx → α)
    (h : (⟨3, ![a, b, c]⟩ : Shape).ShapeCasts ⟨2, ![n, c]⟩) (p : Fin a) (q : Fin b) (k : Fin c)
    (hlt : p.val * b + q.val < n) :
    shapeCast ⟨2, ![n, c]⟩ x h (ix2 ⟨p.val * b + q.val, hlt⟩ k) = x (ix3 p q k) :=
  shapeCast_apply x h _ _ (by rw [Shape.rowMajor_val_three, Shape.rowMajor_val_two]; rfl)

/-- [n, c] → [a, b, c] read at (p, q, k). -/
theorem split_apply {a b c n : ℕ} (y : (⟨2, ![n, c]⟩ : Shape).Idx → α)
    (h : (⟨2, ![n, c]⟩ : Shape).ShapeCasts ⟨3, ![a, b, c]⟩) (p : Fin a) (q : Fin b) (k : Fin c)
    (hlt : p.val * b + q.val < n) :
    shapeCast ⟨3, ![a, b, c]⟩ y h (ix3 p q k) = y (ix2 ⟨p.val * b + q.val, hlt⟩ k) :=
  shapeCast_apply y h _ _ (by rw [Shape.rowMajor_val_three, Shape.rowMajor_val_two]; rfl)

end Cert.LibMergeSplit
-- ==== Proof.Bridge.lean ====
/-
  The two programs compute one function.

  Entry (f, r, 0) of the kernel program's result is row 8192·f + r of the region's output: one half times the sum over the
  128 neighbours of the kernel's term. The reference's entry is one half times zero plus the sum of its neighbour values.
  Neighbour by neighbour the two agree: the kernel's four coefficients are the planes of the transposed table gathered at
  the index triple, which are the four entries of the reference's gathered row; the fraction is the same array; and the
  kernel's flag test against one half is the reference's three nested zeroings (the one-neighbour lemma).
-/
import proofs.«112457_j25537875542623_2_alg».proof.Proof.KernelValue
import proofs.«112457_j25537875542623_2_alg».proof.Proof.KernelInputs
import proofs.«112457_j25537875542623_2_alg».proof.Proof.RefSide
import proofs.«112457_j25537875542623_2_alg».proof.Proof.LibGatherTriple
import proofs.«112457_j25537875542623_2_alg».proof.Proof.LibMergeSplit

set_option maxRecDepth 16384

noncomputable section

namespace Cert.Bridge

open Cert.KernelIdeal Cert.KernelIdeal.Gen Cert.KernelIdeal.Hand Cert.KernelIdeal.HandValue
open Idealize.ShloMosaic Idealize.ShloMosaic.TcCoe Idealize.ShloMosaic.ValueIdx Idealize.SL.Sem
open Cert.KernelIdeal (Inputs.entry)

variable (m : (ℓ : Loc nD τ sig) → Buf (Elt Ideal) ℓ)

/-- Plane 0 gathered at the index triple is coefficient 0 of the gathered table row. -/
theorem gather_plane0 (c : Dev nD) (f : Fin 8) (r : Fin 8192) (l : Fin 128) :
    Host.gather gather_S4x4x2000_S8x8192x128x3_S8x8192x128_n_012_n_n_012_3_111 (Inputs.plane0 m c) (Inputs.triple m c) (ix3 f r l)
      = Cert.ReferenceIdeal.Read.val_main_v49 (F := Ideal) (m ((c.tc : Thread nD τ).loc main_arg0)) (m ((c.tc : Thread nD τ).loc main_arg1)) (m ((c.tc : Thread nD τ).loc main_arg2)) (m ((c.tc : Thread nD τ).loc main_arg3)) (m ((c.tc : Thread nD τ).loc main_arg4)) (ix4 f r l (0 : Fin 4)) :=
  Cert.LibGatherTriple.gather4_eq_gather3_plane (by norm_num) (by norm_num) (by norm_num)
    Cert.ReferenceIdeal.Gen.gather_S4x4x2000x4_S8x8192x128x3_S8x8192x128x4_3_012_n_n_012_3_1114_wf
    gather_S4x4x2000_S8x8192x128x3_S8x8192x128_n_012_n_n_012_3_111_wf
    (m ((c.tc : Thread nD τ).loc main_arg1)) (Inputs.plane0 m c) (0 : Fin 4)
    (fun a b c' => Cert.LibGatherTriple.plane_apply (m ((c.tc : Thread nD τ).loc main_arg1)) (0 : Fin 4) transposes_S4x4x2000x4_S4x4x4x2000_3_0_1_2
      slices_S4x4x4x2000_S1x4x4x2000_0_0_0_0 shapeCasts_S1x4x4x2000_S4x4x2000 a b c')
    (Inputs.triple m c) f r l

/-- Plane 1 gathered at the index triple is coefficient 1 of the gathered table row. -/
theorem gather_plane1 (c : Dev nD) (f : Fin 8) (r : Fin 8192) (l : Fin 128) :
    Host.gather gather_S4x4x2000_S8x8192x128x3_S8x8192x128_n_012_n_n_012_3_111 (Inputs.plane1 m c) (Inputs.triple m c) (ix3 f r l)
      = Cert.ReferenceIdeal.Read.val_main_v49 (F := Ideal) (m ((c.tc : Thread nD τ).loc main_arg0)) (m ((c.tc : Thread nD τ).loc main_arg1)) (m ((c.tc : Thread nD τ).loc main_arg2)) (m ((c.tc : Thread nD τ).loc main_arg3)) (m ((c.tc : Thread nD τ).loc main_arg4)) (ix4 f r l (1 : Fin 4)) :=
  Cert.LibGatherTriple.gather4_eq_gather3_plane (by norm_num) (by norm_num) (by norm_num)
    Cert.ReferenceIdeal.Gen.gather_S4x4x2000x4_S8x8192x128x3_S8x8192x128x4_3_012_n_n_012_3_1114_wf
    gather_S4x4x2000_S8x8192x128x3_S8x8192x128_n_012_n_n_012_3_111_wf
    (m ((c.tc : Thread nD τ).loc main_arg1)) (Inputs.plane1 m c) (1 : Fin 4)
    (fun a b c' => Cert.LibGatherTriple.plane_apply (m ((c.tc : Thread nD τ).loc main_arg1)) (1 : Fin 4) transposes_S4x4x2000x4_S4x4x4x2000_3_0_1_2
      slices_S4x4x4x2000_S1x4x4x2000_1_0_0_0 shapeCasts_S1x4x4x2000_S4x4x2000 a b c')
    (Inputs.triple m c) f r l

/-- Plane 2 gathered at the index triple is coefficient 2 of the gathered table row. -/
theorem gather_plane2 (c : Dev nD) (f : Fin 8) (r : Fin 8192) (l : Fin 128) :
    Host.gather gather_S4x4x2000_S8x8192x128x3_S8x8192x128_n_012_n_n_012_3_111 (Inputs.plane2 m c) (Inputs.triple m c) (ix3 f r l)
      = Cert.ReferenceIdeal.Read.val_main_v49 (F := Ideal) (m ((c.tc : Thread nD τ).loc main_arg0)) (m ((c.tc : Thread nD τ).loc main_arg1)) (m ((c.tc : Thread nD τ).loc main_arg2)) (m ((c.tc : Thread nD τ).loc main_arg3)) (m ((c.tc : Thread nD τ).loc main_arg4)) (ix4 f r l (2 : Fin 4)) :=
  Cert.LibGatherTriple.gather4_eq_gather3_plane (by norm_num) (by norm_num) (by norm_num)
    Cert.ReferenceIdeal.Gen.gather_S4x4x2000x4_S8x8192x128x3_S8x8192x128x4_3_012_n_n_012_3_1114_wf
    gather_S4x4x2000_S8x8192x128x3_S8x8192x128_n_012_n_n_012_3_111_wf
    (m ((c.tc : Thread nD τ).loc main_arg1)) (Inputs.plane2 m c) (2 : Fin 4)
    (fun a b c' => Cert.LibGatherTriple.plane_apply (m ((c.tc : Thread nD τ).loc main_arg1)) (2 : Fin 4) transposes_S4x4x2000x4_S4x4x4x2000_3_0_1_2
      slices_S4x4x4x2000_S1x4x4x2000_2_0_0_0 shapeCasts_S1x4x4x2000_S4x4x2000 a b c')
    (Inputs.triple m c) f r l

/-- Plane 3 gathered at the index triple is coefficient 3 of the gathered table row. -/
theorem gather_plane3 (c : Dev nD) (f : Fin 8) (r : Fin 8192) (l : Fin 128) :
    Host.gather gather_S4x4x2000_S8x8192x128x3_S8x8192x128_n_012_n_n_012_3_111 (Inputs.plane3 m c) (Inputs.triple m c) (ix3 f r l)
      = Cert.ReferenceIdeal.Read.val_main_v49 (F := Ideal) (m ((c.tc : Thread nD τ).loc main_arg0)) (m ((c.tc : Thread nD τ).loc main_arg1)) (m ((c.tc : Thread nD τ).loc main_arg2)) (m ((c.tc : Thread nD τ).loc main_arg3)) (m ((c.tc : Thread nD τ).loc main_arg4)) (ix4 f r l (3 : Fin 4)) :=
  Cert.LibGatherTriple.gather4_eq_gather3_plane (by norm_num) (by norm_num) (by norm_num)
    Cert.ReferenceIdeal.Gen.gather_S4x4x2000x4_S8x8192x128x3_S8x8192x128x4_3_012_n_n_012_3_1114_wf
    gather_S4x4x2000_S8x8192x128x3_S8x8192x128_n_012_n_n_012_3_111_wf
    (m ((c.tc : Thread nD τ).loc main_arg1)) (Inputs.plane3 m c) (3 : Fin 4)
    (fun a b c' => Cert.LibGatherTriple.plane_apply (m ((c.tc : Thread nD τ).loc main_arg1)) (3 : Fin 4) transposes_S4x4x2000x4_S4x4x4x2000_3_0_1_2
      slices_S4x4x4x2000_S1x4x4x2000_3_0_0_0 shapeCasts_S1x4x4x2000_S4x4x2000 a b c')
    (Inputs.triple m c) f r l

/-- One neighbour: the kernel's term of the six region-entry arrays at row 8192·f + r, lane l, is the reference's
    neighbour value at (f, r, l). -/
theorem nbr_eq (c : Dev nD) (f : Fin 8) (r : Fin 8192) (l : Fin 128) (hR : f.val * 8192 + r.val < 65536) :
    term (V m c main_v132 (ix2 ⟨f.val * 8192 + r.val, hR⟩ l)) (V m c main_v133 (ix2 ⟨f.val * 8192 + r.val, hR⟩ l))
        (V m c main_v134 (ix2 ⟨f.val * 8192 + r.val, hR⟩ l)) (V m c main_v135 (ix2 ⟨f.val * 8192 + r.val, hR⟩ l))
        (V m c main_v136 (ix2 ⟨f.val * 8192 + r.val, hR⟩ l)) (V m c main_v137 (ix2 ⟨f.val * 8192 + r.val, hR⟩ l))
      = Cert.ReferenceIdeal.RefValue.nbr (m ((c.tc : Thread nD τ).loc main_arg0)) (m ((c.tc : Thread nD τ).loc main_arg1)) (m ((c.tc : Thread nD τ).loc main_arg2)) (m ((c.tc : Thread nD τ).loc main_arg3)) (m ((c.tc : Thread nD τ).loc main_arg4)) f r l := by
  rw [show V m c main_v132 = _ from Inputs.entry_v132 m c, show V m c main_v133 = _ from Inputs.entry_v133 m c,
    show V m c main_v134 = _ from Inputs.entry_v134 m c, show V m c main_v135 = _ from Inputs.entry_v135 m c,
    show V m c main_v136 = _ from Inputs.entry_v136 m c, show V m c main_v137 = _ from Inputs.entry_v137 m c]
  rw [Cert.LibMergeSplit.merge_apply _ shapeCasts_S8x8192x128_S65536x128 f r l hR,
    Cert.LibMergeSplit.merge_apply _ shapeCasts_S8x8192x128_S65536x128 f r l hR,
    Cert.LibMergeSplit.merge_apply _ shapeCasts_S8x8192x128_S65536x128 f r l hR,
    Cert.LibMergeSplit.merge_apply _ shapeCasts_S8x8192x128_S65536x128 f r l hR,
    Cert.LibMergeSplit.merge_apply _ shapeCasts_S8x8192x128_S65536x128 f r l hR,
    Cert.LibMergeSplit.merge_apply _ shapeCasts_S8x8192x128_S65536x128 f r l hR]
  rw [gather_plane0, gather_plane1, gather_plane2, gather_plane3]
  unfold term Cert.ReferenceIdeal.RefValue.nbr Cert.ReferenceIdeal.RefValue.coef
  exact Cert.Spline.elem_eq
    (Cert.ReferenceIdeal.Read.val_main_v5 (F := Ideal) (m ((c.tc : Thread nD τ).loc main_arg4)) (ix3 f r l))
    (Cert.ReferenceIdeal.Read.val_main_v74 (F := Ideal) (m ((c.tc : Thread nD τ).loc main_arg0)) (m ((c.tc : Thread nD τ).loc main_arg2)) (m ((c.tc : Thread nD τ).loc main_arg4)) (ix3 f r l))
    (Cert.ReferenceIdeal.Read.val_main_v24 (F := Ideal) (m ((c.tc : Thread nD τ).loc main_arg0)) (m ((c.tc : Thread nD τ).loc main_arg2)) (m ((c.tc : Thread nD τ).loc main_arg4)) (ix3 f r l)) 2000#32
    (Cert.ReferenceIdeal.Read.val_main_v49 (F := Ideal) (m ((c.tc : Thread nD τ).loc main_arg0)) (m ((c.tc : Thread nD τ).loc main_arg1)) (m ((c.tc : Thread nD τ).loc main_arg2)) (m ((c.tc : Thread nD τ).loc main_arg3)) (m ((c.tc : Thread nD τ).loc main_arg4)) (ix4 f r l (0 : Fin 4)))
    (Cert.ReferenceIdeal.Read.val_main_v49 (F := Ideal) (m ((c.tc : Thread nD τ).loc main_arg0)) (m ((c.tc : Thread nD τ).loc main_arg1)) (m ((c.tc : Thread nD τ).loc main_arg2)) (m ((c.tc : Thread nD τ).loc main_arg3)) (m ((c.tc : Thread nD τ).loc main_arg4)) (ix4 f r l (1 : Fin 4)))
    (Cert.ReferenceIdeal.Read.val_main_v49 (F := Ideal) (m ((c.tc : Thread nD τ).loc main_arg0)) (m ((c.tc : Thread nD τ).loc main_arg1)) (m ((c.tc : Thread nD τ).loc main_arg2)) (m ((c.tc : Thread nD τ).loc main_arg3)) (m ((c.tc : Thread nD τ).loc main_arg4)) (ix4 f r l (2 : Fin 4)))
    (Cert.ReferenceIdeal.Read.val_main_v49 (F := Ideal) (m ((c.tc : Thread nD τ).loc main_arg0)) (m ((c.tc : Thread nD τ).loc main_arg1)) (m ((c.tc : Thread nD τ).loc main_arg2)) (m ((c.tc : Thread nD τ).loc main_arg3)) (m ((c.tc : Thread nD τ).loc main_arg4)) (ix4 f r l (3 : Fin 4)))
    (Cert.ReferenceIdeal.Read.val_main_v26 (F := Ideal) (m ((c.tc : Thread nD τ).loc main_arg0)) (m ((c.tc : Thread nD τ).loc main_arg2)) (m ((c.tc : Thread nD τ).loc main_arg4)) (ix3 f r l))

/-- The row value depends on the row only through its number. -/
theorem rowVal_congr_fin {N : Nat} (A3 A2 A1 A0 U Vf : (⟨2, ![N, 128]⟩ : Shape).Idx → EReal) (R R' : Fin N) (h : R'.val = R.val) :
    rowVal A3 A2 A1 A0 U Vf R' = rowVal A3 A2 A1 A0 U Vf R := by
  cases Fin.ext h; rfl

/-- A row value whose 128 terms are known: one half times their sum. -/
theorem rowVal_eq_of_terms {N : Nat} (A3 A2 A1 A0 U Vf : (⟨2, ![N, 128]⟩ : Shape).Idx → EReal) (R : Fin N) (g : Fin 128 → EReal)
    (h : ∀ l : Fin 128, term (A3 (ix2 R l)) (A2 (ix2 R l)) (A1 (ix2 R l)) (A0 (ix2 R l)) (U (ix2 R l)) (Vf (ix2 R l)) = g l) :
    rowVal A3 A2 A1 A0 U Vf R = Ideal.ofBits .f32 0x3F000000#32 * ∑ l : Fin 128, g l := by
  unfold rowVal
  exact congrArg (fun s : EReal => Ideal.ofBits .f32 0x3F000000#32 * s) (Finset.sum_congr rfl fun l _ => h l)

/-- The region's output array at row R: the row value of the six region-entry arrays. -/
theorem Gout_row (c : Dev nD) (R : Fin 65536) (u : Fin 1) :
    Gout m c (ix2 R u)
      = rowVal (V m c main_v132) (V m c main_v133) (V m c main_v134) (V m c main_v135) (V m c main_v136) (V m c main_v137) R := by
  unfold Gout
  exact rowVal_congr_fin _ _ _ _ _ _ R _ rfl

/-- The kernel program's result is the reference's last stage of the same five arguments. -/
theorem result_eq (c : Dev nD) :
    result m c = Cert.ReferenceIdeal.Read.val_main_v80 (F := Ideal) (m ((c.tc : Thread nD τ).loc main_arg0)) (m ((c.tc : Thread nD τ).loc main_arg1)) (m ((c.tc : Thread nD τ).loc main_arg2)) (m ((c.tc : Thread nD τ).loc main_arg3)) (m ((c.tc : Thread nD τ).loc main_arg4)) := by
  funext i
  obtain ⟨f, r, u, rfl⟩ : ∃ (f : Fin 8) (r : Fin 8192) (u : Fin 1), i = ix3 f r u :=
    ⟨i 0, i 1, i 2, eq_ix3 (n0 := 8) (n1 := 8192) (n2 := 1) i⟩
  have hR : f.val * 8192 + r.val < 65536 := by have := f.isLt; have := r.isLt; omega
  rw [Cert.ReferenceIdeal.RefValue.ref_at, Ideal.ofBits_zero_f32, zero_add]
  unfold result
  rw [Cert.LibMergeSplit.split_apply (Gout m c) shapeCasts_S65536x1_S8x8192x1 f r u hR, Gout_row]
  exact rowVal_eq_of_terms _ _ _ _ _ _ ⟨f.val * 8192 + r.val, hR⟩ _ (fun l => nbr_eq m c f r l hR)

end Cert.Bridge

end
-- ==== Proof.lean ====
/-
  The certificate of the pair-table kernel against its jnp reference.

  The three frames: the two kernel programs' are the hand-written frame of the one pallas_call with host lines on both sides
  (the same text at both float instances); the reference's is its run with the result dropped. The idealization rewrote
  nothing, so "preserves" is trivial. "Algebraic": from memories agreeing on the five arguments both programs end with the
  same result — the kernel's, read off its frame run, is the reference's last stage of the same arguments.
-/
import proofs.«112457_j25537875542623_2_alg».proof.Defs
import proofs.«112457_j25537875542623_2_alg».proof.Proof.Gen.Kernel
import proofs.«112457_j25537875542623_2_alg».proof.Proof.Gen.KernelIdeal
import proofs.«112457_j25537875542623_2_alg».proof.Proof.Gen.ReferenceIdeal
import proofs.«112457_j25537875542623_2_alg».proof.Proof.Gen.Pre_finite_inputs
import proofs.«112457_j25537875542623_2_alg».proof.Proof.FrameKernel
import proofs.«112457_j25537875542623_2_alg».proof.Proof.FrameKernelIdeal
import proofs.«112457_j25537875542623_2_alg».proof.Proof.KernelValue
import proofs.«112457_j25537875542623_2_alg».proof.Proof.RefRunHand
import proofs.«112457_j25537875542623_2_alg».proof.Proof.Bridge
import Idealize.ShloMosaic.Adequacy
import Idealize.ShloMosaic.Init

noncomputable section

namespace Cert.Proof

open Idealize.ShloMosaic Idealize.SL.Sem

theorem frame_k : Cert.frame_Kernel := fun m ρ _ => Cert.Kernel.Hand.frame m ρ
theorem frame_ki : Cert.frame_KernelIdeal := fun m ρ _ => Cert.KernelIdeal.Hand.frame m ρ
theorem frame_ri : Cert.frame_ReferenceIdeal := fun m ρ _ =>
  (θ_run Cert.ReferenceIdeal.defs _ _).mono (fun _ h c => (h c).2) (Cert.ReferenceIdeal.RefValue.run (F := Ideal) m ρ)

theorem preserves : Cert.preserves_Kernel_KernelIdeal := trivial

/-- Both runs end at the same result: the reference's last stage of the kernel side's arguments. -/
theorem algebraic : Cert.algebraic_KernelIdeal_ReferenceIdeal := by
  intro m ρ m' ρ' _ hagree
  refine ⟨fun c => Cert.KernelIdeal.HandValue.result m c,
    (θ_run Cert.KernelIdeal.defs _ _).mono (fun _ h c => h c) (Cert.KernelIdeal.HandValue.run m ρ), ?_⟩
  refine (θ_run Cert.ReferenceIdeal.defs _ _).mono (fun _ h c => ⟨(h c).1.trans ?_, (h c).2⟩)
    (Cert.ReferenceIdeal.RefValue.run (F := Ideal) m' ρ')
  rw [(hagree c).1, (hagree c).2.1, (hagree c).2.2.1, (hagree c).2.2.2.1, (hagree c).2.2.2.2]
  exact (Cert.Bridge.result_eq m c).symm

theorem claim : Cert.Claim := ⟨Cert.Kernel.Gen.facts, Cert.KernelIdeal.Gen.facts, Cert.ReferenceIdeal.Gen.facts, Cert.Pre_finite_inputs.Gen.facts,
  frame_k, frame_ki, frame_ri, preserves, algebraic⟩

end Cert.Proof

end
